-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S8192x256 : Shape := ⟨2, ![8192, 256]⟩
abbrev S8192x1 : Shape := ⟨2, ![8192, 1]⟩
abbrev S2048x256 : Shape := ⟨2, ![2048, 256]⟩
abbrev S2048x1 : Shape := ⟨2, ![2048, 1]⟩
abbrev S256x2048 : Shape := ⟨2, ![256, 2048]⟩
abbrev S2048x2048 : Shape := ⟨2, ![2048, 2048]⟩
abbrev S2048 : Shape := ⟨1, ![2048]⟩
abbrev S_ : Shape := ⟨0, ![]⟩

abbrev nBuf : Space → Nat
  | .hbm => 9
  | .vmem => 9
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .bf16⟩
  | .hbm, ⟨4, _⟩ => ⟨S8192x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x1, .f32⟩
  | .local _ .vmem, ⟨5, _⟩ => ⟨S2048x1, .f32⟩
  | .local _ .vmem, ⟨6, _⟩ => ⟨S2048x1, .f32⟩
  | .local _ .vmem, ⟨7, _⟩ => ⟨S2048x1, .f32⟩
  | .local _ .vmem, ⟨8, _⟩ => ⟨S2048x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v49 : BitVec 1 := Scalar.cmpi .eq arg1 c3_i32
  let v50 : BitVec 32 := Scalar.extui v49
  let c0_i32_20 : BitVec 32 := 0#32
  let v51 : BitVec 1 := Scalar.cmpi .ne v50 c0_i32_20
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  concatenates_S4096x256_S4096x256_S8192x256_d0 : Shape.Concatenates [S4096x256, S4096x256] S8192x256 0
  bitsLt_bf16_f32 : FTy.bits .bf16 < FTy.bits .f32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  transposes_S2048x256_p1_0_S256x2048 : S2048x256.Transposes [1, 0] S256x2048
  iota_S2048x2048_d0_w32 : S2048x2048.Iotas .tc 32 [0]
  iota_S2048x2048_d1_w32 : S2048x2048.Iotas .tc 32 [1]
  reduces_S2048x2048_S2048 : S2048x2048.Reduces [1] S2048
  shapeCasts_S2048_S2048x1 : S2048.ShapeCasts S2048x1
  broadcasts_S2048x1_S2048x2048 : S2048x1.Broadcasts S2048x2048
  reducesTo_S8192x1_S_d0_1 : S8192x1.ReducesTo [0, 1] S_
  h_S_ : 0 < S_.numel
  dot_S2048x256_S256x2048_S2048x2048_1_0_0_1_n_n_wf : DotDims.WF S2048x256 S256x2048 S2048x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .bf16 = 32 ∨ (Rect.block (s := S8192x256) S2048x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S8192x256.size a
  hwx0_1 : ∀ i : grid0.Coords, EltTy.bits .bf16 = 32 ∨ (Rect.block (s := S8192x256) S2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .f32 = 32 ∨ (Rect.block (s := S8192x1) S2048x1.size (cc0_transform_2 i) (hinb0_2 i)).WholeWords (EltTy.packing .f32)

variable [Facts₀]

def dot_S2048x256_S256x2048_S2048x2048_1_0_0_1_n_n : DotDims S2048x256 S256x2048 S2048x2048 where
  lhsContracting := [1]
  rhsContracting := [0]
  lhsNonContracting := [0]
  rhsNonContracting := [1]
  lhsBatch := []
  rhsBatch := []
  wf := dot_S2048x256_S256x2048_S2048x2048_1_0_0_1_n_n_wf

abbrev win0_0 : Pipeline.Window sig grid0 :=
  Pipeline.Window.ofSpec (Memref.whole main_v1) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

class Facts : Prop extends Facts₀ where

variable [Facts]
-- ==== ReferenceIdeal.lean ====
abbrev S4096x256 : Shape := ⟨2, ![4096, 256]⟩
abbrev S8192x256 : Shape := ⟨2, ![8192, 256]⟩
abbrev S256x8192 : Shape := ⟨2, ![256, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 72
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S256x8192, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S8192x8192, .i32⟩
  | .hbm, ⟨9, _⟩ => ⟨S8192x8192, .i32⟩
  | .hbm, ⟨10, _⟩ => ⟨S_, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S_, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S_, .i32⟩
  | .hbm, ⟨26, _⟩ => ⟨S8192, .i32⟩
  | .hbm, ⟨27, _⟩ => ⟨S8192, .i32⟩
  | .hbm, ⟨28, _⟩ => ⟨S8192, .i32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S8192x1, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1, .f32⟩
  | .hbm, ⟨42, _⟩ => ⟨S8192x8192, .f32⟩
  | .hbm, ⟨43, _⟩ => ⟨S8192x8192, .f32⟩
  | .hbm, ⟨44, _⟩ => ⟨S8192x1, .i32⟩
  | .hbm, ⟨45, _⟩ => ⟨S_, .i32⟩
  | .hbm, ⟨46, _⟩ => ⟨S8192x1, .i32⟩
  | .hbm, ⟨47, _⟩ => ⟨S8192x1, .i1⟩
  | .hbm, ⟨48, _⟩ => ⟨S_, .i32⟩
  | .hbm, ⟨49, _⟩ => ⟨S8192x1, .i32⟩
  | .hbm, ⟨50, _⟩ => ⟨S8192x1, .i32⟩
  | .hbm, ⟨51, _⟩ => ⟨S8192x1, .i32⟩
  | .hbm, ⟨52, _⟩ => ⟨S8192x1x1, .i32⟩
  | .hbm, ⟨53, _⟩ => ⟨S1, .i32⟩
  | .hbm, ⟨54, _⟩ => ⟨S_, .i32⟩
  | .hbm, ⟨55, _⟩ => ⟨S8192x1x1, .i32⟩
  | .hbm, ⟨56, _⟩ => ⟨S8192x1x1, .i1⟩
  | .hbm, ⟨57, _⟩ => ⟨S1x1x1, .i32⟩
  | .hbm, ⟨58, _⟩ => ⟨S8192x1x1, .i32⟩
  | .hbm, ⟨59, _⟩ => ⟨S8192x1x1, .i1⟩
  | .hbm, ⟨60, _⟩ => ⟨S8192x1x1, .i1⟩
  | .hbm, ⟨61, _⟩ => ⟨S_, .i1⟩
  | .hbm, ⟨62, _⟩ => ⟨S8192x1, .i1⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call2_cst : Ref sig .tc := ⟨.hbm, 29, rfl⟩
abbrev main_call2_v0 : Ref sig .tc := ⟨.hbm, 30, rfl⟩
abbrev main_call2_cst_0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_v6 : Ref sig .tc := ⟨.hbm, 37, rfl⟩
abbrev main_call2_cst_1 : Ref sig .tc := ⟨.hbm, 38, rfl⟩
abbrev main_call2_v7 : Ref sig .tc := ⟨.hbm, 39, rfl⟩
abbrev main_call2_v8 : Ref sig .tc := ⟨.hbm, 40, rfl⟩
abbrev main_call2_v9 : Ref sig .tc := ⟨.hbm, 41, rfl⟩
abbrev main_call2_v10 : Ref sig .tc := ⟨.hbm, 42, rfl⟩
abbrev main_v19 : Ref sig .tc := ⟨.hbm, 43, rfl⟩
abbrev main_v20 : Ref sig .tc := ⟨.hbm, 44, rfl⟩
abbrev main_call3_c : Ref sig .tc := ⟨.hbm, 45, rfl⟩
abbrev main_call3_v0 : Ref sig .tc := ⟨.hbm, 46, rfl⟩
abbrev main_call3_v1 : Ref sig .tc := ⟨.hbm, 47, rfl⟩
abbrev main_call3_c_0 : Ref sig .tc := ⟨.hbm, 48, rfl⟩
abbrev main_call3_v2 : Ref sig .tc := ⟨.hbm, 49, rfl⟩
abbrev main_call3_v3 : Ref sig .tc := ⟨.hbm, 50, rfl⟩
abbrev main_call3_v4 : Ref sig .tc := ⟨.hbm, 51, rfl⟩
abbrev main_call3_v5 : Ref sig .tc := ⟨.hbm, 52, rfl⟩
abbrev main_call3_c_1 : Ref sig .tc := ⟨.hbm, 53, rfl⟩
abbrev main_call3_c_2 : Ref sig .tc := ⟨.hbm, 54, rfl⟩
abbrev main_call3_v6 : Ref sig .tc := ⟨.hbm, 55, rfl⟩
abbrev main_call3_v7 : Ref sig .tc := ⟨.hbm, 56, rfl⟩
abbrev main_call3_v8 : Ref sig .tc := ⟨.hbm, 57, rfl⟩
abbrev main_call3_v9 : Ref sig .tc := ⟨.hbm, 58, rfl⟩
abbrev main_call3_v10 : Ref sig .tc := ⟨.hbm, 59, rfl⟩
abbrev main_call3_v11 : Ref sig .tc := ⟨.hbm, 60, rfl⟩
abbrev main_call3_c_3 : Ref sig .tc := ⟨.hbm, 61, rfl⟩
abbrev main_call3_v12 : Ref sig .tc := ⟨.hbm, 62, rfl⟩
abbrev main_call3_v13 : Ref sig .tc := ⟨.hbm, 63, rfl⟩
abbrev main_call3_cst : Ref sig .tc := ⟨.hbm, 64, rfl⟩
abbrev main_call3_v14 : Ref sig .tc := ⟨.hbm, 65, rfl⟩
abbrev main_v21 : Ref sig .tc := ⟨.hbm, 66, rfl⟩
abbrev main_cst_4 : Ref sig .tc := ⟨.hbm, 67, rfl⟩
abbrev main_v22 : Ref sig .tc := ⟨.hbm, 68, rfl⟩
abbrev main_cst_5 : Ref sig .tc := ⟨.hbm, 69, rfl⟩
abbrev main_v23 : Ref sig .tc := ⟨.hbm, 70, rfl⟩
abbrev main_v24 : Ref sig .tc := ⟨.hbm, 71, rfl⟩

abbrev nD : Nat := 1
abbrev τ : Topo := Topo.v7x

variable {F : FTy → Type} [FloatOps F]

class Facts₀ : Prop where
  concatenates_S4096x256_S4096x256_S8192x256_d0 : Shape.Concatenates [S4096x256, S4096x256] S8192x256 0
  transposes_S8192x256_S256x8192_1_0 : S8192x256.Transposes [1, 0] S256x8192
  bcast_S_S8192x8192 : S_.BroadcastsInDim S8192x8192 (![] : Fin 0 → Fin S8192x8192.rank)
  bcast_S_S8192 : S_.BroadcastsInDim S8192 (![] : Fin 0 → Fin S8192.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  reducesTo_S8192x1_S_d0_1 : S8192x1.ReducesTo [0, 1] S_
  dot_S8192x256_S256x8192_S8192x8192_1_0_0_1_n_n_wf : DotDims.WF S8192x256 S256x8192 S8192x8192 [1] [0] [0] [1] [] []
  gather_S8192x8192_S8192x1x1_S8192x1_n_1_0_0_1_2_11_wf : GatherDims.WF S8192x8192 S8192x1x1 S8192x1 [] [1] [0] [1] [0] 2 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S8192x1x1_S8192x1_n_1_0_0_1_2_11 : GatherDims S8192x8192 S8192x1x1 S8192x1 where
  offsetDims := []
  collapsedSliceDims := [1]
  operandBatchingDims := [0]
  startIndicesBatchingDims := [0]
  startIndexMap := [1]
  indexVectorDim := 2
  sliceSizes := ![1, 1]
  wf := gather_S8192x8192_S8192x1x1_S8192x1_n_1_0_0_1_2_11_wf

class Facts : Prop extends Facts₀ where

variable [Facts]
-- ==== Proof.BodyDefsBits.lean ====
/-
  What the runs of the kernel body are stated over: the three branch conditions of the body as propositions of the grid
  point, decided over the sixteen points; where the output window is idle and where it is written back; the staging and
  scratch memrefs as the pipeline passes them.

  The grid is 4 × 4: point t = 4·r + c handles row tile r against column tile c. The body resets its three running
  columns (the running maximum, the running sum, the positive's similarity) when c = 0; records the positive's
  similarity when c is the mirror tile of r (r + 2 for r < 2, r − 2 otherwise); and writes its result when c = 3.
-/
import proofs.«169670_j40578851012794_1_alg».proof.Proof.Gen.Kernel.Launch
import proofs.«169670_j40578851012794_1_alg».proof.Proof.Gen.Kernel.Skeleton
import proofs.«169670_j40578851012794_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The column tile is the first one: the running columns are reset. -/
abbrev cond0 (i : grid0.Coords) : Prop :=
  (Scalar.cmpi .ne (Scalar.extui (Scalar.cmpi .eq (BitVec.ofNat 32 (i 1).val) 0#32)) 0#32) = 1#1
theorem hcond0 : ∀ t : Fin cfg0.N, cond0 (grid0.coords t) ↔ t.val % 4 = 0 :=
  (by decide +kernel : ∀ t : Fin grid0.N, cond0 (grid0.coords t) ↔ t.val % 4 = 0)

/-- The column tile is the mirror of the row tile: it holds every row's positive. -/
abbrev cond1 (i : grid0.Coords) : Prop :=
  (Scalar.cmpi .ne (Scalar.extui (Scalar.cmpi .eq (BitVec.ofNat 32 (i 1).val)
    (Scalar.select (Scalar.cmpi .slt (BitVec.ofNat 32 (i 0).val) 2#32) (Scalar.addi (BitVec.ofNat 32 (i 0).val) 2#32)
      (Scalar.subi (BitVec.ofNat 32 (i 0).val) 2#32)))) 0#32) = 1#1
theorem hcond1 : ∀ t : Fin cfg0.N, cond1 (grid0.coords t) ↔ (t.val = 2 ∨ t.val = 7 ∨ t.val = 8 ∨ t.val = 13) :=
  (by decide +kernel : ∀ t : Fin grid0.N, cond1 (grid0.coords t) ↔ (t.val = 2 ∨ t.val = 7 ∨ t.val = 8 ∨ t.val = 13))

/-- The column tile is the last one: the row tile's result is written. -/
abbrev cond2 (i : grid0.Coords) : Prop := k0_cond3 i = 1#1
theorem hcond2 : ∀ t : Fin cfg0.N, cond2 (grid0.coords t) ↔ t.val % 4 = 3 :=
  (by decide +kernel : ∀ t : Fin grid0.N, cond2 (grid0.coords t) ↔ t.val % 4 = 3)

/-- The input windows are never idle. -/
theorem live0 : ∀ t : Fin cfg0.N, cfg0.idle 0 (grid0.coords t) = false := by decide +kernel
theorem live1 : ∀ t : Fin cfg0.N, cfg0.idle 1 (grid0.coords t) = false := by decide +kernel
/-- The output window is idle exactly away from the last column tile, and is not written back there. -/
theorem idle2 : ∀ t : Fin cfg0.N, ¬cond2 (grid0.coords t) → cfg0.idle 2 (grid0.coords t) = true := by decide +kernel
theorem noFlush2 : ∀ t : Fin cfg0.N, ¬cond2 (grid0.coords t) → (cfg0.win 2).flush t = false := by decide +kernel
theorem live2 : ∀ t : Fin cfg0.N, cond2 (grid0.coords t) → cfg0.idle 2 (grid0.coords t) = false := by decide +kernel

/-- Each window's current staging memref at point `t`, as the pipeline passes it, and its wholeness. -/
abbrev ms0 (t : Fin cfg0.N) : Memref sig .tc .vmem S2048x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x1 .f32 := win0_2.stage (cfg0.slots t 2)
abbrev hs2 (t : Fin cfg0.N) : (ms2 t).IsWhole := hstage0_2 ((cfg0.slots t 2).cast nbuf0_2)
/-- The three running columns: the running maximum, the running sum, the positive's similarity. -/
abbrev scM : Memref sig .tc .vmem S2048x1 .f32 := Memref.whole cc0_scratch0
abbrev scL : Memref sig .tc .vmem S2048x1 .f32 := Memref.whole cc0_scratch1
abbrev scP : Memref sig .tc .vmem S2048x1 .f32 := Memref.whole cc0_scratch2

end Cert.Kernel.Body

end
-- ==== Proof.EntryContentsBits.lean ====
/-
  The contents of the TensorCore buffers when the kernel region is entered: the launch contents after the two host
  operations that stack the two views and change their format.
-/
import proofs.«169670_j40578851012794_1_alg».proof.Proof.Gen.Kernel.Launch

noncomputable section

namespace Cert.Kernel.Entry

open Cert.Kernel Cert.Kernel.Gen
open Idealize.ShloMosaic Idealize.ShloMosaic.TcCoe Idealize.SL.Sem

variable {F : FTy → Type} [FloatOps F]

/-- Core `c`'s buffer contents at the region's entry, as a valuation. -/
abbrev V0 (m : (ℓ : Loc nD τ sig) → Buf (Elt F) ℓ) (c : Dev nD) : Valuation τ sig (Elt F) :=
  StableHlo.after (List.flatten [hostOps0]) (fun b => m (c, b))
/-- The same read at a TensorCore reference. -/
abbrev V (m : (ℓ : Loc nD τ sig) → Buf (Elt F) ℓ) (c : Dev nD) (b : Ref sig .tc) : Buf (Elt F) ((c : Thread nD τ).loc b) :=
  V0 m c (Proc.devRef .tc b)

/-- The share each window holds of its array: the row-tile window and the column-tile window read ONE array and hold a
    half of it each; the output window holds its array whole. -/
def qs : Fin 3 → Idealize.SL.RA.PosShare Idealize.SL.RA.TreeShare
  | ⟨0, _⟩ => Idealize.SL.RA.fullShare.left
  | ⟨1, _⟩ => Idealize.SL.RA.fullShare.right
  | _ => Idealize.SL.RA.fullShare

end Cert.Kernel.Entry

end
-- ==== Proof.ProofDataBits.lean ====
/-
  The proof data of the kernel region.

  One grid point (r, c) takes the three running columns (ym, yl, yp) — the running maximum of each row of the row tile, its
  running sum of exponentials, and its positive's similarity — to new ones: where c = 0 the columns are first reset to
  (−∞, 0, 0); the maximum is raised by the tile's row maxima, the sum is rescaled to the new maximum and the tile's
  exponentials are added; where c is the row tile's mirror the positive's similarity is read off the tile's diagonal. The
  result column  max + log sum − positive  is what the output window's buffer holds after the point (it is written back
  only where c = 3). The state after point n is the fold of these steps over the points 0 … n.
-/
import proofs.«169670_j40578851012794_1_alg».proof.Proof.BodyDefsBits
import proofs.«169670_j40578851012794_1_alg».proof.Proof.EntryContentsBits
import Idealize.ShloMosaic.Lib.Pipeline.Value

set_option maxRecDepth 16384

noncomputable section

namespace Cert.Kernel.Body

open Cert.Kernel Cert.Kernel.Gen Cert.Kernel.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The tile's row numbers and column numbers. -/
abbrev rowIota : IVec S2048x2048 32 := iota .tc S2048x2048 32 [0] iota_S2048x2048_d0_w32
abbrev colIota : IVec S2048x2048 32 := iota .tc S2048x2048 32 [1] iota_S2048x2048_d1_w32

/-! ## One grid point on the running columns -/

section Step
variable (i : grid0.Coords) (x0 x1 : Vec F S2048x256 .bf16)

/-- The running maximum the point starts from: −∞ at the first column tile. -/
def mIn (ym : Vec F S2048x1 .f32) : Vec F S2048x1 .f32 := if cond0 i then k0_pay5 else ym
/-- The running sum the point starts from: 0 at the first column tile. -/
def lIn (yl : Vec F S2048x1 .f32) : Vec F S2048x1 .f32 := if cond0 i then k0_pay6 else yl
/-- The positive's similarity the point starts from: 0 at the first column tile. -/
def pIn (yp : Vec F S2048x1 .f32) : Vec F S2048x1 .f32 := if cond0 i then k0_pay7 else yp
/-- The running maximum after the point. -/
def mOut (ym : Vec F S2048x1 .f32) : Vec F S2048x1 .f32 := k0_pay2 (k0_pay9 i x0 x1 (mIn i ym))
/-- The running sum after the point. -/
def lOut (ym yl : Vec F S2048x1 .f32) : Vec F S2048x1 .f32 := k0_pay1 (k0_pay10 i x0 x1 (mIn i ym) (lIn i yl))
/-- The positive's similarity after the point: the tile's diagonal at the mirror tile. -/
def pOut (yp : Vec F S2048x1 .f32) : Vec F S2048x1 .f32 :=
  if cond1 i then k0_pay3 rowIota colIota (k0_pay8 i x0 x1) else pIn i yp
/-- The result column after the point. -/
def oOut (ym yl yp : Vec F S2048x1 .f32) : Vec F S2048x1 .f32 :=
  k0_pay4 (mOut i x0 x1 ym) (lOut i x0 x1 ym yl) (pOut i x0 x1 yp)

end Step

variable (m : (ℓ : Loc nD τ sig) → Buf (Elt F) ℓ)

/-! ## The windows' blocks and the state after each point -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Position `n` as a grid point (positions past the grid wrap: they are never consulted). -/
def pt (n : ℕ) : Fin cfg0.N := ⟨n % 16, by rw [show cfg0.N = 16 from N_0]; omega⟩

theorem pt_val (t : Fin cfg0.N) : pt t.val = t :=
  Fin.ext (Nat.mod_eq_of_lt (lt_of_lt_of_eq t.isLt (show cfg0.N = 16 from N_0)))

/-- The running columns (maximum, sum, positive) after position `n`, and before it (`Sprev`): before the first
    position anything — that point resets them —, here the reset values. -/
def S (c : Dev nD) : ℕ → Vec F S2048x1 .f32 × Vec F S2048x1 .f32 × Vec F S2048x1 .f32
  | 0 => (mOut (grid0.coords (pt 0)) (iblk m c 0 (pt 0)) (iblk m c 1 (pt 0)) k0_pay5,
          lOut (grid0.coords (pt 0)) (iblk m c 0 (pt 0)) (iblk m c 1 (pt 0)) k0_pay5 k0_pay6,
          pOut (grid0.coords (pt 0)) (iblk m c 0 (pt 0)) (iblk m c 1 (pt 0)) k0_pay7)
  | n + 1 => (mOut (grid0.coords (pt (n + 1))) (iblk m c 0 (pt (n + 1))) (iblk m c 1 (pt (n + 1))) (S c n).1,
          lOut (grid0.coords (pt (n + 1))) (iblk m c 0 (pt (n + 1))) (iblk m c 1 (pt (n + 1))) (S c n).1 (S c n).2.1,
          pOut (grid0.coords (pt (n + 1))) (iblk m c 0 (pt (n + 1))) (iblk m c 1 (pt (n + 1))) (S c n).2.2)

def Sprev (c : Dev nD) : ℕ → Vec F S2048x1 .f32 × Vec F S2048x1 .f32 × Vec F S2048x1 .f32
  | 0 => (k0_pay5, k0_pay6, k0_pay7)
  | n + 1 => S m c n

theorem S_eq (c : Dev nD) (n : ℕ) :
    S m c n = (mOut (grid0.coords (pt n)) (iblk m c 0 (pt n)) (iblk m c 1 (pt n)) (Sprev m c n).1,
      lOut (grid0.coords (pt n)) (iblk m c 0 (pt n)) (iblk m c 1 (pt n)) (Sprev m c n).1 (Sprev m c n).2.1,
      pOut (grid0.coords (pt n)) (iblk m c 0 (pt n)) (iblk m c 1 (pt n)) (Sprev m c n).2.2) := by
  cases n <;> rfl

/-- What the output window's buffer holds after the body at point `t`: the result column of the running columns there
    (consulted only where the window is written back, at the last column tile). -/
def outAt (c : Dev nD) (t : Fin cfg0.N) : Vec F S2048x1 .f32 :=
  oOut (grid0.coords t) (iblk m c 0 t) (iblk m c 1 t) (Sprev m c t.val).1 (Sprev m c t.val).2.1 (Sprev m c t.val).2.2

/-! ## The region invariant and the proof data -/

/-- Before position `n`: at the region's entry the three running columns hold anything; afterwards what the position
    before left. The generator register is at some state throughout. -/
def PhiS (c : Dev nD) : ℕ → sProp 𝕄
  | 0 => Pipeline.ΦA spec0 c
  | n + 1 => iprop(owns (c : Thread nD τ) scM fullShare (S m c n).1 ∗ owns (c : Thread nD τ) scL fullShare (S m c n).2.1
      ∗ owns (c : Thread nD τ) scP fullShare (S m c n).2.2 ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiS m c t.val
  q := qs
  owed _ := 0

theorem A_eq (c : Dev nD) (w : Fin cfg0.W) : (dats m 0 c).A w = V m c (Pipeline.arrRef spec0 w) := by
  dsimp only [dats]
theorem q_eq (c : Dev nD) (w : Fin cfg0.W) : (dats m 0 c).q w = qs w := rfl
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outAt m c t := by dsimp only [dats]
theorem Phi_eq (c : Dev nD) (t : Fin (cfg0.N + 1)) : (dats m 0 c).Φ t = PhiS m c t.val := rfl

end Cert.Kernel.Body

end
-- ==== Proof.BodyRunBits.lean ====
/-
  What the runs of the kernel body share: the six buffers the body is handed as one assertion, and the reading of a
  buffer after whole-column stores — a store of a whole column, last, leaves its payload whatever was stored before, and a
  load after such a store reads that payload.
-/
import proofs.«169670_j40578851012794_1_alg».proof.Proof.ProofDataBits

set_option maxRecDepth 16384

noncomputable section

namespace Cert.Kernel.Body

open Cert.Kernel Cert.Kernel.Gen Cert.Kernel.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access, as a function. -/
theorem hz0 : (![0, 0] : Fin 2 → ℕ) = fun _ => 0 := by funext a; fin_cases a <;> rfl

/-- A load of a whole column after stores the last of which was a whole column reads that store's payload. -/
theorem readCov_whole_last {sg : RefSig} {κ : Kind} {sp : Space} (v : View sg κ sp S2048x1 .f32)
    (w : S2048x1.Idx → Elt F .f32) (L : List (View.Piece (Elt F) S2048x1 .f32)) :
    v.readCov ((⟨Rect.unit ![0, 0] S2048x1.size inb_S2048x1_S2048x1_0_0, w⟩ : View.Piece (Elt F) S2048x1 .f32) :: L)
      (Rect.unit ![0, 0] S2048x1.size inb_S2048x1_S2048x1_0_0).toLoadRect = w := by
  rw [View.readCov_eq_canon_ld _ _ _ (fun y => ⟨_, List.mem_cons_self .., View.mem_set_unit_zero hz0 inb_S2048x1_S2048x1_0_0 y⟩),
    View.canon_cons_unit_zero hz0 inb_S2048x1_S2048x1_0_0, View.ld_unit_zero hz0 inb_S2048x1_S2048x1_0_0]

/-- What a whole-column store, last, leaves in a buffer read back: its payload. -/
theorem read_writes_whole_last {sg : RefSig} {κ : Kind} {sp : Space} (v : View sg κ sp S2048x1 .f32) (f : v.ty.Contents (Elt F))
    (w : S2048x1.Idx → Elt F .f32) (L : List (View.Piece (Elt F) S2048x1 .f32)) :
    v.read (Elt F) (v.writes (Elt F) f ((⟨Rect.unit ![0, 0] S2048x1.size inb_S2048x1_S2048x1_0_0, w⟩ : View.Piece (Elt F) S2048x1 .f32) :: L)) = w :=
  (View.read_writes_eq_canon _ _ _ (fun y => ⟨_, List.mem_cons_self .., View.mem_set_unit_zero hz0 inb_S2048x1_S2048x1_0_0 y⟩)).trans
    (View.canon_cons_unit_zero hz0 inb_S2048x1_S2048x1_0_0 _ _)

/-- The six buffers the body works on, each held whole at given contents: the two input tiles, the output window's buffer,
    and the three running columns. -/
def Held (c : Dev nD) (a2 a3 : Memref sig .tc .vmem S2048x256 .bf16) (a4 a5 a6 a7 : Memref sig .tc .vmem S2048x1 .f32)
    (x0 x1 : Vec F S2048x256 .bf16) (y4 y5 y6 y7 : Vec F S2048x1 .f32) : sProp 𝕄 :=
  iprop(owns (c : Thread nD τ) a2 fullShare x0 ∗ owns (c : Thread nD τ) a3 fullShare x1 ∗ owns (c : Thread nD τ) a4 fullShare y4
    ∗ owns (c : Thread nD τ) a5 fullShare y5 ∗ owns (c : Thread nD τ) a6 fullShare y6 ∗ owns (c : Thread nD τ) a7 fullShare y7)

/-- A buffer the run stored whole columns into reads back as the last store's payload, the payload's own loads read
    through (a load of an untouched buffer reads its contents, a load after a whole-column store that store's payload). -/
macro "stored_col" : tactic => `(tactic| (
  ipureintro
  sl_unfold_run_names
  refine (read_writes_whole_last _ _ _ _).trans ?_
  try simp only [View.readAt_eq_ld, Memref.IsWhole.read_unread, View.ld_unit_zero (S := S2048x256) hz0, View.ld_unit_zero (S := S2048x1) hz0]
  repeat rw [readCov_whole_last]
  try rfl))

end Cert.Kernel.Body

end
-- ==== Proof.BodyCasesBits.lean ====
/- The kernel body run in each of the eight assignments of its three branch conditions (the column tile is / is not the
  first; is / is not the row tile's mirror; is / is not the last): handed the six buffers at given contents, the body
  returns the input tiles as they were, the running maximum and running sum at the tile's update of what they started from
  (the reset values −∞ and 0 where the column tile is the first), the positive's similarity at the tile's diagonal where the
  column tile is the mirror (else as it started, 0 after a reset), and the output buffer at the result column where the
  column tile is the last, untouched elsewhere. One statement and one proof shape, instantiated per assignment. -/
import proofs.«169670_j40578851012794_1_alg».proof.Proof.BodyRunBits

set_option maxRecDepth 16384

noncomputable section

namespace Cert.Kernel.Body

open Cert.Kernel Cert.Kernel.Gen Cert.Kernel.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the column tile is the first, the mirror tile and the last. -/
theorem run_ttt (c : Dev nD) (i : grid0.Coords)
    (a2 : Memref sig .tc .vmem S2048x256 .bf16) (h2 : a2.IsWhole) (a3 : Memref sig .tc .vmem S2048x256 .bf16) (h3 : a3.IsWhole)
    (a4 : Memref sig .tc .vmem S2048x1 .f32) (h4 : a4.IsWhole) (a5 : Memref sig .tc .vmem S2048x1 .f32) (h5 : a5.IsWhole)
    (a6 : Memref sig .tc .vmem S2048x1 .f32) (h6 : a6.IsWhole) (a7 : Memref sig .tc .vmem S2048x1 .f32) (h7 : a7.IsWhole)
    (hc0 : cond0 i) (hc1 : cond1 i) (hc2 : cond2 i)
    (x0 x1 : Vec F S2048x256 .bf16) (y4 y5 y6 y7 : Vec F S2048x1 .f32) (E : Set ℕ) (K : PUnit → sProp 𝕄) :
    iprop(Held c a2 a3 a4 a5 a6 a7 x0 x1 y4 y5 y6 y7
        ∗ (Held c a2 a3 a4 a5 a6 a7 x0 x1 (k0_pay4 (k0_pay2 (k0_pay9 i x0 x1 k0_pay5)) (k0_pay1 (k0_pay10 i x0 x1 k0_pay5 k0_pay6)) (k0_pay3 rowIota colIota (k0_pay8 i x0 x1))) (k0_pay2 (k0_pay9 i x0 x1 k0_pay5)) (k0_pay1 (k0_pay10 i x0 x1 k0_pay5 k0_pay6)) (k0_pay3 rowIota colIota (k0_pay8 i x0 x1)) -∗ K ⟨⟩))
      ⊢ wp frame (wpE (defs₀ (F := F)) Variants.none c none) E (cc0__sim_clr_kernel i a2 h2 a3 h3 a4 h4 a5 h5 a6 h6 a7 h7) K := by
  simp only [cc0__sim_clr_kernel_eq_skeleton]; unfold cc0__sim_clr_kernel_skel
  unfold Held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩⟩, Hk⟩
  obtain rfl := h2.eq_unread hf2; obtain rfl := h3.eq_unread hf3; obtain rfl := h4.eq_unread hf4
  obtain rfl := h5.eq_unread hf5; obtain rfl := h6.eq_unread hf6; obtain rfl := h7.eq_unread hf7
  sl_exec (disch := first | exact hc0 | exact hc1 | exact hc2)
  sl_step
  iapply Hk
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    stored_col
  isplitl [H5]
  · iexists _; isplitr; swap; · iexact H5
    stored_col
  isplitl [H6]
  · iexists _; isplitr; swap; · iexact H6
    stored_col
  · iexists _; isplitr; swap; · iexact H7
    stored_col

set_option maxHeartbeats 4000000 in
/-- The body where the column tile is the first, the mirror tile and not the last. -/
theorem run_ttf (c : Dev nD) (i : grid0.Coords)
    (a2 : Memref sig .tc .vmem S2048x256 .bf16) (h2 : a2.IsWhole) (a3 : Memref sig .tc .vmem S2048x256 .bf16) (h3 : a3.IsWhole)
    (a4 : Memref sig .tc .vmem S2048x1 .f32) (h4 : a4.IsWhole) (a5 : Memref sig .tc .vmem S2048x1 .f32) (h5 : a5.IsWhole)
    (a6 : Memref sig .tc .vmem S2048x1 .f32) (h6 : a6.IsWhole) (a7 : Memref sig .tc .vmem S2048x1 .f32) (h7 : a7.IsWhole)
    (hc0 : cond0 i) (hc1 : cond1 i) (hc2 : ¬cond2 i)
    (x0 x1 : Vec F S2048x256 .bf16) (y4 y5 y6 y7 : Vec F S2048x1 .f32) (E : Set ℕ) (K : PUnit → sProp 𝕄) :
    iprop(Held c a2 a3 a4 a5 a6 a7 x0 x1 y4 y5 y6 y7
        ∗ (Held c a2 a3 a4 a5 a6 a7 x0 x1 y4 (k0_pay2 (k0_pay9 i x0 x1 k0_pay5)) (k0_pay1 (k0_pay10 i x0 x1 k0_pay5 k0_pay6)) (k0_pay3 rowIota colIota (k0_pay8 i x0 x1)) -∗ K ⟨⟩))
      ⊢ wp frame (wpE (defs₀ (F := F)) Variants.none c none) E (cc0__sim_clr_kernel i a2 h2 a3 h3 a4 h4 a5 h5 a6 h6 a7 h7) K := by
  simp only [cc0__sim_clr_kernel_eq_skeleton]; unfold cc0__sim_clr_kernel_skel
  unfold Held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩⟩, Hk⟩
  obtain rfl := h2.eq_unread hf2; obtain rfl := h3.eq_unread hf3; obtain rfl := h4.eq_unread hf4
  obtain rfl := h5.eq_unread hf5; obtain rfl := h6.eq_unread hf6; obtain rfl := h7.eq_unread hf7
  sl_exec (disch := first | exact hc0 | exact hc1 | exact hc2)
  sl_step
  iapply Hk
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    stored_col
  isplitl [H6]
  · iexists _; isplitr; swap; · iexact H6
    stored_col
  · iexists _; isplitr; swap; · iexact H7
    stored_col

set_option maxHeartbeats 4000000 in
/-- The body where the column tile is the first, not the mirror tile and the last. -/
theorem run_tft (c : Dev nD) (i : grid0.Coords)
    (a2 : Memref sig .tc .vmem S2048x256 .bf16) (h2 : a2.IsWhole) (a3 : Memref sig .tc .vmem S2048x256 .bf16) (h3 : a3.IsWhole)
    (a4 : Memref sig .tc .vmem S2048x1 .f32) (h4 : a4.IsWhole) (a5 : Memref sig .tc .vmem S2048x1 .f32) (h5 : a5.IsWhole)
    (a6 : Memref sig .tc .vmem S2048x1 .f32) (h6 : a6.IsWhole) (a7 : Memref sig .tc .vmem S2048x1 .f32) (h7 : a7.IsWhole)
    (hc0 : cond0 i) (hc1 : ¬cond1 i) (hc2 : cond2 i)
    (x0 x1 : Vec F S2048x256 .bf16) (y4 y5 y6 y7 : Vec F S2048x1 .f32) (E : Set ℕ) (K : PUnit → sProp 𝕄) :
    iprop(Held c a2 a3 a4 a5 a6 a7 x0 x1 y4 y5 y6 y7
        ∗ (Held c a2 a3 a4 a5 a6 a7 x0 x1 (k0_pay4 (k0_pay2 (k0_pay9 i x0 x1 k0_pay5)) (k0_pay1 (k0_pay10 i x0 x1 k0_pay5 k0_pay6)) k0_pay7) (k0_pay2 (k0_pay9 i x0 x1 k0_pay5)) (k0_pay1 (k0_pay10 i x0 x1 k0_pay5 k0_pay6)) k0_pay7 -∗ K ⟨⟩))
      ⊢ wp frame (wpE (defs₀ (F := F)) Variants.none c none) E (cc0__sim_clr_kernel i a2 h2 a3 h3 a4 h4 a5 h5 a6 h6 a7 h7) K := by
  simp only [cc0__sim_clr_kernel_eq_skeleton]; unfold cc0__sim_clr_kernel_skel
  unfold Held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩⟩, Hk⟩
  obtain rfl := h2.eq_unread hf2; obtain rfl := h3.eq_unread hf3; obtain rfl := h4.eq_unread hf4
  obtain rfl := h5.eq_unread hf5; obtain rfl := h6.eq_unread hf6; obtain rfl := h7.eq_unread hf7
  sl_exec (disch := first | exact hc0 | exact hc1 | exact hc2)
  sl_step
  iapply Hk
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    stored_col
  isplitl [H5]
  · iexists _; isplitr; swap; · iexact H5
    stored_col
  isplitl [H6]
  · iexists _; isplitr; swap; · iexact H6
    stored_col
  · iexists _; isplitr; swap; · iexact H7
    stored_col

set_option maxHeartbeats 4000000 in
/-- The body where the column tile is the first, not the mirror tile and not the last. -/
theorem run_tff (c : Dev nD) (i : grid0.Coords)
    (a2 : Memref sig .tc .vmem S2048x256 .bf16) (h2 : a2.IsWhole) (a3 : Memref sig .tc .vmem S2048x256 .bf16) (h3 : a3.IsWhole)
    (a4 : Memref sig .tc .vmem S2048x1 .f32) (h4 : a4.IsWhole) (a5 : Memref sig .tc .vmem S2048x1 .f32) (h5 : a5.IsWhole)
    (a6 : Memref sig .tc .vmem S2048x1 .f32) (h6 : a6.IsWhole) (a7 : Memref sig .tc .vmem S2048x1 .f32) (h7 : a7.IsWhole)
    (hc0 : cond0 i) (hc1 : ¬cond1 i) (hc2 : ¬cond2 i)
    (x0 x1 : Vec F S2048x256 .bf16) (y4 y5 y6 y7 : Vec F S2048x1 .f32) (E : Set ℕ) (K : PUnit → sProp 𝕄) :
    iprop(Held c a2 a3 a4 a5 a6 a7 x0 x1 y4 y5 y6 y7
        ∗ (Held c a2 a3 a4 a5 a6 a7 x0 x1 y4 (k0_pay2 (k0_pay9 i x0 x1 k0_pay5)) (k0_pay1 (k0_pay10 i x0 x1 k0_pay5 k0_pay6)) k0_pay7 -∗ K ⟨⟩))
      ⊢ wp frame (wpE (defs₀ (F := F)) Variants.none c none) E (cc0__sim_clr_kernel i a2 h2 a3 h3 a4 h4 a5 h5 a6 h6 a7 h7) K := by
  simp only [cc0__sim_clr_kernel_eq_skeleton]; unfold cc0__sim_clr_kernel_skel
  unfold Held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩⟩, Hk⟩
  obtain rfl := h2.eq_unread hf2; obtain rfl := h3.eq_unread hf3; obtain rfl := h4.eq_unread hf4
  obtain rfl := h5.eq_unread hf5; obtain rfl := h6.eq_unread hf6; obtain rfl := h7.eq_unread hf7
  sl_exec (disch := first | exact hc0 | exact hc1 | exact hc2)
  sl_step
  iapply Hk
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    stored_col
  isplitl [H6]
  · iexists _; isplitr; swap; · iexact H6
    stored_col
  · iexists _; isplitr; swap; · iexact H7
    stored_col

set_option maxHeartbeats 4000000 in
/-- The body where the column tile is not the first, the mirror tile and the last. -/
theorem run_ftt (c : Dev nD) (i : grid0.Coords)
    (a2 : Memref sig .tc .vmem S2048x256 .bf16) (h2 : a2.IsWhole) (a3 : Memref sig .tc .vmem S2048x256 .bf16) (h3 : a3.IsWhole)
    (a4 : Memref sig .tc .vmem S2048x1 .f32) (h4 : a4.IsWhole) (a5 : Memref sig .tc .vmem S2048x1 .f32) (h5 : a5.IsWhole)
    (a6 : Memref sig .tc .vmem S2048x1 .f32) (h6 : a6.IsWhole) (a7 : Memref sig .tc .vmem S2048x1 .f32) (h7 : a7.IsWhole)
    (hc0 : ¬cond0 i) (hc1 : cond1 i) (hc2 : cond2 i)
    (x0 x1 : Vec F S2048x256 .bf16) (y4 y5 y6 y7 : Vec F S2048x1 .f32) (E : Set ℕ) (K : PUnit → sProp 𝕄) :
    iprop(Held c a2 a3 a4 a5 a6 a7 x0 x1 y4 y5 y6 y7
        ∗ (Held c a2 a3 a4 a5 a6 a7 x0 x1 (k0_pay4 (k0_pay2 (k0_pay9 i x0 x1 y5)) (k0_pay1 (k0_pay10 i x0 x1 y5 y6)) (k0_pay3 rowIota colIota (k0_pay8 i x0 x1))) (k0_pay2 (k0_pay9 i x0 x1 y5)) (k0_pay1 (k0_pay10 i x0 x1 y5 y6)) (k0_pay3 rowIota colIota (k0_pay8 i x0 x1)) -∗ K ⟨⟩))
      ⊢ wp frame (wpE (defs₀ (F := F)) Variants.none c none) E (cc0__sim_clr_kernel i a2 h2 a3 h3 a4 h4 a5 h5 a6 h6 a7 h7) K := by
  simp only [cc0__sim_clr_kernel_eq_skeleton]; unfold cc0__sim_clr_kernel_skel
  unfold Held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩⟩, Hk⟩
  obtain rfl := h2.eq_unread hf2; obtain rfl := h3.eq_unread hf3; obtain rfl := h4.eq_unread hf4
  obtain rfl := h5.eq_unread hf5; obtain rfl := h6.eq_unread hf6; obtain rfl := h7.eq_unread hf7
  sl_exec (disch := first | exact hc0 | exact hc1 | exact hc2)
  sl_step
  iapply Hk
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    stored_col
  isplitl [H5]
  · iexists _; isplitr; swap; · iexact H5
    stored_col
  isplitl [H6]
  · iexists _; isplitr; swap; · iexact H6
    stored_col
  · iexists _; isplitr; swap; · iexact H7
    stored_col

set_option maxHeartbeats 4000000 in
/-- The body where the column tile is not the first, the mirror tile and not the last. -/
theorem run_ftf (c : Dev nD) (i : grid0.Coords)
    (a2 : Memref sig .tc .vmem S2048x256 .bf16) (h2 : a2.IsWhole) (a3 : Memref sig .tc .vmem S2048x256 .bf16) (h3 : a3.IsWhole)
    (a4 : Memref sig .tc .vmem S2048x1 .f32) (h4 : a4.IsWhole) (a5 : Memref sig .tc .vmem S2048x1 .f32) (h5 : a5.IsWhole)
    (a6 : Memref sig .tc .vmem S2048x1 .f32) (h6 : a6.IsWhole) (a7 : Memref sig .tc .vmem S2048x1 .f32) (h7 : a7.IsWhole)
    (hc0 : ¬cond0 i) (hc1 : cond1 i) (hc2 : ¬cond2 i)
    (x0 x1 : Vec F S2048x256 .bf16) (y4 y5 y6 y7 : Vec F S2048x1 .f32) (E : Set ℕ) (K : PUnit → sProp 𝕄) :
    iprop(Held c a2 a3 a4 a5 a6 a7 x0 x1 y4 y5 y6 y7
        ∗ (Held c a2 a3 a4 a5 a6 a7 x0 x1 y4 (k0_pay2 (k0_pay9 i x0 x1 y5)) (k0_pay1 (k0_pay10 i x0 x1 y5 y6)) (k0_pay3 rowIota colIota (k0_pay8 i x0 x1)) -∗ K ⟨⟩))
      ⊢ wp frame (wpE (defs₀ (F := F)) Variants.none c none) E (cc0__sim_clr_kernel i a2 h2 a3 h3 a4 h4 a5 h5 a6 h6 a7 h7) K := by
  simp only [cc0__sim_clr_kernel_eq_skeleton]; unfold cc0__sim_clr_kernel_skel
  unfold Held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩⟩, Hk⟩
  obtain rfl := h2.eq_unread hf2; obtain rfl := h3.eq_unread hf3; obtain rfl := h4.eq_unread hf4
  obtain rfl := h5.eq_unread hf5; obtain rfl := h6.eq_unread hf6; obtain rfl := h7.eq_unread hf7
  sl_exec (disch := first | exact hc0 | exact hc1 | exact hc2)
  sl_step
  iapply Hk
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    stored_col
  isplitl [H6]
  · iexists _; isplitr; swap; · iexact H6
    stored_col
  · iexists _; isplitr; swap; · iexact H7
    stored_col

set_option maxHeartbeats 4000000 in
/-- The body where the column tile is not the first, not the mirror tile and the last. -/
theorem run_fft (c : Dev nD) (i : grid0.Coords)
    (a2 : Memref sig .tc .vmem S2048x256 .bf16) (h2 : a2.IsWhole) (a3 : Memref sig .tc .vmem S2048x256 .bf16) (h3 : a3.IsWhole)
    (a4 : Memref sig .tc .vmem S2048x1 .f32) (h4 : a4.IsWhole) (a5 : Memref sig .tc .vmem S2048x1 .f32) (h5 : a5.IsWhole)
    (a6 : Memref sig .tc .vmem S2048x1 .f32) (h6 : a6.IsWhole) (a7 : Memref sig .tc .vmem S2048x1 .f32) (h7 : a7.IsWhole)
    (hc0 : ¬cond0 i) (hc1 : ¬cond1 i) (hc2 : cond2 i)
    (x0 x1 : Vec F S2048x256 .bf16) (y4 y5 y6 y7 : Vec F S2048x1 .f32) (E : Set ℕ) (K : PUnit → sProp 𝕄) :
    iprop(Held c a2 a3 a4 a5 a6 a7 x0 x1 y4 y5 y6 y7
        ∗ (Held c a2 a3 a4 a5 a6 a7 x0 x1 (k0_pay4 (k0_pay2 (k0_pay9 i x0 x1 y5)) (k0_pay1 (k0_pay10 i x0 x1 y5 y6)) y7) (k0_pay2 (k0_pay9 i x0 x1 y5)) (k0_pay1 (k0_pay10 i x0 x1 y5 y6)) y7 -∗ K ⟨⟩))
      ⊢ wp frame (wpE (defs₀ (F := F)) Variants.none c none) E (cc0__sim_clr_kernel i a2 h2 a3 h3 a4 h4 a5 h5 a6 h6 a7 h7) K := by
  simp only [cc0__sim_clr_kernel_eq_skeleton]; unfold cc0__sim_clr_kernel_skel
  unfold Held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩⟩, Hk⟩
  obtain rfl := h2.eq_unread hf2; obtain rfl := h3.eq_unread hf3; obtain rfl := h4.eq_unread hf4
  obtain rfl := h5.eq_unread hf5; obtain rfl := h6.eq_unread hf6; obtain rfl := h7.eq_unread hf7
  sl_exec (disch := first | exact hc0 | exact hc1 | exact hc2)
  sl_step
  iapply Hk
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    stored_col
  isplitl [H5]
  · iexists _; isplitr; swap; · iexact H5
    stored_col
  isplitl [H6]
  · iexists _; isplitr; swap; · iexact H6
    stored_col
  · iexists _; isplitr; swap; · iexact H7
    ipureintro; exact h7.read_unread _

set_option maxHeartbeats 4000000 in
/-- The body where the column tile is not the first, not the mirror tile and not the last. -/
theorem run_fff (c : Dev nD) (i : grid0.Coords)
    (a2 : Memref sig .tc .vmem S2048x256 .bf16) (h2 : a2.IsWhole) (a3 : Memref sig .tc .vmem S2048x256 .bf16) (h3 : a3.IsWhole)
    (a4 : Memref sig .tc .vmem S2048x1 .f32) (h4 : a4.IsWhole) (a5 : Memref sig .tc .vmem S2048x1 .f32) (h5 : a5.IsWhole)
    (a6 : Memref sig .tc .vmem S2048x1 .f32) (h6 : a6.IsWhole) (a7 : Memref sig .tc .vmem S2048x1 .f32) (h7 : a7.IsWhole)
    (hc0 : ¬cond0 i) (hc1 : ¬cond1 i) (hc2 : ¬cond2 i)
    (x0 x1 : Vec F S2048x256 .bf16) (y4 y5 y6 y7 : Vec F S2048x1 .f32) (E : Set ℕ) (K : PUnit → sProp 𝕄) :
    iprop(Held c a2 a3 a4 a5 a6 a7 x0 x1 y4 y5 y6 y7
        ∗ (Held c a2 a3 a4 a5 a6 a7 x0 x1 y4 (k0_pay2 (k0_pay9 i x0 x1 y5)) (k0_pay1 (k0_pay10 i x0 x1 y5 y6)) y7 -∗ K ⟨⟩))
      ⊢ wp frame (wpE (defs₀ (F := F)) Variants.none c none) E (cc0__sim_clr_kernel i a2 h2 a3 h3 a4 h4 a5 h5 a6 h6 a7 h7) K := by
  simp only [cc0__sim_clr_kernel_eq_skeleton]; unfold cc0__sim_clr_kernel_skel
  unfold Held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩⟩, Hk⟩
  obtain rfl := h2.eq_unread hf2; obtain rfl := h3.eq_unread hf3; obtain rfl := h4.eq_unread hf4
  obtain rfl := h5.eq_unread hf5; obtain rfl := h6.eq_unread hf6; obtain rfl := h7.eq_unread hf7
  sl_exec (disch := first | exact hc0 | exact hc1 | exact hc2)
  sl_step
  iapply Hk
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    stored_col
  isplitl [H6]
  · iexists _; isplitr; swap; · iexact H6
    stored_col
  · iexists _; isplitr; swap; · iexact H7
    ipureintro; exact h7.read_unread _

end Cert.Kernel.Body

end
-- ==== Proof.BodyRunAllBits.lean ====
/-
  The kernel body's triple at ANY grid point, in one statement: handed the two input tiles, the output window's buffer and
  the three running columns at given contents, the body returns the input tiles as they were, the running columns at the
  step functions of ProofData.lean, and the output buffer at the result column where the column tile is the last one,
  untouched elsewhere. The three branch conditions are decided by cases, each case the corresponding run.
-/
import proofs.«169670_j40578851012794_1_alg».proof.Proof.BodyCasesBits

set_option maxRecDepth 16384

noncomputable section

namespace Cert.Kernel.Body

open Cert.Kernel Cert.Kernel.Gen Cert.Kernel.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- THE BODY AT ANY POINT. -/
theorem body_run (c : Dev nD) (i : grid0.Coords)
    (a2 : Memref sig .tc .vmem S2048x256 .bf16) (h2 : a2.IsWhole) (a3 : Memref sig .tc .vmem S2048x256 .bf16) (h3 : a3.IsWhole)
    (a4 : Memref sig .tc .vmem S2048x1 .f32) (h4 : a4.IsWhole) (a5 : Memref sig .tc .vmem S2048x1 .f32) (h5 : a5.IsWhole)
    (a6 : Memref sig .tc .vmem S2048x1 .f32) (h6 : a6.IsWhole) (a7 : Memref sig .tc .vmem S2048x1 .f32) (h7 : a7.IsWhole)
    (x0 x1 : Vec F S2048x256 .bf16) (y4 y5 y6 y7 : Vec F S2048x1 .f32) (E : Set ℕ) (K : PUnit → sProp 𝕄) :
    iprop(iprop(owns (c : Thread nD τ) a2 fullShare x0 ∗ owns (c : Thread nD τ) a3 fullShare x1 ∗ owns (c : Thread nD τ) a4 fullShare y4
        ∗ owns (c : Thread nD τ) a5 fullShare y5 ∗ owns (c : Thread nD τ) a6 fullShare y6 ∗ owns (c : Thread nD τ) a7 fullShare y7)
        ∗ (iprop(owns (c : Thread nD τ) a2 fullShare x0 ∗ owns (c : Thread nD τ) a3 fullShare x1
            ∗ owns (c : Thread nD τ) a4 fullShare (if cond2 i then oOut i x0 x1 y5 y6 y7 else y4)
            ∗ owns (c : Thread nD τ) a5 fullShare (mOut i x0 x1 y5)
            ∗ owns (c : Thread nD τ) a6 fullShare (lOut i x0 x1 y5 y6)
            ∗ owns (c : Thread nD τ) a7 fullShare (pOut i x0 x1 y7)) -∗ K ⟨⟩))
      ⊢ wp frame (wpE (defs₀ (F := F)) Variants.none c none) E (cc0__sim_clr_kernel i a2 h2 a3 h3 a4 h4 a5 h5 a6 h6 a7 h7) K := by
  by_cases hc0 : cond0 i <;> by_cases hc1 : cond1 i <;> by_cases hc2 : cond2 i
  · simp only [oOut, mOut, lOut, pOut, mIn, lIn, pIn, if_pos hc0, if_pos hc1, if_pos hc2]
    have h := run_ttt c i a2 h2 a3 h3 a4 h4 a5 h5 a6 h6 a7 h7 hc0 hc1 hc2 x0 x1 y4 y5 y6 y7 E K
    unfold Held at h
    exact h
  · simp only [oOut, mOut, lOut, pOut, mIn, lIn, pIn, if_pos hc0, if_pos hc1, if_neg hc2]
    have h := run_ttf c i a2 h2 a3 h3 a4 h4 a5 h5 a6 h6 a7 h7 hc0 hc1 hc2 x0 x1 y4 y5 y6 y7 E K
    unfold Held at h
    exact h
  · simp only [oOut, mOut, lOut, pOut, mIn, lIn, pIn, if_pos hc0, if_neg hc1, if_pos hc2]
    have h := run_tft c i a2 h2 a3 h3 a4 h4 a5 h5 a6 h6 a7 h7 hc0 hc1 hc2 x0 x1 y4 y5 y6 y7 E K
    unfold Held at h
    exact h
  · simp only [oOut, mOut, lOut, pOut, mIn, lIn, pIn, if_pos hc0, if_neg hc1, if_neg hc2]
    have h := run_tff c i a2 h2 a3 h3 a4 h4 a5 h5 a6 h6 a7 h7 hc0 hc1 hc2 x0 x1 y4 y5 y6 y7 E K
    unfold Held at h
    exact h
  · simp only [oOut, mOut, lOut, pOut, mIn, lIn, pIn, if_neg hc0, if_pos hc1, if_pos hc2]
    have h := run_ftt c i a2 h2 a3 h3 a4 h4 a5 h5 a6 h6 a7 h7 hc0 hc1 hc2 x0 x1 y4 y5 y6 y7 E K
    unfold Held at h
    exact h
  · simp only [oOut, mOut, lOut, pOut, mIn, lIn, pIn, if_neg hc0, if_pos hc1, if_neg hc2]
    have h := run_ftf c i a2 h2 a3 h3 a4 h4 a5 h5 a6 h6 a7 h7 hc0 hc1 hc2 x0 x1 y4 y5 y6 y7 E K
    unfold Held at h
    exact h
  · simp only [oOut, mOut, lOut, pOut, mIn, lIn, pIn, if_neg hc0, if_neg hc1, if_pos hc2]
    have h := run_fft c i a2 h2 a3 h3 a4 h4 a5 h5 a6 h6 a7 h7 hc0 hc1 hc2 x0 x1 y4 y5 y6 y7 E K
    unfold Held at h
    exact h
  · simp only [oOut, mOut, lOut, pOut, mIn, lIn, pIn, if_neg hc0, if_neg hc1, if_neg hc2]
    have h := run_fff c i a2 h2 a3 h3 a4 h4 a5 h5 a6 h6 a7 h7 hc0 hc1 hc2 x0 x1 y4 y5 y6 y7 E K
    unfold Held at h
    exact h

end Cert.Kernel.Body

end
-- ==== Proof.BodyObligationBits.lean ====
/-
  The body obligation of the kernel region for the proof data of ProofData.lean: at every grid point the body, handed the
  invariant before the point and the windows' staging buffers, returns the invariant after it and each window's buffer at
  what the proof data says. The input windows hold their blocks; the running columns are at anything before the first
  point (which resets them) and afterwards at the state the point before left; the output window's buffer is handed back
  untouched away from the last column tile, and holds the result column there.
-/
import proofs.«169670_j40578851012794_1_alg».proof.Proof.BodyRunAllBits

set_option maxRecDepth 16384

noncomputable section

namespace Cert.Kernel.Body

open Cert.Kernel Cert.Kernel.Gen Cert.Kernel.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The input windows hold their blocks -/

theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)

theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## The invariant, opened -/

/-- The region's invariant at entry: the three running columns owned at some contents, the generator register at some state. -/
theorem PhiA_eq (c : Dev nD) :
    (Pipeline.ΦA spec0 c : sProp 𝕄)
      = iprop(iprop((∃ d, owns (c : Thread nD τ) scM fullShare d) ∗ (∃ d, owns (c : Thread nD τ) scL fullShare d)
          ∗ (∃ d, owns (c : Thread nD τ) scP fullShare d)) ∗ (∃ r, prngReg c r)) := by
  unfold Pipeline.ΦA; rw [scopedRest0_eq]; simp only [scM, scL, scP, owns_whole]; try rfl

/-- Where the first column tile resets the running columns, what the point starts from does not matter. -/
theorem step_of_reset (i : grid0.Coords) (hc : cond0 i) (x0 x1 : Vec F S2048x256 .bf16) (ym yl yp ym' yl' yp' : Vec F S2048x1 .f32) :
    mOut i x0 x1 ym = mOut i x0 x1 ym' ∧ lOut i x0 x1 ym yl = lOut i x0 x1 ym' yl' ∧ pOut i x0 x1 yp = pOut i x0 x1 yp'
      ∧ oOut i x0 x1 ym yl yp = oOut i x0 x1 ym' yl' yp' := by
  refine ⟨?_, ?_, ?_, ?_⟩ <;> simp only [oOut, mOut, lOut, pOut, mIn, lIn, pIn, if_pos hc]

/-- The state after point `t` and the output column there, from the running columns the point is handed: anything at
    the first point, else what the point before left. -/
theorem step_eq (c : Dev nD) (t : Fin cfg0.N) (ym yl yp : Vec F S2048x1 .f32)
    (h : t.val = 0 ∨ (ym, yl, yp) = Sprev m c t.val) :
    (S m c t.val).1 = mOut (grid0.coords t) (iblk m c 0 t) (iblk m c 1 t) ym
      ∧ (S m c t.val).2.1 = lOut (grid0.coords t) (iblk m c 0 t) (iblk m c 1 t) ym yl
      ∧ (S m c t.val).2.2 = pOut (grid0.coords t) (iblk m c 0 t) (iblk m c 1 t) yp
      ∧ outAt m c t = oOut (grid0.coords t) (iblk m c 0 t) (iblk m c 1 t) ym yl yp := by
  rw [S_eq, pt_val]; unfold outAt
  rcases h with h0 | h
  · have hc : cond0 (grid0.coords t) := (hcond0 t).mpr (by rw [h0])
    obtain ⟨e1, e2, e3, e4⟩ := step_of_reset (grid0.coords t) hc (iblk m c 0 t) (iblk m c 1 t)
      (Sprev m c t.val).1 (Sprev m c t.val).2.1 (Sprev m c t.val).2.2 ym yl yp
    exact ⟨e1, e2, e3, e4⟩
  · have h1 : ym = (Sprev m c t.val).1 := congrArg Prod.fst h
    have h2 : yl = (Sprev m c t.val).2.1 := congrArg (fun s => s.2.1) h
    have h3 : yp = (Sprev m c t.val).2.2 := congrArg (fun s => s.2.2) h
    subst h1 h2 h3
    exact ⟨rfl, rfl, rfl, rfl⟩

/-- Before point `t` the invariant holds the three running columns at contents that are anything at the first point and
    what the point before left otherwise. -/
theorem Phi_open (c : Dev nD) (t : Fin cfg0.N) :
    PhiS m c t.val ⊢ iprop(∃ ym yl yp, ⌜t.val = 0 ∨ (ym, yl, yp) = Sprev m c t.val⌝ ∗ owns (c : Thread nD τ) scM fullShare ym
      ∗ owns (c : Thread nD τ) scL fullShare yl ∗ owns (c : Thread nD τ) scP fullShare yp ∗ (∃ r, prngReg c r)) := by
  obtain ⟨n, hn⟩ := t
  cases n with
  | zero =>
    show Pipeline.ΦA spec0 c ⊢ _
    rw [PhiA_eq]
    iintro ⟨⟨⟨%dm, HM⟩, ⟨%dl, HL⟩, ⟨%dp, HP⟩⟩, Hg⟩
    iexists dm; iexists dl; iexists dp
    isplitr; · ipureintro; exact Or.inl rfl
    isplitl [HM]; · iexact HM
    isplitl [HL]; · iexact HL
    isplitl [HP]; · iexact HP
    iexact Hg
  | succ n =>
    show iprop(owns (c : Thread nD τ) scM fullShare (S m c n).1 ∗ owns (c : Thread nD τ) scL fullShare (S m c n).2.1
      ∗ owns (c : Thread nD τ) scP fullShare (S m c n).2.2 ∗ (∃ r, prngReg c r)) ⊢ _
    iintro ⟨HM, HL, HP, Hg⟩
    iexists (S m c n).1; iexists (S m c n).2.1; iexists (S m c n).2.2
    isplitr; · ipureintro; exact Or.inr rfl
    isplitl [HM]; · iexact HM
    isplitl [HL]; · iexact HL
    isplitl [HP]; · iexact HP
    iexact Hg

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = iprop(owns (c : Thread nD τ) scM fullShare (S m c t.val).1 ∗ owns (c : Thread nD τ) scL fullShare (S m c t.val).2.1
      ∗ owns (c : Thread nD τ) scP fullShare (S m c t.val).2.2 ∗ (∃ r, prngReg c r)) from rfl]
  rw [show (dats m 0 c).Φ t.castSucc = PhiS m c t.val from rfl]
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  by_cases hc2 : cond2 (grid0.coords t)
  · rw [show (dats m 0 c).leavesExact 2 t = owns (c : Thread nD τ) (ms2 t) fullShare ((dats m 0 c).after 2 t) from by
      unfold Dat.leavesExact; rw [live2 t hc2], after_2]
    iintro ⟨HPhi, Ho, ⟨%d0, H0⟩, ⟨%d1, H1⟩, ⟨%d2, H2⟩⟩
    ihave HPhi' := (Phi_open m c t) $$ HPhi
    icases HPhi' with ⟨%ym, %yl, %yp, %hprev, HM, HL, HP, Hg⟩
    obtain ⟨e1, e2, e3, e4⟩ := step_eq m c t ym yl yp hprev
    rw [e1, e2, e3, e4]
    iapply (body_run c (grid0.coords t) _ _ _ _ _ _ _ _ _ _ _ _ (iblk m c 0 t) (iblk m c 1 t) ((dats m 0 c).before 2 t d2) ym yl yp Set.univ _)
    isplitl [H0 H1 H2 HM HL HP]
    · isplitl [H0]; · iexact H0
      isplitl [H1]; · iexact H1
      isplitl [H2]; · iexact H2
      isplitl [HM]; · iexact HM
      isplitl [HL]; · iexact HL
      iexact HP
    rw [if_pos hc2]
    iintro ⟨H0, H1, H2, HM, HL, HP⟩
    isplitl [HM HL HP Hg]
    · isplitl [HM]; · iexact HM
      isplitl [HL]; · iexact HL
      isplitl [HP]; · iexact HP
      iexact Hg
    isplitl [Ho]; · iexact Ho
    isplitl [H0]; · iexact H0
    isplitl [H1]; · iexact H1
    iexact H2
  · rw [Dat.leavesExact_idle (dats m 0 c) 2 t (idle2 t hc2) (noFlush2 t hc2)]
    iintro ⟨HPhi, Ho, ⟨%d0, H0⟩, ⟨%d1, H1⟩, ⟨%d2, H2⟩⟩
    ihave HPhi' := (Phi_open m c t) $$ HPhi
    icases HPhi' with ⟨%ym, %yl, %yp, %hprev, HM, HL, HP, Hg⟩
    obtain ⟨e1, e2, e3, e4⟩ := step_eq m c t ym yl yp hprev
    rw [e1, e2, e3]
    iapply (body_run c (grid0.coords t) _ _ _ _ _ _ _ _ _ _ _ _ (iblk m c 0 t) (iblk m c 1 t) ((dats m 0 c).before 2 t d2) ym yl yp Set.univ _)
    isplitl [H0 H1 H2 HM HL HP]
    · isplitl [H0]; · iexact H0
      isplitl [H1]; · iexact H1
      isplitl [H2]; · iexact H2
      isplitl [HM]; · iexact HM
      isplitl [HL]; · iexact HL
      iexact HP
    rw [if_neg hc2]
    iintro ⟨H0, H1, H2, HM, HL, HP⟩
    isplitl [HM HL HP Hg]
    · isplitl [HM]; · iexact HM
      isplitl [HL]; · iexact HL
      isplitl [HP]; · iexact HP
      iexact Hg
    isplitl [Ho]; · iexact Ho
    isplitl [H0]; · iexact H0
    isplitl [H1]; · iexact H1
    iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Pipeline.ΦA spec0 c from rfl]

/-- After the last point the invariant gives the scratch buffers back, their contents forgotten. -/
theorem hout (c : Dev nD) : (dats m 0 c).Φ (Fin.last cfg0.N) ⊢ Pipeline.ΦA spec0 c := by
  have hN : (Fin.last cfg0.N).val = 15 + 1 := by rw [Fin.val_last]; exact (show cfg0.N = 16 from N_0)
  rw [Phi_eq, hN, PhiA_eq]
  show iprop(owns (c : Thread nD τ) scM fullShare (S m c 15).1 ∗ owns (c : Thread nD τ) scL fullShare (S m c 15).2.1
      ∗ owns (c : Thread nD τ) scP fullShare (S m c 15).2.2 ∗ (∃ r, prngReg c r)) ⊢ _
  iintro ⟨HM, HL, HP, Hg⟩
  isplitr [Hg]
  · isplitl [HM]; · iexists _; iexact HM
    isplitl [HL]; · iexists _; iexact HL
    iexists _; iexact HP
  iexact Hg

end Cert.Kernel.Body

end
-- ==== Proof.LaunchSharedBits.lean ====
/-
  The launch of the kernel program around its one region, for a region whose two input windows read ONE array.

  The program is two host operations (stack the two views, change the format), the region (a 4 × 4 grid; windows 0 and 1
  both on the stacked array, window 2 on the per-row result), and four host operations (the sum of the per-row results
  divided by the number of rows). The two input windows cannot both hold the stacked array whole: its full share is cut
  in two halves, one for each window, when the region is entered, and the halves — which hold the same contents, an
  input array never being written — are joined again when it is left, so that the host operations after the region
  run within whole buffers. `run_of_body` is the statement: for any proof data at those shares whose body obligation
  holds, every weakly fair run terminates with the result buffer at the mean of what the write-backs made of the
  output array, and with the two arguments unchanged.
-/
import proofs.«169670_j40578851012794_1_alg».proof.Proof.Gen.Kernel.Launch
import proofs.«169670_j40578851012794_1_alg».proof.Proof.Gen.Kernel.Points
import proofs.«169670_j40578851012794_1_alg».proof.Proof.EntryContentsBits
import Idealize.ShloMosaic.Lib.Pipeline.FrameSuffix
import Idealize.ShloMosaic.Lib.Tactic

noncomputable section

namespace Cert.Kernel.Launch

open Cert.Kernel Cert.Kernel.Gen Cert.Kernel.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem V_main_arg0 (c : Dev nD) : V m c main_arg0 = m ((c : Thread nD τ).loc main_arg0) := by
  show StableHlo.after hostOps0 (fun b => m (c, b)) (Proc.devRef .tc main_arg0) = _; after_results
theorem V_main_arg1 (c : Dev nD) : V m c main_arg1 = m ((c : Thread nD τ).loc main_arg1) := by
  show StableHlo.after hostOps0 (fun b => m (c, b)) (Proc.devRef .tc main_arg1) = _; after_results
theorem V_main_v1 (c : Dev nD) : V m c main_v1 = truncf .bf16 (concatenate S8192x256 0 [⟨S4096x256, m ((c : Thread nD τ).loc main_arg0)⟩, ⟨S4096x256, m ((c : Thread nD τ).loc main_arg1)⟩] concatenates_S4096x256_S4096x256_S8192x256_d0) bitsLt_bf16_f32 := by
  show StableHlo.after hostOps0 (fun b => m (c, b)) (Proc.devRef .tc main_v1) = _; after_results

theorem img_arr : Finset.univ.image (Pipeline.arrRef spec0) = {main_v1, main_v2} := by decide

theorem share0 {c : Dev nD} (dat : Dat τ (Elt F) Unit ℕ (UR sig nD τ) ℕ cfg0 c) (hq : ∀ w, dat.q w = qs w) : dat.share 0 = fullShare.left := by
  unfold Dat.share; rw [hq]; rfl
theorem share1 {c : Dev nD} (dat : Dat τ (Elt F) Unit ℕ (UR sig nD τ) ℕ cfg0 c) (hq : ∀ w, dat.q w = qs w) : dat.share 1 = fullShare.right := by
  unfold Dat.share; rw [hq]; rfl
theorem share2 {c : Dev nD} (dat : Dat τ (Elt F) Unit ℕ (UR sig nD τ) ℕ cfg0 c) : dat.share 2 = fullShare := by
  unfold Dat.share; rfl

theorem set0 : (cfg0.win 0).arr.view.set = Finset.univ := (arr_whole0 0).set_eq_univ
theorem set1 : (cfg0.win 1).arr.view.set = Finset.univ := (arr_whole0 1).set_eq_univ
theorem set2 : (cfg0.win 2).arr.view.set = Finset.univ := (arr_whole0 2).set_eq_univ

theorem arrays_of_bufs (c : Dev nD) (dat : Dat τ (Elt F) Unit ℕ (UR sig nD τ) ℕ cfg0 c) (hq : ∀ w, dat.q w = qs w)
    (Vv : (b : Ref sig .tc) → Buf (Elt F) ((c : Thread nD τ).loc b))
    (Fa : (w : Fin cfg0.W) → Buf (Elt F) ((cfg0.win w).arr.view.loc (c : Thread nD τ)))
    (hF : ∀ w, Fa w = Vv (Pipeline.arrRef spec0 w)) :
    (Pipeline.arrBufs spec0 c Vv : sProp 𝕄) ⊢ dat.arrays Fa := by
  unfold Pipeline.arrBufs Dat.arrays
  rw [img_arr, bigSep_W0, share0 dat hq, share1 dat hq, share2 dat, hF 0, hF 1, hF 2, set0, set2,
    bigSep_insert (by decide), bigSep_singleton]
  show iprop((((c : Thread nD τ).loc main_v1) ↦{fullShare} Vv main_v1) ∗ (((c : Thread nD τ).loc main_v2) ↦{fullShare} Vv main_v2))
    ⊢ (iprop((((c : Thread nD τ).loc main_v1) ↦{fullShare.left} Vv main_v1) ∗ (((c : Thread nD τ).loc main_v1) ↦{fullShare.right} Vv main_v1)
        ∗ (((c : Thread nD τ).loc main_v2) ↦{fullShare} Vv main_v2)) : sProp 𝕄)
  iintro ⟨H1, H2⟩
  ihave H1' := (pointsTo_share (PosShare.mem_left_op_right fullShare)).1 $$ H1
  icases H1' with ⟨Hl, Hr⟩
  isplitl [Hl]; · iexact Hl
  isplitl [Hr]; · iexact Hr
  iexact H2

theorem bufs_of_arrays (c : Dev nD) (dat : Dat τ (Elt F) Unit ℕ (UR sig nD τ) ℕ cfg0 c) (hq : ∀ w, dat.q w = qs w)
    (Vv : (b : Ref sig .tc) → Buf (Elt F) ((c : Thread nD τ).loc b))
    (Fa : (w : Fin cfg0.W) → Buf (Elt F) ((cfg0.win w).arr.view.loc (c : Thread nD τ)))
    (hF : ∀ w, Fa w = Vv (Pipeline.arrRef spec0 w)) :
    dat.arrays Fa ⊢ (Pipeline.arrBufs spec0 c Vv : sProp 𝕄) := by
  unfold Pipeline.arrBufs Dat.arrays
  rw [img_arr, bigSep_W0, share0 dat hq, share1 dat hq, share2 dat, hF 0, hF 1, hF 2, set0, set2,
    bigSep_insert (by decide), bigSep_singleton]
  show (iprop((((c : Thread nD τ).loc main_v1) ↦{fullShare.left} Vv main_v1) ∗ (((c : Thread nD τ).loc main_v1) ↦{fullShare.right} Vv main_v1)
        ∗ (((c : Thread nD τ).loc main_v2) ↦{fullShare} Vv main_v2)) : sProp 𝕄)
    ⊢ iprop((((c : Thread nD τ).loc main_v1) ↦{fullShare} Vv main_v1) ∗ (((c : Thread nD τ).loc main_v2) ↦{fullShare} Vv main_v2))
  iintro ⟨Hl, Hr, H2⟩
  isplitr [H2]
  · iapply (pointsTo_share (PosShare.mem_left_op_right fullShare)).2
    isplitl [Hl] <;> iassumption
  · iexact H2

/-- The valuation that holds the arrays' contents `A` at the arrays and `V` elsewhere, read at an array: windows that
    share an array are given the same contents (`hA`: the contents are those of one function of the buffer). -/
theorem withArrays_arr_of_consistent {nD : Nat} {τ : Topo} {sig : RefSig} {Val : EltTy → Type} {gr : Nat} {W : Nat}
    (win : Fin W → Pipeline.WinSpec sig gr) (c : Dev nD) (V : Valuation τ sig Val)
    (A : (w : Fin W) → Buf Val ((win w).arr.view.loc (c.tc : Thread nD τ)))
    (Vv : (b : Ref sig .tc) → Buf Val ((c.tc : Thread nD τ).loc b)) (hA : ∀ w, A w = Vv (Pipeline.arrRef win w)) (w : Fin W) :
    Pipeline.withArrays win c V A (Proc.devRef .tc (Pipeline.arrRef win w)) = A w := by
  unfold Pipeline.withArrays
  have h : ∃ w', Proc.devRef .tc (Pipeline.arrRef win w') = Proc.devRef (τ := τ) .tc (Pipeline.arrRef win w) := ⟨w, rfl⟩
  rw [dif_pos h]
  suffices ∀ (w' : Fin W) (e : Proc.devRef .tc (Pipeline.arrRef win w') = Proc.devRef (τ := τ) .tc (Pipeline.arrRef win w)),
      cast (congrArg (fun b' : DevRef τ sig => b'.ty.Contents Val) e) (A w') = A w from this _ h.choose_spec
  intro w' e
  have e' : Pipeline.arrRef win w' = Pipeline.arrRef win w := Proc.devRef_injective _ e
  rw [hA w', hA w]
  generalize Pipeline.arrRef win w' = b' at e e'
  subst e'
  rfl

variable (dats : (p : Fin 1) → (c : Dev nD) → Dat τ (Elt F) Unit ℕ (UR sig nD τ) ℕ (cfgs p) c)

/-- What the unscoped buffers hold when the region is left, read at a TensorCore reference: the output array at what
    the write-backs made of it, every other buffer (the shared input array among them) as at the region's entry. -/
def Vx (c : Dev nD) : (b : Ref sig .tc) → Buf (Elt F) ((c : Thread nD τ).loc b) :=
  Function.update (V m c) main_v2 ((dats 0 c).arrAt 2 cfg0.N)

/-- The same as a valuation of the device's buffers. -/
def Wx (c : Dev nD) : Valuation τ sig (Elt F) :=
  Pipeline.withArrays spec0 c (V0 m c) fun w => (dats 0 c).arrAt w cfg0.N

/-- And after the four host operations that follow the region. -/
def Wend (c : Dev nD) : Valuation τ sig (Elt F) := StableHlo.after (List.flatten [hostOps1]) (Wx m dats c)

variable {m dats}

theorem arrAt_eq_Vx (hA : ∀ c w, (dats 0 c).A w = V m c (Pipeline.arrRef spec0 w)) (c : Dev nD) :
    ∀ w, (dats 0 c).arrAt w cfg0.N = Vx m dats c (Pipeline.arrRef spec0 w)
  | 0 => ((dats 0 c).arrAt_in 0 rfl _).trans ((hA c 0).trans (Function.update_of_ne (by decide) _ _).symm)
  | 1 => ((dats 0 c).arrAt_in 1 rfl _).trans ((hA c 1).trans (Function.update_of_ne (by decide) _ _).symm)
  | 2 => (Function.update_self (β := fun b : Ref sig .tc => Buf (Elt F) ((c : Thread nD τ).loc b)) main_v2 ((dats 0 c).arrAt 2 cfg0.N) (V m c)).symm
  | ⟨_ + 3, h⟩ => absurd h (Nat.not_lt.2 (Nat.le_add_left _ _))

theorem Wx_arr (hA : ∀ c w, (dats 0 c).A w = V m c (Pipeline.arrRef spec0 w)) (c : Dev nD) (w : Fin 3) :
    Wx m dats c (Proc.devRef .tc (Pipeline.arrRef spec0 w)) = (dats 0 c).arrAt w cfg0.N :=
  withArrays_arr_of_consistent spec0 c (V0 m c) _ (Vx m dats c) (arrAt_eq_Vx hA c) w

theorem Wx_rest (c : Dev nD) (b : Ref sig .tc) (hb : ∀ w, Pipeline.arrRef spec0 w ≠ b) :
    Wx m dats c (Proc.devRef .tc b) = V m c b :=
  Pipeline.withArrays_of_ne spec0 c (V0 m c) _ b hb

theorem Wx_v2 (hA : ∀ c w, (dats 0 c).A w = V m c (Pipeline.arrRef spec0 w)) (c : Dev nD) :
    Wx m dats c (Proc.devRef .tc main_v2) = (dats 0 c).arrAt 2 cfg0.N := Wx_arr hA c 2

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

variable (m) in
/-- @main is the two host operations, the region, and the four host operations: it reduces to the region continued by
    the later four, at the contents the earlier two leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch unscoped TensorCore buffers only, -/
theorem sfx_sub : ∀ ops ∈ ([hostOps1] : List (List (HloOp τ sig (Elt F)))), ∀ op ∈ ops, op.bufs ⊆ Pipeline.ucRefs τ sig := by
  intro ops hops op hop
  simp only [List.mem_cons, List.mem_nil_iff, List.not_mem_nil, or_false] at hops
  rcases hops with rfl
  exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, List.not_mem_nil, or_false] at hops
  rcases hops with rfl
  exact (List.forall_iff_forall_mem.mp hostOps1_fresh) op hop
/-- and write no array of the pipeline. -/
theorem sfx_keeps : ∀ op ∈ (hostOps1 : List (HloOp τ sig (Elt F))), ∀ w, Proc.devRef .tc (Pipeline.arrRef spec0 w) ∉ op.writes := by
  intro op hop
  simp only [hostOps1, List.mem_cons, List.mem_nil_iff, List.not_mem_nil, or_false] at hop
  rcases hop with rfl | rfl | rfl | rfl
  all_goals intro w; fin_cases w <;> simp only [StableHlo.nullary_writes, StableHlo.unary_writes, StableHlo.binary_writes, Finset.mem_singleton] <;> exact StableHlo.devRef_ne_of_ne (by decide)

theorem Wend_v4 (hA : ∀ c w, (dats 0 c).A w = V m c (Pipeline.arrRef spec0 w)) (c : Dev nD) :
    Wend m dats c (Proc.devRef .tc main_v4)
      = Host.divf (Host.reduceAdd ((dats 0 c).arrAt 2 cfg0.N) (constant S_ .f32 0x00000000#32) reducesTo_S8192x1_S_d0_1 h_S_) (constant S_ .f32 0x46000000#32) := by
  show StableHlo.after hostOps1 (Wx m dats c) (Proc.devRef .tc main_v4) = _
  after_results
  rw [Wx_v2 hA c]

theorem Wend_arg0 (c : Dev nD) : Wend m dats c (Proc.devRef .tc main_arg0) = m ((c : Thread nD τ).loc main_arg0) := by
  show StableHlo.after hostOps1 (Wx m dats c) (Proc.devRef .tc main_arg0) = _
  after_results
  exact (Wx_rest c main_arg0 (by decide)).trans (V_main_arg0 m c)

theorem Wend_arg1 (c : Dev nD) : Wend m dats c (Proc.devRef .tc main_arg1) = m ((c : Thread nD τ).loc main_arg1) := by
  show StableHlo.after hostOps1 (Wx m dats c) (Proc.devRef .tc main_arg1) = _
  after_results
  exact (Wx_rest c main_arg1 (by decide)).trans (V_main_arg1 m c)

/-- The operations after the region leave the arrays as the region left them. -/
theorem Wend_arr (hA : ∀ c w, (dats 0 c).A w = V m c (Pipeline.arrRef spec0 w)) (c : Dev nD) (w : Fin 3) :
    Wend m dats c (Proc.devRef .tc (Pipeline.arrRef spec0 w)) = (dats 0 c).arrAt w cfg0.N := by
  unfold Wend
  rw [StableHlo.after_of_forall_not_mem _ _ fun op hop => ?_, Wx_arr hA c w]
  exact sfx_keeps op (by simpa only [List.flatten_cons, List.flatten_nil, List.append_nil] using hop) w

set_option backward.isDefEq.respectTransparency.types false in
/-- THE LINES AFTER THE REGION. From the region's exit — the boundary, the three windows' arrays at their shares, the
    bypassing buffers at the entry contents — the two halves of the shared input array are joined, the four host
    operations run within the unscoped buffers, and the arrays are dealt among the windows again. -/
theorem tail_run (hA : ∀ c w, (dats 0 c).A w = V m c (Pipeline.arrRef spec0 w)) (hq : ∀ c w, (dats 0 c).q w = qs w)
    (c : Dev nD) (Q' : PUnit → sProp 𝕄) :
    iprop((iprop((dats 0 c).arrays ((dats 0 c).arrAt · cfg0.N)
              ∗ Pipeline.unscopedRestP (Ix := Unit) (Name := ℕ) (U := UR sig nD τ) (Lvl := ℕ) Pipeline.Prefetch.none spec0 c (fun b => Wend m dats c (Proc.devRef .tc b))) -∗ Q' ⟨⟩)
        ∗ boundary (c.tc : Thread nD τ) ∗ (dats 0 c).arrays ((dats 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) defs₀) (Variants.lift Variants.none) (c.tc : Thread nD τ) none) Set.univ
          (Pipeline.chain ([hostOps1].map StableHlo.seq)) Q' := by
  have hx : iprop((dats 0 c).arrays ((dats 0 c).arrAt · cfg0.N)
        ∗ Pipeline.unscopedRestP (Ix := Unit) (Name := ℕ) (U := UR sig nD τ) (Lvl := ℕ) Pipeline.Prefetch.none spec0 c (V m c))
      ⊢ (StableHlo.held (c.tc : Thread nD τ) (Pipeline.ucRefs τ sig) (Wx m dats c) : sProp 𝕄) := by
    rw [Pipeline.unscopedRestP_none,
      ← Pipeline.unscopedBufs_held (Ix := Unit) (Name := ℕ) (U := UR sig nD τ) (Lvl := ℕ) c (Wx m dats c),
      Pipeline.unscopedBufs_split₀ cfgs 0 winFacts₀0.arr_unscoped c]
    refine sep_mono (bufs_of_arrays c (dats 0 c) (hq c) _ _ fun w => (Wx_arr hA c w).symm) (Entails.of_eq ?_)
    unfold Pipeline.unscopedRest
    exact bigSep_congr fun b hb => by
      beta_reduce
      rw [Wx_rest c b fun w e => (Finset.mem_sdiff.mp hb).2 (Finset.mem_image.mpr ⟨w, Finset.mem_univ _, e⟩)]
  have hx' : (StableHlo.held (c.tc : Thread nD τ) (Pipeline.ucRefs τ sig) (Wend m dats c) : sProp 𝕄)
      ⊢ iprop((dats 0 c).arrays ((dats 0 c).arrAt · cfg0.N)
        ∗ Pipeline.unscopedRestP (Ix := Unit) (Name := ℕ) (U := UR sig nD τ) (Lvl := ℕ) Pipeline.Prefetch.none spec0 c (fun b => Wend m dats c (Proc.devRef .tc b))) := by
    rw [Pipeline.unscopedRestP_none,
      ← Pipeline.unscopedBufs_held (Ix := Unit) (Name := ℕ) (U := UR sig nD τ) (Lvl := ℕ) c (Wend m dats c),
      Pipeline.unscopedBufs_split₀ cfgs 0 winFacts₀0.arr_unscoped c]
    exact sep_mono (arrays_of_bufs c (dats 0 c) (hq c) _ _ fun w => (Wend_arr hA c w).symm) .rfl
  rw [← List.append_nil ([hostOps1].map StableHlo.seq)]
  iintro ⟨Hk, Hb, HA, HZ⟩
  ihave Hh := hx $$ [HA HZ]
  · isplitl [HA] <;> iassumption
  iapply (Pipeline.wp_seqs_then (fun q => (cfgs q).toPCfg (Val := Elt F)) defs₀ Variants.none c (Pipeline.ucRefs τ sig) [] [hostOps1] sfx_sub sfx_fresh (Wx m dats c)) $$ [Hb Hh]
  · isplitl [Hb] <;> iassumption
  iintro ⟨Hb, Hh⟩
  rw [Pipeline.chain_nil, wp_pure]
  imodintro
  iapply Hk
  iapply hx'
  iexact Hh

variable (m) in
/-- THE LAUNCH. For any proof data holding the two input windows' shared array at the two halves of its full share
    (`hq`), at the region-entry contents (`hA`), owing nothing (`howed`), whose body obligation holds (`hbody`) around
    the class invariant (`hin`, `hout`): every weakly fair run of the program terminates, with the result buffer at the
    mean of what the write-backs made of the output array and the two arguments as they were. -/
theorem run_of_body (ρ : Dev nD → PrngReg)
    (hA : ∀ c w, (dats 0 c).A w = V m c (Pipeline.arrRef spec0 w)) (hq : ∀ c w, (dats 0 c).q w = qs w)
    (howed : ∀ c t, (dats 0 c).owed t = 0)
    (hbody : ∀ c, Pipeline.BodyObligationLoose (dats 0 c) defs₀ Variants.none () Set.univ)
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) ⟨m, fun _ => 0, ρ⟩ (fun r => ∀ c : Dev nD,
      r.2.mem ((c.tc : Thread nD τ).loc main_v4)
          = Host.divf (Host.reduceAdd ((dats 0 c).arrAt 2 cfg0.N) (constant S_ .f32 0x00000000#32) reducesTo_S8192x1_S_d0_1 h_S_) (constant S_ .f32 0x46000000#32)
        ∧ r.2.mem ((c.tc : Thread nD τ).loc main_arg0) = m ((c.tc : Thread nD τ).loc main_arg0)
        ∧ r.2.mem ((c.tc : Thread nD τ).loc main_arg1) = m ((c.tc : Thread nD τ).loc main_arg1)) := by
  classical
  exact Pipeline.θ_run_region_pf_tail (fun q => (cfgs q).toPCfg (Val := Elt F)) (fun q => (cfgs q).toPCfg_adm) dats () cellOf_inj 0 winFacts₀0
    (Pipeline.OwnSemFacts.none spec0) (Pipeline.PreFacts.none _) emb₁ defs₀ Variants.none m ρ main
    (fun _ => Pipeline.chain ([hostOps1].map StableHlo.seq)) hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_bufs c (dats 0 c) (hq c) (V m c) _ fun w => hA c w)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => Wend m dats c (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail_run hA hq c Q')
    (QY := fun c s => ∀ b ∈ Pipeline.restRefsP sig Pipeline.Prefetch.none spec0, s.mem ((c.tc : Thread nD τ).loc b) = Wend m dats c (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (fun b => Wend m dats c (Proc.devRef .tc b)) s')
      isplitl [HU] <;> iassumption)
    (hQ := fun s h c => ⟨((h c).2.2 main_v4 (by decide)).trans (Wend_v4 hA c),
      ((h c).2.2 main_arg0 (by decide)).trans (Wend_arg0 c), ((h c).2.2 main_arg1 (by decide)).trans (Wend_arg1 c)⟩)

/-- info: 'Cert.Kernel.Launch.run_of_body' depends on axioms: [propext, Classical.choice, Quot.sound] -/
#guard_msgs in #print axioms run_of_body

end Cert.Kernel.Launch

end
-- ==== Proof.KernelRunBits.lean ====
/-
  The kernel program's run: the launch of the region, whose two input windows read one array, applied to the proof data of
  ProofData.lean and its body obligation. Every weakly fair execution terminates; the result is the host's mean of the
  output array as the pipeline leaves it, and the two arguments are unchanged.
-/
import proofs.«169670_j40578851012794_1_alg».proof.Proof.BodyObligationBits
import proofs.«169670_j40578851012794_1_alg».proof.Proof.LaunchSharedBits

noncomputable section

namespace Cert.Kernel.Body

open Cert.Kernel Cert.Kernel.Gen Cert.Kernel.Entry
open Idealize.ShloMosaic Idealize.ShloMosaic.TcCoe
open Idealize.SL Idealize.SL.Sem
open Idealize.ShloMosaic.Pipeline (Dat)

variable {F : FTy → Type} [FloatOps F]

/-- The run, the result named through the output array after the region. -/
theorem run_named (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v4)
          = Host.divf (Host.reduceAdd ((dats m 0 c).arrAt 2 cfg0.N) (constant S_ .f32 0x00000000#32) reducesTo_S8192x1_S_d0_1 h_S_) (constant S_ .f32 0x46000000#32)
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  Cert.Kernel.Launch.run_of_body m ρ (A_eq m) (q_eq m) (fun _ _ => rfl) (fun c => (body_obligation m c).loose) (hin m) (hout m)

/-- The frame: the program runs to the end, nothing faults, and its two arguments end unchanged. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun _ h c => ⟨(h c).2.1, (h c).2.2⟩) (run_named m ρ)

end Cert.Kernel.Body

end
-- ==== Proof.BodyDefs.lean ====
/-
  What the runs of the kernel body are stated over: the three branch conditions of the body as propositions of the grid
  point, decided over the sixteen points; where the output window is idle and where it is written back; the staging and
  scratch memrefs as the pipeline passes them.

  The grid is 4 × 4: point t = 4·r + c handles row tile r against column tile c. The body resets its three running
  columns (the running maximum, the running sum, the positive's similarity) when c = 0; records the positive's
  similarity when c is the mirror tile of r (r + 2 for r < 2, r − 2 otherwise); and writes its result when c = 3.
-/
import proofs.«169670_j40578851012794_1_alg».proof.Proof.Gen.KernelIdeal.Launch
import proofs.«169670_j40578851012794_1_alg».proof.Proof.Gen.KernelIdeal.Skeleton
import proofs.«169670_j40578851012794_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The column tile is the first one: the running columns are reset. -/
abbrev cond0 (i : grid0.Coords) : Prop :=
  (Scalar.cmpi .ne (Scalar.extui (Scalar.cmpi .eq (BitVec.ofNat 32 (i 1).val) 0#32)) 0#32) = 1#1
theorem hcond0 : ∀ t : Fin cfg0.N, cond0 (grid0.coords t) ↔ t.val % 4 = 0 :=
  (by decide +kernel : ∀ t : Fin grid0.N, cond0 (grid0.coords t) ↔ t.val % 4 = 0)

/-- The column tile is the mirror of the row tile: it holds every row's positive. -/
abbrev cond1 (i : grid0.Coords) : Prop :=
  (Scalar.cmpi .ne (Scalar.extui (Scalar.cmpi .eq (BitVec.ofNat 32 (i 1).val)
    (Scalar.select (Scalar.cmpi .slt (BitVec.ofNat 32 (i 0).val) 2#32) (Scalar.addi (BitVec.ofNat 32 (i 0).val) 2#32)
      (Scalar.subi (BitVec.ofNat 32 (i 0).val) 2#32)))) 0#32) = 1#1
theorem hcond1 : ∀ t : Fin cfg0.N, cond1 (grid0.coords t) ↔ (t.val = 2 ∨ t.val = 7 ∨ t.val = 8 ∨ t.val = 13) :=
  (by decide +kernel : ∀ t : Fin grid0.N, cond1 (grid0.coords t) ↔ (t.val = 2 ∨ t.val = 7 ∨ t.val = 8 ∨ t.val = 13))

/-- The column tile is the last one: the row tile's result is written. -/
abbrev cond2 (i : grid0.Coords) : Prop := k0_cond3 i = 1#1
theorem hcond2 : ∀ t : Fin cfg0.N, cond2 (grid0.coords t) ↔ t.val % 4 = 3 :=
  (by decide +kernel : ∀ t : Fin grid0.N, cond2 (grid0.coords t) ↔ t.val % 4 = 3)

/-- The input windows are never idle. -/
theorem live0 : ∀ t : Fin cfg0.N, cfg0.idle 0 (grid0.coords t) = false := by decide +kernel
theorem live1 : ∀ t : Fin cfg0.N, cfg0.idle 1 (grid0.coords t) = false := by decide +kernel
/-- The output window is idle exactly away from the last column tile, and is not written back there. -/
theorem idle2 : ∀ t : Fin cfg0.N, ¬cond2 (grid0.coords t) → cfg0.idle 2 (grid0.coords t) = true := by decide +kernel
theorem noFlush2 : ∀ t : Fin cfg0.N, ¬cond2 (grid0.coords t) → (cfg0.win 2).flush t = false := by decide +kernel
theorem live2 : ∀ t : Fin cfg0.N, cond2 (grid0.coords t) → cfg0.idle 2 (grid0.coords t) = false := by decide +kernel

/-- Each window's current staging memref at point `t`, as the pipeline passes it, and its wholeness. -/
abbrev ms0 (t : Fin cfg0.N) : Memref sig .tc .vmem S2048x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x1 .f32 := win0_2.stage (cfg0.slots t 2)
abbrev hs2 (t : Fin cfg0.N) : (ms2 t).IsWhole := hstage0_2 ((cfg0.slots t 2).cast nbuf0_2)
/-- The three running columns: the running maximum, the running sum, the positive's similarity. -/
abbrev scM : Memref sig .tc .vmem S2048x1 .f32 := Memref.whole cc0_scratch0
abbrev scL : Memref sig .tc .vmem S2048x1 .f32 := Memref.whole cc0_scratch1
abbrev scP : Memref sig .tc .vmem S2048x1 .f32 := Memref.whole cc0_scratch2

end Cert.KernelIdeal.Body

end
-- ==== Proof.EntryContents.lean ====
/-
  The contents of the TensorCore buffers when the kernel region is entered: the launch contents after the two host
  operations that stack the two views and change their format.
-/
import proofs.«169670_j40578851012794_1_alg».proof.Proof.Gen.KernelIdeal.Launch

noncomputable section

namespace Cert.KernelIdeal.Entry

open Cert.KernelIdeal Cert.KernelIdeal.Gen
open Idealize.ShloMosaic Idealize.ShloMosaic.TcCoe Idealize.SL.Sem

variable {F : FTy → Type} [FloatOps F]

/-- Core `c`'s buffer contents at the region's entry, as a valuation. -/
abbrev V0 (m : (ℓ : Loc nD τ sig) → Buf (Elt F) ℓ) (c : Dev nD) : Valuation τ sig (Elt F) :=
  StableHlo.after (List.flatten [hostOps0]) (fun b => m (c, b))
/-- The same read at a TensorCore reference. -/
abbrev V (m : (ℓ : Loc nD τ sig) → Buf (Elt F) ℓ) (c : Dev nD) (b : Ref sig .tc) : Buf (Elt F) ((c : Thread nD τ).loc b) :=
  V0 m c (Proc.devRef .tc b)

/-- The share each window holds of its array: the row-tile window and the column-tile window read ONE array and hold a
    half of it each; the output window holds its array whole. -/
def qs : Fin 3 → Idealize.SL.RA.PosShare Idealize.SL.RA.TreeShare
  | ⟨0, _⟩ => Idealize.SL.RA.fullShare.left
  | ⟨1, _⟩ => Idealize.SL.RA.fullShare.right
  | _ => Idealize.SL.RA.fullShare

end Cert.KernelIdeal.Entry

end
-- ==== Proof.ProofData.lean ====
/-
  The proof data of the kernel region.

  One grid point (r, c) takes the three running columns (ym, yl, yp) — the running maximum of each row of the row tile, its
  running sum of exponentials, and its positive's similarity — to new ones: where c = 0 the columns are first reset to
  (−∞, 0, 0); the maximum is raised by the tile's row maxima, the sum is rescaled to the new maximum and the tile's
  exponentials are added; where c is the row tile's mirror the positive's similarity is read off the tile's diagonal. The
  result column  max + log sum − positive  is what the output window's buffer holds after the point (it is written back
  only where c = 3). The state after point n is the fold of these steps over the points 0 … n.
-/
import proofs.«169670_j40578851012794_1_alg».proof.Proof.BodyDefs
import proofs.«169670_j40578851012794_1_alg».proof.Proof.EntryContents
import Idealize.ShloMosaic.Lib.Pipeline.Value

set_option maxRecDepth 16384

noncomputable section

namespace Cert.KernelIdeal.Body

open Cert.KernelIdeal Cert.KernelIdeal.Gen Cert.KernelIdeal.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The tile's row numbers and column numbers. -/
abbrev rowIota : IVec S2048x2048 32 := iota .tc S2048x2048 32 [0] iota_S2048x2048_d0_w32
abbrev colIota : IVec S2048x2048 32 := iota .tc S2048x2048 32 [1] iota_S2048x2048_d1_w32

/-! ## One grid point on the running columns -/

section Step
variable (i : grid0.Coords) (x0 x1 : Vec F S2048x256 .bf16)

/-- The running maximum the point starts from: −∞ at the first column tile. -/
def mIn (ym : Vec F S2048x1 .f32) : Vec F S2048x1 .f32 := if cond0 i then k0_pay5 else ym
/-- The running sum the point starts from: 0 at the first column tile. -/
def lIn (yl : Vec F S2048x1 .f32) : Vec F S2048x1 .f32 := if cond0 i then k0_pay6 else yl
/-- The positive's similarity the point starts from: 0 at the first column tile. -/
def pIn (yp : Vec F S2048x1 .f32) : Vec F S2048x1 .f32 := if cond0 i then k0_pay7 else yp
/-- The running maximum after the point. -/
def mOut (ym : Vec F S2048x1 .f32) : Vec F S2048x1 .f32 := k0_pay2 (k0_pay9 i x0 x1 (mIn i ym))
/-- The running sum after the point. -/
def lOut (ym yl : Vec F S2048x1 .f32) : Vec F S2048x1 .f32 := k0_pay1 (k0_pay10 i x0 x1 (mIn i ym) (lIn i yl))
/-- The positive's similarity after the point: the tile's diagonal at the mirror tile. -/
def pOut (yp : Vec F S2048x1 .f32) : Vec F S2048x1 .f32 :=
  if cond1 i then k0_pay3 rowIota colIota (k0_pay8 i x0 x1) else pIn i yp
/-- The result column after the point. -/
def oOut (ym yl yp : Vec F S2048x1 .f32) : Vec F S2048x1 .f32 :=
  k0_pay4 (mOut i x0 x1 ym) (lOut i x0 x1 ym yl) (pOut i x0 x1 yp)

end Step

variable (m : (ℓ : Loc nD τ sig) → Buf (Elt F) ℓ)

/-! ## The windows' blocks and the state after each point -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Position `n` as a grid point (positions past the grid wrap: they are never consulted). -/
def pt (n : ℕ) : Fin cfg0.N := ⟨n % 16, by rw [show cfg0.N = 16 from N_0]; omega⟩

theorem pt_val (t : Fin cfg0.N) : pt t.val = t :=
  Fin.ext (Nat.mod_eq_of_lt (lt_of_lt_of_eq t.isLt (show cfg0.N = 16 from N_0)))

/-- The running columns (maximum, sum, positive) after position `n`, and before it (`Sprev`): before the first
    position anything — that point resets them —, here the reset values. -/
def S (c : Dev nD) : ℕ → Vec F S2048x1 .f32 × Vec F S2048x1 .f32 × Vec F S2048x1 .f32
  | 0 => (mOut (grid0.coords (pt 0)) (iblk m c 0 (pt 0)) (iblk m c 1 (pt 0)) k0_pay5,
          lOut (grid0.coords (pt 0)) (iblk m c 0 (pt 0)) (iblk m c 1 (pt 0)) k0_pay5 k0_pay6,
          pOut (grid0.coords (pt 0)) (iblk m c 0 (pt 0)) (iblk m c 1 (pt 0)) k0_pay7)
  | n + 1 => (mOut (grid0.coords (pt (n + 1))) (iblk m c 0 (pt (n + 1))) (iblk m c 1 (pt (n + 1))) (S c n).1,
          lOut (grid0.coords (pt (n + 1))) (iblk m c 0 (pt (n + 1))) (iblk m c 1 (pt (n + 1))) (S c n).1 (S c n).2.1,
          pOut (grid0.coords (pt (n + 1))) (iblk m c 0 (pt (n + 1))) (iblk m c 1 (pt (n + 1))) (S c n).2.2)

def Sprev (c : Dev nD) : ℕ → Vec F S2048x1 .f32 × Vec F S2048x1 .f32 × Vec F S2048x1 .f32
  | 0 => (k0_pay5, k0_pay6, k0_pay7)
  | n + 1 => S m c n

theorem S_eq (c : Dev nD) (n : ℕ) :
    S m c n = (mOut (grid0.coords (pt n)) (iblk m c 0 (pt n)) (iblk m c 1 (pt n)) (Sprev m c n).1,
      lOut (grid0.coords (pt n)) (iblk m c 0 (pt n)) (iblk m c 1 (pt n)) (Sprev m c n).1 (Sprev m c n).2.1,
      pOut (grid0.coords (pt n)) (iblk m c 0 (pt n)) (iblk m c 1 (pt n)) (Sprev m c n).2.2) := by
  cases n <;> rfl

/-- What the output window's buffer holds after the body at point `t`: the result column of the running columns there
    (consulted only where the window is written back, at the last column tile). -/
def outAt (c : Dev nD) (t : Fin cfg0.N) : Vec F S2048x1 .f32 :=
  oOut (grid0.coords t) (iblk m c 0 t) (iblk m c 1 t) (Sprev m c t.val).1 (Sprev m c t.val).2.1 (Sprev m c t.val).2.2

/-! ## The region invariant and the proof data -/

/-- Before position `n`: at the region's entry the three running columns hold anything; afterwards what the position
    before left. The generator register is at some state throughout. -/
def PhiS (c : Dev nD) : ℕ → sProp 𝕄
  | 0 => Pipeline.ΦA spec0 c
  | n + 1 => iprop(owns (c : Thread nD τ) scM fullShare (S m c n).1 ∗ owns (c : Thread nD τ) scL fullShare (S m c n).2.1
      ∗ owns (c : Thread nD τ) scP fullShare (S m c n).2.2 ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiS m c t.val
  q := qs
  owed _ := 0

theorem A_eq (c : Dev nD) (w : Fin cfg0.W) : (dats m 0 c).A w = V m c (Pipeline.arrRef spec0 w) := by
  dsimp only [dats]
theorem q_eq (c : Dev nD) (w : Fin cfg0.W) : (dats m 0 c).q w = qs w := rfl
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outAt m c t := by dsimp only [dats]
theorem Phi_eq (c : Dev nD) (t : Fin (cfg0.N + 1)) : (dats m 0 c).Φ t = PhiS m c t.val := rfl

end Cert.KernelIdeal.Body

end
-- ==== Proof.BodyRun.lean ====
/-
  What the runs of the kernel body share: the six buffers the body is handed as one assertion, and the reading of a
  buffer after whole-column stores — a store of a whole column, last, leaves its payload whatever was stored before, and a
  load after such a store reads that payload.
-/
import proofs.«169670_j40578851012794_1_alg».proof.Proof.ProofData

set_option maxRecDepth 16384

noncomputable section

namespace Cert.KernelIdeal.Body

open Cert.KernelIdeal Cert.KernelIdeal.Gen Cert.KernelIdeal.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access, as a function. -/
theorem hz0 : (![0, 0] : Fin 2 → ℕ) = fun _ => 0 := by funext a; fin_cases a <;> rfl

/-- A load of a whole column after stores the last of which was a whole column reads that store's payload. -/
theorem readCov_whole_last {sg : RefSig} {κ : Kind} {sp : Space} (v : View sg κ sp S2048x1 .f32)
    (w : S2048x1.Idx → Elt F .f32) (L : List (View.Piece (Elt F) S2048x1 .f32)) :
    v.readCov ((⟨Rect.unit ![0, 0] S2048x1.size inb_S2048x1_S2048x1_0_0, w⟩ : View.Piece (Elt F) S2048x1 .f32) :: L)
      (Rect.unit ![0, 0] S2048x1.size inb_S2048x1_S2048x1_0_0).toLoadRect = w := by
  rw [View.readCov_eq_canon_ld _ _ _ (fun y => ⟨_, List.mem_cons_self .., View.mem_set_unit_zero hz0 inb_S2048x1_S2048x1_0_0 y⟩),
    View.canon_cons_unit_zero hz0 inb_S2048x1_S2048x1_0_0, View.ld_unit_zero hz0 inb_S2048x1_S2048x1_0_0]

/-- What a whole-column store, last, leaves in a buffer read back: its payload. -/
theorem read_writes_whole_last {sg : RefSig} {κ : Kind} {sp : Space} (v : View sg κ sp S2048x1 .f32) (f : v.ty.Contents (Elt F))
    (w : S2048x1.Idx → Elt F .f32) (L : List (View.Piece (Elt F) S2048x1 .f32)) :
    v.read (Elt F) (v.writes (Elt F) f ((⟨Rect.unit ![0, 0] S2048x1.size inb_S2048x1_S2048x1_0_0, w⟩ : View.Piece (Elt F) S2048x1 .f32) :: L)) = w :=
  (View.read_writes_eq_canon _ _ _ (fun y => ⟨_, List.mem_cons_self .., View.mem_set_unit_zero hz0 inb_S2048x1_S2048x1_0_0 y⟩)).trans
    (View.canon_cons_unit_zero hz0 inb_S2048x1_S2048x1_0_0 _ _)

/-- The six buffers the body works on, each held whole at given contents: the two input tiles, the output window's buffer,
    and the three running columns. -/
def Held (c : Dev nD) (a2 a3 : Memref sig .tc .vmem S2048x256 .bf16) (a4 a5 a6 a7 : Memref sig .tc .vmem S2048x1 .f32)
    (x0 x1 : Vec F S2048x256 .bf16) (y4 y5 y6 y7 : Vec F S2048x1 .f32) : sProp 𝕄 :=
  iprop(owns (c : Thread nD τ) a2 fullShare x0 ∗ owns (c : Thread nD τ) a3 fullShare x1 ∗ owns (c : Thread nD τ) a4 fullShare y4
    ∗ owns (c : Thread nD τ) a5 fullShare y5 ∗ owns (c : Thread nD τ) a6 fullShare y6 ∗ owns (c : Thread nD τ) a7 fullShare y7)

/-- A buffer the run stored whole columns into reads back as the last store's payload, the payload's own loads read
    through (a load of an untouched buffer reads its contents, a load after a whole-column store that store's payload). -/
macro "stored_col" : tactic => `(tactic| (
  ipureintro
  sl_unfold_run_names
  refine (read_writes_whole_last _ _ _ _).trans ?_
  try simp only [View.readAt_eq_ld, Memref.IsWhole.read_unread, View.ld_unit_zero (S := S2048x256) hz0, View.ld_unit_zero (S := S2048x1) hz0]
  repeat rw [readCov_whole_last]
  try rfl))

end Cert.KernelIdeal.Body

end
-- ==== Proof.BodyCases.lean ====
/- The kernel body run in each of the eight assignments of its three branch conditions (the column tile is / is not the
  first; is / is not the row tile's mirror; is / is not the last): handed the six buffers at given contents, the body
  returns the input tiles as they were, the running maximum and running sum at the tile's update of what they started from
  (the reset values −∞ and 0 where the column tile is the first), the positive's similarity at the tile's diagonal where the
  column tile is the mirror (else as it started, 0 after a reset), and the output buffer at the result column where the
  column tile is the last, untouched elsewhere. One statement and one proof shape, instantiated per assignment. -/
import proofs.«169670_j40578851012794_1_alg».proof.Proof.BodyRun

set_option maxRecDepth 16384

noncomputable section

namespace Cert.KernelIdeal.Body

open Cert.KernelIdeal Cert.KernelIdeal.Gen Cert.KernelIdeal.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the column tile is the first, the mirror tile and the last. -/
theorem run_ttt (c : Dev nD) (i : grid0.Coords)
    (a2 : Memref sig .tc .vmem S2048x256 .bf16) (h2 : a2.IsWhole) (a3 : Memref sig .tc .vmem S2048x256 .bf16) (h3 : a3.IsWhole)
    (a4 : Memref sig .tc .vmem S2048x1 .f32) (h4 : a4.IsWhole) (a5 : Memref sig .tc .vmem S2048x1 .f32) (h5 : a5.IsWhole)
    (a6 : Memref sig .tc .vmem S2048x1 .f32) (h6 : a6.IsWhole) (a7 : Memref sig .tc .vmem S2048x1 .f32) (h7 : a7.IsWhole)
    (hc0 : cond0 i) (hc1 : cond1 i) (hc2 : cond2 i)
    (x0 x1 : Vec F S2048x256 .bf16) (y4 y5 y6 y7 : Vec F S2048x1 .f32) (E : Set ℕ) (K : PUnit → sProp 𝕄) :
    iprop(Held c a2 a3 a4 a5 a6 a7 x0 x1 y4 y5 y6 y7
        ∗ (Held c a2 a3 a4 a5 a6 a7 x0 x1 (k0_pay4 (k0_pay2 (k0_pay9 i x0 x1 k0_pay5)) (k0_pay1 (k0_pay10 i x0 x1 k0_pay5 k0_pay6)) (k0_pay3 rowIota colIota (k0_pay8 i x0 x1))) (k0_pay2 (k0_pay9 i x0 x1 k0_pay5)) (k0_pay1 (k0_pay10 i x0 x1 k0_pay5 k0_pay6)) (k0_pay3 rowIota colIota (k0_pay8 i x0 x1)) -∗ K ⟨⟩))
      ⊢ wp frame (wpE (defs₀ (F := F)) Variants.none c none) E (cc0__sim_clr_kernel i a2 h2 a3 h3 a4 h4 a5 h5 a6 h6 a7 h7) K := by
  simp only [cc0__sim_clr_kernel_eq_skeleton]; unfold cc0__sim_clr_kernel_skel
  unfold Held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩⟩, Hk⟩
  obtain rfl := h2.eq_unread hf2; obtain rfl := h3.eq_unread hf3; obtain rfl := h4.eq_unread hf4
  obtain rfl := h5.eq_unread hf5; obtain rfl := h6.eq_unread hf6; obtain rfl := h7.eq_unread hf7
  sl_exec (disch := first | exact hc0 | exact hc1 | exact hc2)
  sl_step
  iapply Hk
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    stored_col
  isplitl [H5]
  · iexists _; isplitr; swap; · iexact H5
    stored_col
  isplitl [H6]
  · iexists _; isplitr; swap; · iexact H6
    stored_col
  · iexists _; isplitr; swap; · iexact H7
    stored_col

set_option maxHeartbeats 4000000 in
/-- The body where the column tile is the first, the mirror tile and not the last. -/
theorem run_ttf (c : Dev nD) (i : grid0.Coords)
    (a2 : Memref sig .tc .vmem S2048x256 .bf16) (h2 : a2.IsWhole) (a3 : Memref sig .tc .vmem S2048x256 .bf16) (h3 : a3.IsWhole)
    (a4 : Memref sig .tc .vmem S2048x1 .f32) (h4 : a4.IsWhole) (a5 : Memref sig .tc .vmem S2048x1 .f32) (h5 : a5.IsWhole)
    (a6 : Memref sig .tc .vmem S2048x1 .f32) (h6 : a6.IsWhole) (a7 : Memref sig .tc .vmem S2048x1 .f32) (h7 : a7.IsWhole)
    (hc0 : cond0 i) (hc1 : cond1 i) (hc2 : ¬cond2 i)
    (x0 x1 : Vec F S2048x256 .bf16) (y4 y5 y6 y7 : Vec F S2048x1 .f32) (E : Set ℕ) (K : PUnit → sProp 𝕄) :
    iprop(Held c a2 a3 a4 a5 a6 a7 x0 x1 y4 y5 y6 y7
        ∗ (Held c a2 a3 a4 a5 a6 a7 x0 x1 y4 (k0_pay2 (k0_pay9 i x0 x1 k0_pay5)) (k0_pay1 (k0_pay10 i x0 x1 k0_pay5 k0_pay6)) (k0_pay3 rowIota colIota (k0_pay8 i x0 x1)) -∗ K ⟨⟩))
      ⊢ wp frame (wpE (defs₀ (F := F)) Variants.none c none) E (cc0__sim_clr_kernel i a2 h2 a3 h3 a4 h4 a5 h5 a6 h6 a7 h7) K := by
  simp only [cc0__sim_clr_kernel_eq_skeleton]; unfold cc0__sim_clr_kernel_skel
  unfold Held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩⟩, Hk⟩
  obtain rfl := h2.eq_unread hf2; obtain rfl := h3.eq_unread hf3; obtain rfl := h4.eq_unread hf4
  obtain rfl := h5.eq_unread hf5; obtain rfl := h6.eq_unread hf6; obtain rfl := h7.eq_unread hf7
  sl_exec (disch := first | exact hc0 | exact hc1 | exact hc2)
  sl_step
  iapply Hk
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    stored_col
  isplitl [H6]
  · iexists _; isplitr; swap; · iexact H6
    stored_col
  · iexists _; isplitr; swap; · iexact H7
    stored_col

set_option maxHeartbeats 4000000 in
/-- The body where the column tile is the first, not the mirror tile and the last. -/
theorem run_tft (c : Dev nD) (i : grid0.Coords)
    (a2 : Memref sig .tc .vmem S2048x256 .bf16) (h2 : a2.IsWhole) (a3 : Memref sig .tc .vmem S2048x256 .bf16) (h3 : a3.IsWhole)
    (a4 : Memref sig .tc .vmem S2048x1 .f32) (h4 : a4.IsWhole) (a5 : Memref sig .tc .vmem S2048x1 .f32) (h5 : a5.IsWhole)
    (a6 : Memref sig .tc .vmem S2048x1 .f32) (h6 : a6.IsWhole) (a7 : Memref sig .tc .vmem S2048x1 .f32) (h7 : a7.IsWhole)
    (hc0 : cond0 i) (hc1 : ¬cond1 i) (hc2 : cond2 i)
    (x0 x1 : Vec F S2048x256 .bf16) (y4 y5 y6 y7 : Vec F S2048x1 .f32) (E : Set ℕ) (K : PUnit → sProp 𝕄) :
    iprop(Held c a2 a3 a4 a5 a6 a7 x0 x1 y4 y5 y6 y7
        ∗ (Held c a2 a3 a4 a5 a6 a7 x0 x1 (k0_pay4 (k0_pay2 (k0_pay9 i x0 x1 k0_pay5)) (k0_pay1 (k0_pay10 i x0 x1 k0_pay5 k0_pay6)) k0_pay7) (k0_pay2 (k0_pay9 i x0 x1 k0_pay5)) (k0_pay1 (k0_pay10 i x0 x1 k0_pay5 k0_pay6)) k0_pay7 -∗ K ⟨⟩))
      ⊢ wp frame (wpE (defs₀ (F := F)) Variants.none c none) E (cc0__sim_clr_kernel i a2 h2 a3 h3 a4 h4 a5 h5 a6 h6 a7 h7) K := by
  simp only [cc0__sim_clr_kernel_eq_skeleton]; unfold cc0__sim_clr_kernel_skel
  unfold Held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩⟩, Hk⟩
  obtain rfl := h2.eq_unread hf2; obtain rfl := h3.eq_unread hf3; obtain rfl := h4.eq_unread hf4
  obtain rfl := h5.eq_unread hf5; obtain rfl := h6.eq_unread hf6; obtain rfl := h7.eq_unread hf7
  sl_exec (disch := first | exact hc0 | exact hc1 | exact hc2)
  sl_step
  iapply Hk
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    stored_col
  isplitl [H5]
  · iexists _; isplitr; swap; · iexact H5
    stored_col
  isplitl [H6]
  · iexists _; isplitr; swap; · iexact H6
    stored_col
  · iexists _; isplitr; swap; · iexact H7
    stored_col

set_option maxHeartbeats 4000000 in
/-- The body where the column tile is the first, not the mirror tile and not the last. -/
theorem run_tff (c : Dev nD) (i : grid0.Coords)
    (a2 : Memref sig .tc .vmem S2048x256 .bf16) (h2 : a2.IsWhole) (a3 : Memref sig .tc .vmem S2048x256 .bf16) (h3 : a3.IsWhole)
    (a4 : Memref sig .tc .vmem S2048x1 .f32) (h4 : a4.IsWhole) (a5 : Memref sig .tc .vmem S2048x1 .f32) (h5 : a5.IsWhole)
    (a6 : Memref sig .tc .vmem S2048x1 .f32) (h6 : a6.IsWhole) (a7 : Memref sig .tc .vmem S2048x1 .f32) (h7 : a7.IsWhole)
    (hc0 : cond0 i) (hc1 : ¬cond1 i) (hc2 : ¬cond2 i)
    (x0 x1 : Vec F S2048x256 .bf16) (y4 y5 y6 y7 : Vec F S2048x1 .f32) (E : Set ℕ) (K : PUnit → sProp 𝕄) :
    iprop(Held c a2 a3 a4 a5 a6 a7 x0 x1 y4 y5 y6 y7
        ∗ (Held c a2 a3 a4 a5 a6 a7 x0 x1 y4 (k0_pay2 (k0_pay9 i x0 x1 k0_pay5)) (k0_pay1 (k0_pay10 i x0 x1 k0_pay5 k0_pay6)) k0_pay7 -∗ K ⟨⟩))
      ⊢ wp frame (wpE (defs₀ (F := F)) Variants.none c none) E (cc0__sim_clr_kernel i a2 h2 a3 h3 a4 h4 a5 h5 a6 h6 a7 h7) K := by
  simp only [cc0__sim_clr_kernel_eq_skeleton]; unfold cc0__sim_clr_kernel_skel
  unfold Held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩⟩, Hk⟩
  obtain rfl := h2.eq_unread hf2; obtain rfl := h3.eq_unread hf3; obtain rfl := h4.eq_unread hf4
  obtain rfl := h5.eq_unread hf5; obtain rfl := h6.eq_unread hf6; obtain rfl := h7.eq_unread hf7
  sl_exec (disch := first | exact hc0 | exact hc1 | exact hc2)
  sl_step
  iapply Hk
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    stored_col
  isplitl [H6]
  · iexists _; isplitr; swap; · iexact H6
    stored_col
  · iexists _; isplitr; swap; · iexact H7
    stored_col

set_option maxHeartbeats 4000000 in
/-- The body where the column tile is not the first, the mirror tile and the last. -/
theorem run_ftt (c : Dev nD) (i : grid0.Coords)
    (a2 : Memref sig .tc .vmem S2048x256 .bf16) (h2 : a2.IsWhole) (a3 : Memref sig .tc .vmem S2048x256 .bf16) (h3 : a3.IsWhole)
    (a4 : Memref sig .tc .vmem S2048x1 .f32) (h4 : a4.IsWhole) (a5 : Memref sig .tc .vmem S2048x1 .f32) (h5 : a5.IsWhole)
    (a6 : Memref sig .tc .vmem S2048x1 .f32) (h6 : a6.IsWhole) (a7 : Memref sig .tc .vmem S2048x1 .f32) (h7 : a7.IsWhole)
    (hc0 : ¬cond0 i) (hc1 : cond1 i) (hc2 : cond2 i)
    (x0 x1 : Vec F S2048x256 .bf16) (y4 y5 y6 y7 : Vec F S2048x1 .f32) (E : Set ℕ) (K : PUnit → sProp 𝕄) :
    iprop(Held c a2 a3 a4 a5 a6 a7 x0 x1 y4 y5 y6 y7
        ∗ (Held c a2 a3 a4 a5 a6 a7 x0 x1 (k0_pay4 (k0_pay2 (k0_pay9 i x0 x1 y5)) (k0_pay1 (k0_pay10 i x0 x1 y5 y6)) (k0_pay3 rowIota colIota (k0_pay8 i x0 x1))) (k0_pay2 (k0_pay9 i x0 x1 y5)) (k0_pay1 (k0_pay10 i x0 x1 y5 y6)) (k0_pay3 rowIota colIota (k0_pay8 i x0 x1)) -∗ K ⟨⟩))
      ⊢ wp frame (wpE (defs₀ (F := F)) Variants.none c none) E (cc0__sim_clr_kernel i a2 h2 a3 h3 a4 h4 a5 h5 a6 h6 a7 h7) K := by
  simp only [cc0__sim_clr_kernel_eq_skeleton]; unfold cc0__sim_clr_kernel_skel
  unfold Held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩⟩, Hk⟩
  obtain rfl := h2.eq_unread hf2; obtain rfl := h3.eq_unread hf3; obtain rfl := h4.eq_unread hf4
  obtain rfl := h5.eq_unread hf5; obtain rfl := h6.eq_unread hf6; obtain rfl := h7.eq_unread hf7
  sl_exec (disch := first | exact hc0 | exact hc1 | exact hc2)
  sl_step
  iapply Hk
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    stored_col
  isplitl [H5]
  · iexists _; isplitr; swap; · iexact H5
    stored_col
  isplitl [H6]
  · iexists _; isplitr; swap; · iexact H6
    stored_col
  · iexists _; isplitr; swap; · iexact H7
    stored_col

set_option maxHeartbeats 4000000 in
/-- The body where the column tile is not the first, the mirror tile and not the last. -/
theorem run_ftf (c : Dev nD) (i : grid0.Coords)
    (a2 : Memref sig .tc .vmem S2048x256 .bf16) (h2 : a2.IsWhole) (a3 : Memref sig .tc .vmem S2048x256 .bf16) (h3 : a3.IsWhole)
    (a4 : Memref sig .tc .vmem S2048x1 .f32) (h4 : a4.IsWhole) (a5 : Memref sig .tc .vmem S2048x1 .f32) (h5 : a5.IsWhole)
    (a6 : Memref sig .tc .vmem S2048x1 .f32) (h6 : a6.IsWhole) (a7 : Memref sig .tc .vmem S2048x1 .f32) (h7 : a7.IsWhole)
    (hc0 : ¬cond0 i) (hc1 : cond1 i) (hc2 : ¬cond2 i)
    (x0 x1 : Vec F S2048x256 .bf16) (y4 y5 y6 y7 : Vec F S2048x1 .f32) (E : Set ℕ) (K : PUnit → sProp 𝕄) :
    iprop(Held c a2 a3 a4 a5 a6 a7 x0 x1 y4 y5 y6 y7
        ∗ (Held c a2 a3 a4 a5 a6 a7 x0 x1 y4 (k0_pay2 (k0_pay9 i x0 x1 y5)) (k0_pay1 (k0_pay10 i x0 x1 y5 y6)) (k0_pay3 rowIota colIota (k0_pay8 i x0 x1)) -∗ K ⟨⟩))
      ⊢ wp frame (wpE (defs₀ (F := F)) Variants.none c none) E (cc0__sim_clr_kernel i a2 h2 a3 h3 a4 h4 a5 h5 a6 h6 a7 h7) K := by
  simp only [cc0__sim_clr_kernel_eq_skeleton]; unfold cc0__sim_clr_kernel_skel
  unfold Held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩⟩, Hk⟩
  obtain rfl := h2.eq_unread hf2; obtain rfl := h3.eq_unread hf3; obtain rfl := h4.eq_unread hf4
  obtain rfl := h5.eq_unread hf5; obtain rfl := h6.eq_unread hf6; obtain rfl := h7.eq_unread hf7
  sl_exec (disch := first | exact hc0 | exact hc1 | exact hc2)
  sl_step
  iapply Hk
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    stored_col
  isplitl [H6]
  · iexists _; isplitr; swap; · iexact H6
    stored_col
  · iexists _; isplitr; swap; · iexact H7
    stored_col

set_option maxHeartbeats 4000000 in
/-- The body where the column tile is not the first, not the mirror tile and the last. -/
theorem run_fft (c : Dev nD) (i : grid0.Coords)
    (a2 : Memref sig .tc .vmem S2048x256 .bf16) (h2 : a2.IsWhole) (a3 : Memref sig .tc .vmem S2048x256 .bf16) (h3 : a3.IsWhole)
    (a4 : Memref sig .tc .vmem S2048x1 .f32) (h4 : a4.IsWhole) (a5 : Memref sig .tc .vmem S2048x1 .f32) (h5 : a5.IsWhole)
    (a6 : Memref sig .tc .vmem S2048x1 .f32) (h6 : a6.IsWhole) (a7 : Memref sig .tc .vmem S2048x1 .f32) (h7 : a7.IsWhole)
    (hc0 : ¬cond0 i) (hc1 : ¬cond1 i) (hc2 : cond2 i)
    (x0 x1 : Vec F S2048x256 .bf16) (y4 y5 y6 y7 : Vec F S2048x1 .f32) (E : Set ℕ) (K : PUnit → sProp 𝕄) :
    iprop(Held c a2 a3 a4 a5 a6 a7 x0 x1 y4 y5 y6 y7
        ∗ (Held c a2 a3 a4 a5 a6 a7 x0 x1 (k0_pay4 (k0_pay2 (k0_pay9 i x0 x1 y5)) (k0_pay1 (k0_pay10 i x0 x1 y5 y6)) y7) (k0_pay2 (k0_pay9 i x0 x1 y5)) (k0_pay1 (k0_pay10 i x0 x1 y5 y6)) y7 -∗ K ⟨⟩))
      ⊢ wp frame (wpE (defs₀ (F := F)) Variants.none c none) E (cc0__sim_clr_kernel i a2 h2 a3 h3 a4 h4 a5 h5 a6 h6 a7 h7) K := by
  simp only [cc0__sim_clr_kernel_eq_skeleton]; unfold cc0__sim_clr_kernel_skel
  unfold Held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩⟩, Hk⟩
  obtain rfl := h2.eq_unread hf2; obtain rfl := h3.eq_unread hf3; obtain rfl := h4.eq_unread hf4
  obtain rfl := h5.eq_unread hf5; obtain rfl := h6.eq_unread hf6; obtain rfl := h7.eq_unread hf7
  sl_exec (disch := first | exact hc0 | exact hc1 | exact hc2)
  sl_step
  iapply Hk
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    stored_col
  isplitl [H5]
  · iexists _; isplitr; swap; · iexact H5
    stored_col
  isplitl [H6]
  · iexists _; isplitr; swap; · iexact H6
    stored_col
  · iexists _; isplitr; swap; · iexact H7
    ipureintro; exact h7.read_unread _

set_option maxHeartbeats 4000000 in
/-- The body where the column tile is not the first, not the mirror tile and not the last. -/
theorem run_fff (c : Dev nD) (i : grid0.Coords)
    (a2 : Memref sig .tc .vmem S2048x256 .bf16) (h2 : a2.IsWhole) (a3 : Memref sig .tc .vmem S2048x256 .bf16) (h3 : a3.IsWhole)
    (a4 : Memref sig .tc .vmem S2048x1 .f32) (h4 : a4.IsWhole) (a5 : Memref sig .tc .vmem S2048x1 .f32) (h5 : a5.IsWhole)
    (a6 : Memref sig .tc .vmem S2048x1 .f32) (h6 : a6.IsWhole) (a7 : Memref sig .tc .vmem S2048x1 .f32) (h7 : a7.IsWhole)
    (hc0 : ¬cond0 i) (hc1 : ¬cond1 i) (hc2 : ¬cond2 i)
    (x0 x1 : Vec F S2048x256 .bf16) (y4 y5 y6 y7 : Vec F S2048x1 .f32) (E : Set ℕ) (K : PUnit → sProp 𝕄) :
    iprop(Held c a2 a3 a4 a5 a6 a7 x0 x1 y4 y5 y6 y7
        ∗ (Held c a2 a3 a4 a5 a6 a7 x0 x1 y4 (k0_pay2 (k0_pay9 i x0 x1 y5)) (k0_pay1 (k0_pay10 i x0 x1 y5 y6)) y7 -∗ K ⟨⟩))
      ⊢ wp frame (wpE (defs₀ (F := F)) Variants.none c none) E (cc0__sim_clr_kernel i a2 h2 a3 h3 a4 h4 a5 h5 a6 h6 a7 h7) K := by
  simp only [cc0__sim_clr_kernel_eq_skeleton]; unfold cc0__sim_clr_kernel_skel
  unfold Held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩⟩, Hk⟩
  obtain rfl := h2.eq_unread hf2; obtain rfl := h3.eq_unread hf3; obtain rfl := h4.eq_unread hf4
  obtain rfl := h5.eq_unread hf5; obtain rfl := h6.eq_unread hf6; obtain rfl := h7.eq_unread hf7
  sl_exec (disch := first | exact hc0 | exact hc1 | exact hc2)
  sl_step
  iapply Hk
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    stored_col
  isplitl [H6]
  · iexists _; isplitr; swap; · iexact H6
    stored_col
  · iexists _; isplitr; swap; · iexact H7
    ipureintro; exact h7.read_unread _

end Cert.KernelIdeal.Body

end
-- ==== Proof.BodyRunAll.lean ====
/-
  The kernel body's triple at ANY grid point, in one statement: handed the two input tiles, the output window's buffer and
  the three running columns at given contents, the body returns the input tiles as they were, the running columns at the
  step functions of ProofData.lean, and the output buffer at the result column where the column tile is the last one,
  untouched elsewhere. The three branch conditions are decided by cases, each case the corresponding run.
-/
import proofs.«169670_j40578851012794_1_alg».proof.Proof.BodyCases

set_option maxRecDepth 16384

noncomputable section

namespace Cert.KernelIdeal.Body

open Cert.KernelIdeal Cert.KernelIdeal.Gen Cert.KernelIdeal.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- THE BODY AT ANY POINT. -/
theorem body_run (c : Dev nD) (i : grid0.Coords)
    (a2 : Memref sig .tc .vmem S2048x256 .bf16) (h2 : a2.IsWhole) (a3 : Memref sig .tc .vmem S2048x256 .bf16) (h3 : a3.IsWhole)
    (a4 : Memref sig .tc .vmem S2048x1 .f32) (h4 : a4.IsWhole) (a5 : Memref sig .tc .vmem S2048x1 .f32) (h5 : a5.IsWhole)
    (a6 : Memref sig .tc .vmem S2048x1 .f32) (h6 : a6.IsWhole) (a7 : Memref sig .tc .vmem S2048x1 .f32) (h7 : a7.IsWhole)
    (x0 x1 : Vec F S2048x256 .bf16) (y4 y5 y6 y7 : Vec F S2048x1 .f32) (E : Set ℕ) (K : PUnit → sProp 𝕄) :
    iprop(iprop(owns (c : Thread nD τ) a2 fullShare x0 ∗ owns (c : Thread nD τ) a3 fullShare x1 ∗ owns (c : Thread nD τ) a4 fullShare y4
        ∗ owns (c : Thread nD τ) a5 fullShare y5 ∗ owns (c : Thread nD τ) a6 fullShare y6 ∗ owns (c : Thread nD τ) a7 fullShare y7)
        ∗ (iprop(owns (c : Thread nD τ) a2 fullShare x0 ∗ owns (c : Thread nD τ) a3 fullShare x1
            ∗ owns (c : Thread nD τ) a4 fullShare (if cond2 i then oOut i x0 x1 y5 y6 y7 else y4)
            ∗ owns (c : Thread nD τ) a5 fullShare (mOut i x0 x1 y5)
            ∗ owns (c : Thread nD τ) a6 fullShare (lOut i x0 x1 y5 y6)
            ∗ owns (c : Thread nD τ) a7 fullShare (pOut i x0 x1 y7)) -∗ K ⟨⟩))
      ⊢ wp frame (wpE (defs₀ (F := F)) Variants.none c none) E (cc0__sim_clr_kernel i a2 h2 a3 h3 a4 h4 a5 h5 a6 h6 a7 h7) K := by
  by_cases hc0 : cond0 i <;> by_cases hc1 : cond1 i <;> by_cases hc2 : cond2 i
  · simp only [oOut, mOut, lOut, pOut, mIn, lIn, pIn, if_pos hc0, if_pos hc1, if_pos hc2]
    have h := run_ttt c i a2 h2 a3 h3 a4 h4 a5 h5 a6 h6 a7 h7 hc0 hc1 hc2 x0 x1 y4 y5 y6 y7 E K
    unfold Held at h
    exact h
  · simp only [oOut, mOut, lOut, pOut, mIn, lIn, pIn, if_pos hc0, if_pos hc1, if_neg hc2]
    have h := run_ttf c i a2 h2 a3 h3 a4 h4 a5 h5 a6 h6 a7 h7 hc0 hc1 hc2 x0 x1 y4 y5 y6 y7 E K
    unfold Held at h
    exact h
  · simp only [oOut, mOut, lOut, pOut, mIn, lIn, pIn, if_pos hc0, if_neg hc1, if_pos hc2]
    have h := run_tft c i a2 h2 a3 h3 a4 h4 a5 h5 a6 h6 a7 h7 hc0 hc1 hc2 x0 x1 y4 y5 y6 y7 E K
    unfold Held at h
    exact h
  · simp only [oOut, mOut, lOut, pOut, mIn, lIn, pIn, if_pos hc0, if_neg hc1, if_neg hc2]
    have h := run_tff c i a2 h2 a3 h3 a4 h4 a5 h5 a6 h6 a7 h7 hc0 hc1 hc2 x0 x1 y4 y5 y6 y7 E K
    unfold Held at h
    exact h
  · simp only [oOut, mOut, lOut, pOut, mIn, lIn, pIn, if_neg hc0, if_pos hc1, if_pos hc2]
    have h := run_ftt c i a2 h2 a3 h3 a4 h4 a5 h5 a6 h6 a7 h7 hc0 hc1 hc2 x0 x1 y4 y5 y6 y7 E K
    unfold Held at h
    exact h
  · simp only [oOut, mOut, lOut, pOut, mIn, lIn, pIn, if_neg hc0, if_pos hc1, if_neg hc2]
    have h := run_ftf c i a2 h2 a3 h3 a4 h4 a5 h5 a6 h6 a7 h7 hc0 hc1 hc2 x0 x1 y4 y5 y6 y7 E K
    unfold Held at h
    exact h
  · simp only [oOut, mOut, lOut, pOut, mIn, lIn, pIn, if_neg hc0, if_neg hc1, if_pos hc2]
    have h := run_fft c i a2 h2 a3 h3 a4 h4 a5 h5 a6 h6 a7 h7 hc0 hc1 hc2 x0 x1 y4 y5 y6 y7 E K
    unfold Held at h
    exact h
  · simp only [oOut, mOut, lOut, pOut, mIn, lIn, pIn, if_neg hc0, if_neg hc1, if_neg hc2]
    have h := run_fff c i a2 h2 a3 h3 a4 h4 a5 h5 a6 h6 a7 h7 hc0 hc1 hc2 x0 x1 y4 y5 y6 y7 E K
    unfold Held at h
    exact h

end Cert.KernelIdeal.Body

end
-- ==== Proof.BodyObligation.lean ====
/-
  The body obligation of the kernel region for the proof data of ProofData.lean: at every grid point the body, handed the
  invariant before the point and the windows' staging buffers, returns the invariant after it and each window's buffer at
  what the proof data says. The input windows hold their blocks; the running columns are at anything before the first
  point (which resets them) and afterwards at the state the point before left; the output window's buffer is handed back
  untouched away from the last column tile, and holds the result column there.
-/
import proofs.«169670_j40578851012794_1_alg».proof.Proof.BodyRunAll

set_option maxRecDepth 16384

noncomputable section

namespace Cert.KernelIdeal.Body

open Cert.KernelIdeal Cert.KernelIdeal.Gen Cert.KernelIdeal.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The input windows hold their blocks -/

theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)

theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## The invariant, opened -/

/-- The region's invariant at entry: the three running columns owned at some contents, the generator register at some state. -/
theorem PhiA_eq (c : Dev nD) :
    (Pipeline.ΦA spec0 c : sProp 𝕄)
      = iprop(iprop((∃ d, owns (c : Thread nD τ) scM fullShare d) ∗ (∃ d, owns (c : Thread nD τ) scL fullShare d)
          ∗ (∃ d, owns (c : Thread nD τ) scP fullShare d)) ∗ (∃ r, prngReg c r)) := by
  unfold Pipeline.ΦA; rw [scopedRest0_eq]; simp only [scM, scL, scP, owns_whole]; try rfl

/-- Where the first column tile resets the running columns, what the point starts from does not matter. -/
theorem step_of_reset (i : grid0.Coords) (hc : cond0 i) (x0 x1 : Vec F S2048x256 .bf16) (ym yl yp ym' yl' yp' : Vec F S2048x1 .f32) :
    mOut i x0 x1 ym = mOut i x0 x1 ym' ∧ lOut i x0 x1 ym yl = lOut i x0 x1 ym' yl' ∧ pOut i x0 x1 yp = pOut i x0 x1 yp'
      ∧ oOut i x0 x1 ym yl yp = oOut i x0 x1 ym' yl' yp' := by
  refine ⟨?_, ?_, ?_, ?_⟩ <;> simp only [oOut, mOut, lOut, pOut, mIn, lIn, pIn, if_pos hc]

/-- The state after point `t` and the output column there, from the running columns the point is handed: anything at
    the first point, else what the point before left. -/
theorem step_eq (c : Dev nD) (t : Fin cfg0.N) (ym yl yp : Vec F S2048x1 .f32)
    (h : t.val = 0 ∨ (ym, yl, yp) = Sprev m c t.val) :
    (S m c t.val).1 = mOut (grid0.coords t) (iblk m c 0 t) (iblk m c 1 t) ym
      ∧ (S m c t.val).2.1 = lOut (grid0.coords t) (iblk m c 0 t) (iblk m c 1 t) ym yl
      ∧ (S m c t.val).2.2 = pOut (grid0.coords t) (iblk m c 0 t) (iblk m c 1 t) yp
      ∧ outAt m c t = oOut (grid0.coords t) (iblk m c 0 t) (iblk m c 1 t) ym yl yp := by
  rw [S_eq, pt_val]; unfold outAt
  rcases h with h0 | h
  · have hc : cond0 (grid0.coords t) := (hcond0 t).mpr (by rw [h0])
    obtain ⟨e1, e2, e3, e4⟩ := step_of_reset (grid0.coords t) hc (iblk m c 0 t) (iblk m c 1 t)
      (Sprev m c t.val).1 (Sprev m c t.val).2.1 (Sprev m c t.val).2.2 ym yl yp
    exact ⟨e1, e2, e3, e4⟩
  · have h1 : ym = (Sprev m c t.val).1 := congrArg Prod.fst h
    have h2 : yl = (Sprev m c t.val).2.1 := congrArg (fun s => s.2.1) h
    have h3 : yp = (Sprev m c t.val).2.2 := congrArg (fun s => s.2.2) h
    subst h1 h2 h3
    exact ⟨rfl, rfl, rfl, rfl⟩

/-- Before point `t` the invariant holds the three running columns at contents that are anything at the first point and
    what the point before left otherwise. -/
theorem Phi_open (c : Dev nD) (t : Fin cfg0.N) :
    PhiS m c t.val ⊢ iprop(∃ ym yl yp, ⌜t.val = 0 ∨ (ym, yl, yp) = Sprev m c t.val⌝ ∗ owns (c : Thread nD τ) scM fullShare ym
      ∗ owns (c : Thread nD τ) scL fullShare yl ∗ owns (c : Thread nD τ) scP fullShare yp ∗ (∃ r, prngReg c r)) := by
  obtain ⟨n, hn⟩ := t
  cases n with
  | zero =>
    show Pipeline.ΦA spec0 c ⊢ _
    rw [PhiA_eq]
    iintro ⟨⟨⟨%dm, HM⟩, ⟨%dl, HL⟩, ⟨%dp, HP⟩⟩, Hg⟩
    iexists dm; iexists dl; iexists dp
    isplitr; · ipureintro; exact Or.inl rfl
    isplitl [HM]; · iexact HM
    isplitl [HL]; · iexact HL
    isplitl [HP]; · iexact HP
    iexact Hg
  | succ n =>
    show iprop(owns (c : Thread nD τ) scM fullShare (S m c n).1 ∗ owns (c : Thread nD τ) scL fullShare (S m c n).2.1
      ∗ owns (c : Thread nD τ) scP fullShare (S m c n).2.2 ∗ (∃ r, prngReg c r)) ⊢ _
    iintro ⟨HM, HL, HP, Hg⟩
    iexists (S m c n).1; iexists (S m c n).2.1; iexists (S m c n).2.2
    isplitr; · ipureintro; exact Or.inr rfl
    isplitl [HM]; · iexact HM
    isplitl [HL]; · iexact HL
    isplitl [HP]; · iexact HP
    iexact Hg

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = iprop(owns (c : Thread nD τ) scM fullShare (S m c t.val).1 ∗ owns (c : Thread nD τ) scL fullShare (S m c t.val).2.1
      ∗ owns (c : Thread nD τ) scP fullShare (S m c t.val).2.2 ∗ (∃ r, prngReg c r)) from rfl]
  rw [show (dats m 0 c).Φ t.castSucc = PhiS m c t.val from rfl]
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  by_cases hc2 : cond2 (grid0.coords t)
  · rw [show (dats m 0 c).leavesExact 2 t = owns (c : Thread nD τ) (ms2 t) fullShare ((dats m 0 c).after 2 t) from by
      unfold Dat.leavesExact; rw [live2 t hc2], after_2]
    iintro ⟨HPhi, Ho, ⟨%d0, H0⟩, ⟨%d1, H1⟩, ⟨%d2, H2⟩⟩
    ihave HPhi' := (Phi_open m c t) $$ HPhi
    icases HPhi' with ⟨%ym, %yl, %yp, %hprev, HM, HL, HP, Hg⟩
    obtain ⟨e1, e2, e3, e4⟩ := step_eq m c t ym yl yp hprev
    rw [e1, e2, e3, e4]
    iapply (body_run c (grid0.coords t) _ _ _ _ _ _ _ _ _ _ _ _ (iblk m c 0 t) (iblk m c 1 t) ((dats m 0 c).before 2 t d2) ym yl yp Set.univ _)
    isplitl [H0 H1 H2 HM HL HP]
    · isplitl [H0]; · iexact H0
      isplitl [H1]; · iexact H1
      isplitl [H2]; · iexact H2
      isplitl [HM]; · iexact HM
      isplitl [HL]; · iexact HL
      iexact HP
    rw [if_pos hc2]
    iintro ⟨H0, H1, H2, HM, HL, HP⟩
    isplitl [HM HL HP Hg]
    · isplitl [HM]; · iexact HM
      isplitl [HL]; · iexact HL
      isplitl [HP]; · iexact HP
      iexact Hg
    isplitl [Ho]; · iexact Ho
    isplitl [H0]; · iexact H0
    isplitl [H1]; · iexact H1
    iexact H2
  · rw [Dat.leavesExact_idle (dats m 0 c) 2 t (idle2 t hc2) (noFlush2 t hc2)]
    iintro ⟨HPhi, Ho, ⟨%d0, H0⟩, ⟨%d1, H1⟩, ⟨%d2, H2⟩⟩
    ihave HPhi' := (Phi_open m c t) $$ HPhi
    icases HPhi' with ⟨%ym, %yl, %yp, %hprev, HM, HL, HP, Hg⟩
    obtain ⟨e1, e2, e3, e4⟩ := step_eq m c t ym yl yp hprev
    rw [e1, e2, e3]
    iapply (body_run c (grid0.coords t) _ _ _ _ _ _ _ _ _ _ _ _ (iblk m c 0 t) (iblk m c 1 t) ((dats m 0 c).before 2 t d2) ym yl yp Set.univ _)
    isplitl [H0 H1 H2 HM HL HP]
    · isplitl [H0]; · iexact H0
      isplitl [H1]; · iexact H1
      isplitl [H2]; · iexact H2
      isplitl [HM]; · iexact HM
      isplitl [HL]; · iexact HL
      iexact HP
    rw [if_neg hc2]
    iintro ⟨H0, H1, H2, HM, HL, HP⟩
    isplitl [HM HL HP Hg]
    · isplitl [HM]; · iexact HM
      isplitl [HL]; · iexact HL
      isplitl [HP]; · iexact HP
      iexact Hg
    isplitl [Ho]; · iexact Ho
    isplitl [H0]; · iexact H0
    isplitl [H1]; · iexact H1
    iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Pipeline.ΦA spec0 c from rfl]

/-- After the last point the invariant gives the scratch buffers back, their contents forgotten. -/
theorem hout (c : Dev nD) : (dats m 0 c).Φ (Fin.last cfg0.N) ⊢ Pipeline.ΦA spec0 c := by
  have hN : (Fin.last cfg0.N).val = 15 + 1 := by rw [Fin.val_last]; exact (show cfg0.N = 16 from N_0)
  rw [Phi_eq, hN, PhiA_eq]
  show iprop(owns (c : Thread nD τ) scM fullShare (S m c 15).1 ∗ owns (c : Thread nD τ) scL fullShare (S m c 15).2.1
      ∗ owns (c : Thread nD τ) scP fullShare (S m c 15).2.2 ∗ (∃ r, prngReg c r)) ⊢ _
  iintro ⟨HM, HL, HP, Hg⟩
  isplitr [Hg]
  · isplitl [HM]; · iexists _; iexact HM
    isplitl [HL]; · iexists _; iexact HL
    iexists _; iexact HP
  iexact Hg

end Cert.KernelIdeal.Body

end
-- ==== Proof.LaunchShared.lean ====
/-
  The launch of the kernel program around its one region, for a region whose two input windows read ONE array.

  The program is two host operations (stack the two views, change the format), the region (a 4 × 4 grid; windows 0 and 1
  both on the stacked array, window 2 on the per-row result), and four host operations (the sum of the per-row results
  divided by the number of rows). The two input windows cannot both hold the stacked array whole: its full share is cut
  in two halves, one for each window, when the region is entered, and the halves — which hold the same contents, an
  input array never being written — are joined again when it is left, so that the host operations after the region
  run within whole buffers. `run_of_body` is the statement: for any proof data at those shares whose body obligation
  holds, every weakly fair run terminates with the result buffer at the mean of what the write-backs made of the
  output array, and with the two arguments unchanged.
-/
import proofs.«169670_j40578851012794_1_alg».proof.Proof.Gen.KernelIdeal.Launch
import proofs.«169670_j40578851012794_1_alg».proof.Proof.Gen.KernelIdeal.Points
import proofs.«169670_j40578851012794_1_alg».proof.Proof.EntryContents
import Idealize.ShloMosaic.Lib.Pipeline.FrameSuffix
import Idealize.ShloMosaic.Lib.Tactic

noncomputable section

namespace Cert.KernelIdeal.Launch

open Cert.KernelIdeal Cert.KernelIdeal.Gen Cert.KernelIdeal.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem V_main_arg0 (c : Dev nD) : V m c main_arg0 = m ((c : Thread nD τ).loc main_arg0) := by
  show StableHlo.after hostOps0 (fun b => m (c, b)) (Proc.devRef .tc main_arg0) = _; after_results
theorem V_main_arg1 (c : Dev nD) : V m c main_arg1 = m ((c : Thread nD τ).loc main_arg1) := by
  show StableHlo.after hostOps0 (fun b => m (c, b)) (Proc.devRef .tc main_arg1) = _; after_results
theorem V_main_v1 (c : Dev nD) : V m c main_v1 = truncf .bf16 (concatenate S8192x256 0 [⟨S4096x256, m ((c : Thread nD τ).loc main_arg0)⟩, ⟨S4096x256, m ((c : Thread nD τ).loc main_arg1)⟩] concatenates_S4096x256_S4096x256_S8192x256_d0) bitsLt_bf16_f32 := by
  show StableHlo.after hostOps0 (fun b => m (c, b)) (Proc.devRef .tc main_v1) = _; after_results

theorem img_arr : Finset.univ.image (Pipeline.arrRef spec0) = {main_v1, main_v2} := by decide

theorem share0 {c : Dev nD} (dat : Dat τ (Elt F) Unit ℕ (UR sig nD τ) ℕ cfg0 c) (hq : ∀ w, dat.q w = qs w) : dat.share 0 = fullShare.left := by
  unfold Dat.share; rw [hq]; rfl
theorem share1 {c : Dev nD} (dat : Dat τ (Elt F) Unit ℕ (UR sig nD τ) ℕ cfg0 c) (hq : ∀ w, dat.q w = qs w) : dat.share 1 = fullShare.right := by
  unfold Dat.share; rw [hq]; rfl
theorem share2 {c : Dev nD} (dat : Dat τ (Elt F) Unit ℕ (UR sig nD τ) ℕ cfg0 c) : dat.share 2 = fullShare := by
  unfold Dat.share; rfl

theorem set0 : (cfg0.win 0).arr.view.set = Finset.univ := (arr_whole0 0).set_eq_univ
theorem set1 : (cfg0.win 1).arr.view.set = Finset.univ := (arr_whole0 1).set_eq_univ
theorem set2 : (cfg0.win 2).arr.view.set = Finset.univ := (arr_whole0 2).set_eq_univ

theorem arrays_of_bufs (c : Dev nD) (dat : Dat τ (Elt F) Unit ℕ (UR sig nD τ) ℕ cfg0 c) (hq : ∀ w, dat.q w = qs w)
    (Vv : (b : Ref sig .tc) → Buf (Elt F) ((c : Thread nD τ).loc b))
    (Fa : (w : Fin cfg0.W) → Buf (Elt F) ((cfg0.win w).arr.view.loc (c : Thread nD τ)))
    (hF : ∀ w, Fa w = Vv (Pipeline.arrRef spec0 w)) :
    (Pipeline.arrBufs spec0 c Vv : sProp 𝕄) ⊢ dat.arrays Fa := by
  unfold Pipeline.arrBufs Dat.arrays
  rw [img_arr, bigSep_W0, share0 dat hq, share1 dat hq, share2 dat, hF 0, hF 1, hF 2, set0, set2,
    bigSep_insert (by decide), bigSep_singleton]
  show iprop((((c : Thread nD τ).loc main_v1) ↦{fullShare} Vv main_v1) ∗ (((c : Thread nD τ).loc main_v2) ↦{fullShare} Vv main_v2))
    ⊢ (iprop((((c : Thread nD τ).loc main_v1) ↦{fullShare.left} Vv main_v1) ∗ (((c : Thread nD τ).loc main_v1) ↦{fullShare.right} Vv main_v1)
        ∗ (((c : Thread nD τ).loc main_v2) ↦{fullShare} Vv main_v2)) : sProp 𝕄)
  iintro ⟨H1, H2⟩
  ihave H1' := (pointsTo_share (PosShare.mem_left_op_right fullShare)).1 $$ H1
  icases H1' with ⟨Hl, Hr⟩
  isplitl [Hl]; · iexact Hl
  isplitl [Hr]; · iexact Hr
  iexact H2

theorem bufs_of_arrays (c : Dev nD) (dat : Dat τ (Elt F) Unit ℕ (UR sig nD τ) ℕ cfg0 c) (hq : ∀ w, dat.q w = qs w)
    (Vv : (b : Ref sig .tc) → Buf (Elt F) ((c : Thread nD τ).loc b))
    (Fa : (w : Fin cfg0.W) → Buf (Elt F) ((cfg0.win w).arr.view.loc (c : Thread nD τ)))
    (hF : ∀ w, Fa w = Vv (Pipeline.arrRef spec0 w)) :
    dat.arrays Fa ⊢ (Pipeline.arrBufs spec0 c Vv : sProp 𝕄) := by
  unfold Pipeline.arrBufs Dat.arrays
  rw [img_arr, bigSep_W0, share0 dat hq, share1 dat hq, share2 dat, hF 0, hF 1, hF 2, set0, set2,
    bigSep_insert (by decide), bigSep_singleton]
  show (iprop((((c : Thread nD τ).loc main_v1) ↦{fullShare.left} Vv main_v1) ∗ (((c : Thread nD τ).loc main_v1) ↦{fullShare.right} Vv main_v1)
        ∗ (((c : Thread nD τ).loc main_v2) ↦{fullShare} Vv main_v2)) : sProp 𝕄)
    ⊢ iprop((((c : Thread nD τ).loc main_v1) ↦{fullShare} Vv main_v1) ∗ (((c : Thread nD τ).loc main_v2) ↦{fullShare} Vv main_v2))
  iintro ⟨Hl, Hr, H2⟩
  isplitr [H2]
  · iapply (pointsTo_share (PosShare.mem_left_op_right fullShare)).2
    isplitl [Hl] <;> iassumption
  · iexact H2

/-- The valuation that holds the arrays' contents `A` at the arrays and `V` elsewhere, read at an array: windows that
    share an array are given the same contents (`hA`: the contents are those of one function of the buffer). -/
theorem withArrays_arr_of_consistent {nD : Nat} {τ : Topo} {sig : RefSig} {Val : EltTy → Type} {gr : Nat} {W : Nat}
    (win : Fin W → Pipeline.WinSpec sig gr) (c : Dev nD) (V : Valuation τ sig Val)
    (A : (w : Fin W) → Buf Val ((win w).arr.view.loc (c.tc : Thread nD τ)))
    (Vv : (b : Ref sig .tc) → Buf Val ((c.tc : Thread nD τ).loc b)) (hA : ∀ w, A w = Vv (Pipeline.arrRef win w)) (w : Fin W) :
    Pipeline.withArrays win c V A (Proc.devRef .tc (Pipeline.arrRef win w)) = A w := by
  unfold Pipeline.withArrays
  have h : ∃ w', Proc.devRef .tc (Pipeline.arrRef win w') = Proc.devRef (τ := τ) .tc (Pipeline.arrRef win w) := ⟨w, rfl⟩
  rw [dif_pos h]
  suffices ∀ (w' : Fin W) (e : Proc.devRef .tc (Pipeline.arrRef win w') = Proc.devRef (τ := τ) .tc (Pipeline.arrRef win w)),
      cast (congrArg (fun b' : DevRef τ sig => b'.ty.Contents Val) e) (A w') = A w from this _ h.choose_spec
  intro w' e
  have e' : Pipeline.arrRef win w' = Pipeline.arrRef win w := Proc.devRef_injective _ e
  rw [hA w', hA w]
  generalize Pipeline.arrRef win w' = b' at e e'
  subst e'
  rfl

variable (dats : (p : Fin 1) → (c : Dev nD) → Dat τ (Elt F) Unit ℕ (UR sig nD τ) ℕ (cfgs p) c)

/-- What the unscoped buffers hold when the region is left, read at a TensorCore reference: the output array at what
    the write-backs made of it, every other buffer (the shared input array among them) as at the region's entry. -/
def Vx (c : Dev nD) : (b : Ref sig .tc) → Buf (Elt F) ((c : Thread nD τ).loc b) :=
  Function.update (V m c) main_v2 ((dats 0 c).arrAt 2 cfg0.N)

/-- The same as a valuation of the device's buffers. -/
def Wx (c : Dev nD) : Valuation τ sig (Elt F) :=
  Pipeline.withArrays spec0 c (V0 m c) fun w => (dats 0 c).arrAt w cfg0.N

/-- And after the four host operations that follow the region. -/
def Wend (c : Dev nD) : Valuation τ sig (Elt F) := StableHlo.after (List.flatten [hostOps1]) (Wx m dats c)

variable {m dats}

theorem arrAt_eq_Vx (hA : ∀ c w, (dats 0 c).A w = V m c (Pipeline.arrRef spec0 w)) (c : Dev nD) :
    ∀ w, (dats 0 c).arrAt w cfg0.N = Vx m dats c (Pipeline.arrRef spec0 w)
  | 0 => ((dats 0 c).arrAt_in 0 rfl _).trans ((hA c 0).trans (Function.update_of_ne (by decide) _ _).symm)
  | 1 => ((dats 0 c).arrAt_in 1 rfl _).trans ((hA c 1).trans (Function.update_of_ne (by decide) _ _).symm)
  | 2 => (Function.update_self (β := fun b : Ref sig .tc => Buf (Elt F) ((c : Thread nD τ).loc b)) main_v2 ((dats 0 c).arrAt 2 cfg0.N) (V m c)).symm
  | ⟨_ + 3, h⟩ => absurd h (Nat.not_lt.2 (Nat.le_add_left _ _))

theorem Wx_arr (hA : ∀ c w, (dats 0 c).A w = V m c (Pipeline.arrRef spec0 w)) (c : Dev nD) (w : Fin 3) :
    Wx m dats c (Proc.devRef .tc (Pipeline.arrRef spec0 w)) = (dats 0 c).arrAt w cfg0.N :=
  withArrays_arr_of_consistent spec0 c (V0 m c) _ (Vx m dats c) (arrAt_eq_Vx hA c) w

theorem Wx_rest (c : Dev nD) (b : Ref sig .tc) (hb : ∀ w, Pipeline.arrRef spec0 w ≠ b) :
    Wx m dats c (Proc.devRef .tc b) = V m c b :=
  Pipeline.withArrays_of_ne spec0 c (V0 m c) _ b hb

theorem Wx_v2 (hA : ∀ c w, (dats 0 c).A w = V m c (Pipeline.arrRef spec0 w)) (c : Dev nD) :
    Wx m dats c (Proc.devRef .tc main_v2) = (dats 0 c).arrAt 2 cfg0.N := Wx_arr hA c 2

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

variable (m) in
/-- @main is the two host operations, the region, and the four host operations: it reduces to the region continued by
    the later four, at the contents the earlier two leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch unscoped TensorCore buffers only, -/
theorem sfx_sub : ∀ ops ∈ ([hostOps1] : List (List (HloOp τ sig (Elt F)))), ∀ op ∈ ops, op.bufs ⊆ Pipeline.ucRefs τ sig := by
  intro ops hops op hop
  simp only [List.mem_cons, List.mem_nil_iff, List.not_mem_nil, or_false] at hops
  rcases hops with rfl
  exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, List.not_mem_nil, or_false] at hops
  rcases hops with rfl
  exact (List.forall_iff_forall_mem.mp hostOps1_fresh) op hop
/-- and write no array of the pipeline. -/
theorem sfx_keeps : ∀ op ∈ (hostOps1 : List (HloOp τ sig (Elt F))), ∀ w, Proc.devRef .tc (Pipeline.arrRef spec0 w) ∉ op.writes := by
  intro op hop
  simp only [hostOps1, List.mem_cons, List.mem_nil_iff, List.not_mem_nil, or_false] at hop
  rcases hop with rfl | rfl | rfl | rfl
  all_goals intro w; fin_cases w <;> simp only [StableHlo.nullary_writes, StableHlo.unary_writes, StableHlo.binary_writes, Finset.mem_singleton] <;> exact StableHlo.devRef_ne_of_ne (by decide)

theorem Wend_v4 (hA : ∀ c w, (dats 0 c).A w = V m c (Pipeline.arrRef spec0 w)) (c : Dev nD) :
    Wend m dats c (Proc.devRef .tc main_v4)
      = Host.divf (Host.reduceAdd ((dats 0 c).arrAt 2 cfg0.N) (constant S_ .f32 0x00000000#32) reducesTo_S8192x1_S_d0_1 h_S_) (constant S_ .f32 0x46000000#32) := by
  show StableHlo.after hostOps1 (Wx m dats c) (Proc.devRef .tc main_v4) = _
  after_results
  rw [Wx_v2 hA c]

theorem Wend_arg0 (c : Dev nD) : Wend m dats c (Proc.devRef .tc main_arg0) = m ((c : Thread nD τ).loc main_arg0) := by
  show StableHlo.after hostOps1 (Wx m dats c) (Proc.devRef .tc main_arg0) = _
  after_results
  exact (Wx_rest c main_arg0 (by decide)).trans (V_main_arg0 m c)

theorem Wend_arg1 (c : Dev nD) : Wend m dats c (Proc.devRef .tc main_arg1) = m ((c : Thread nD τ).loc main_arg1) := by
  show StableHlo.after hostOps1 (Wx m dats c) (Proc.devRef .tc main_arg1) = _
  after_results
  exact (Wx_rest c main_arg1 (by decide)).trans (V_main_arg1 m c)

/-- The operations after the region leave the arrays as the region left them. -/
theorem Wend_arr (hA : ∀ c w, (dats 0 c).A w = V m c (Pipeline.arrRef spec0 w)) (c : Dev nD) (w : Fin 3) :
    Wend m dats c (Proc.devRef .tc (Pipeline.arrRef spec0 w)) = (dats 0 c).arrAt w cfg0.N := by
  unfold Wend
  rw [StableHlo.after_of_forall_not_mem _ _ fun op hop => ?_, Wx_arr hA c w]
  exact sfx_keeps op (by simpa only [List.flatten_cons, List.flatten_nil, List.append_nil] using hop) w

set_option backward.isDefEq.respectTransparency.types false in
/-- THE LINES AFTER THE REGION. From the region's exit — the boundary, the three windows' arrays at their shares, the
    bypassing buffers at the entry contents — the two halves of the shared input array are joined, the four host
    operations run within the unscoped buffers, and the arrays are dealt among the windows again. -/
theorem tail_run (hA : ∀ c w, (dats 0 c).A w = V m c (Pipeline.arrRef spec0 w)) (hq : ∀ c w, (dats 0 c).q w = qs w)
    (c : Dev nD) (Q' : PUnit → sProp 𝕄) :
    iprop((iprop((dats 0 c).arrays ((dats 0 c).arrAt · cfg0.N)
              ∗ Pipeline.unscopedRestP (Ix := Unit) (Name := ℕ) (U := UR sig nD τ) (Lvl := ℕ) Pipeline.Prefetch.none spec0 c (fun b => Wend m dats c (Proc.devRef .tc b))) -∗ Q' ⟨⟩)
        ∗ boundary (c.tc : Thread nD τ) ∗ (dats 0 c).arrays ((dats 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) defs₀) (Variants.lift Variants.none) (c.tc : Thread nD τ) none) Set.univ
          (Pipeline.chain ([hostOps1].map StableHlo.seq)) Q' := by
  have hx : iprop((dats 0 c).arrays ((dats 0 c).arrAt · cfg0.N)
        ∗ Pipeline.unscopedRestP (Ix := Unit) (Name := ℕ) (U := UR sig nD τ) (Lvl := ℕ) Pipeline.Prefetch.none spec0 c (V m c))
      ⊢ (StableHlo.held (c.tc : Thread nD τ) (Pipeline.ucRefs τ sig) (Wx m dats c) : sProp 𝕄) := by
    rw [Pipeline.unscopedRestP_none,
      ← Pipeline.unscopedBufs_held (Ix := Unit) (Name := ℕ) (U := UR sig nD τ) (Lvl := ℕ) c (Wx m dats c),
      Pipeline.unscopedBufs_split₀ cfgs 0 winFacts₀0.arr_unscoped c]
    refine sep_mono (bufs_of_arrays c (dats 0 c) (hq c) _ _ fun w => (Wx_arr hA c w).symm) (Entails.of_eq ?_)
    unfold Pipeline.unscopedRest
    exact bigSep_congr fun b hb => by
      beta_reduce
      rw [Wx_rest c b fun w e => (Finset.mem_sdiff.mp hb).2 (Finset.mem_image.mpr ⟨w, Finset.mem_univ _, e⟩)]
  have hx' : (StableHlo.held (c.tc : Thread nD τ) (Pipeline.ucRefs τ sig) (Wend m dats c) : sProp 𝕄)
      ⊢ iprop((dats 0 c).arrays ((dats 0 c).arrAt · cfg0.N)
        ∗ Pipeline.unscopedRestP (Ix := Unit) (Name := ℕ) (U := UR sig nD τ) (Lvl := ℕ) Pipeline.Prefetch.none spec0 c (fun b => Wend m dats c (Proc.devRef .tc b))) := by
    rw [Pipeline.unscopedRestP_none,
      ← Pipeline.unscopedBufs_held (Ix := Unit) (Name := ℕ) (U := UR sig nD τ) (Lvl := ℕ) c (Wend m dats c),
      Pipeline.unscopedBufs_split₀ cfgs 0 winFacts₀0.arr_unscoped c]
    exact sep_mono (arrays_of_bufs c (dats 0 c) (hq c) _ _ fun w => (Wend_arr hA c w).symm) .rfl
  rw [← List.append_nil ([hostOps1].map StableHlo.seq)]
  iintro ⟨Hk, Hb, HA, HZ⟩
  ihave Hh := hx $$ [HA HZ]
  · isplitl [HA] <;> iassumption
  iapply (Pipeline.wp_seqs_then (fun q => (cfgs q).toPCfg (Val := Elt F)) defs₀ Variants.none c (Pipeline.ucRefs τ sig) [] [hostOps1] sfx_sub sfx_fresh (Wx m dats c)) $$ [Hb Hh]
  · isplitl [Hb] <;> iassumption
  iintro ⟨Hb, Hh⟩
  rw [Pipeline.chain_nil, wp_pure]
  imodintro
  iapply Hk
  iapply hx'
  iexact Hh

variable (m) in
/-- THE LAUNCH. For any proof data holding the two input windows' shared array at the two halves of its full share
    (`hq`), at the region-entry contents (`hA`), owing nothing (`howed`), whose body obligation holds (`hbody`) around
    the class invariant (`hin`, `hout`): every weakly fair run of the program terminates, with the result buffer at the
    mean of what the write-backs made of the output array and the two arguments as they were. -/
theorem run_of_body (ρ : Dev nD → PrngReg)
    (hA : ∀ c w, (dats 0 c).A w = V m c (Pipeline.arrRef spec0 w)) (hq : ∀ c w, (dats 0 c).q w = qs w)
    (howed : ∀ c t, (dats 0 c).owed t = 0)
    (hbody : ∀ c, Pipeline.BodyObligationLoose (dats 0 c) defs₀ Variants.none () Set.univ)
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) ⟨m, fun _ => 0, ρ⟩ (fun r => ∀ c : Dev nD,
      r.2.mem ((c.tc : Thread nD τ).loc main_v4)
          = Host.divf (Host.reduceAdd ((dats 0 c).arrAt 2 cfg0.N) (constant S_ .f32 0x00000000#32) reducesTo_S8192x1_S_d0_1 h_S_) (constant S_ .f32 0x46000000#32)
        ∧ r.2.mem ((c.tc : Thread nD τ).loc main_arg0) = m ((c.tc : Thread nD τ).loc main_arg0)
        ∧ r.2.mem ((c.tc : Thread nD τ).loc main_arg1) = m ((c.tc : Thread nD τ).loc main_arg1)) := by
  classical
  exact Pipeline.θ_run_region_pf_tail (fun q => (cfgs q).toPCfg (Val := Elt F)) (fun q => (cfgs q).toPCfg_adm) dats () cellOf_inj 0 winFacts₀0
    (Pipeline.OwnSemFacts.none spec0) (Pipeline.PreFacts.none _) emb₁ defs₀ Variants.none m ρ main
    (fun _ => Pipeline.chain ([hostOps1].map StableHlo.seq)) hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_bufs c (dats 0 c) (hq c) (V m c) _ fun w => hA c w)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => Wend m dats c (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail_run hA hq c Q')
    (QY := fun c s => ∀ b ∈ Pipeline.restRefsP sig Pipeline.Prefetch.none spec0, s.mem ((c.tc : Thread nD τ).loc b) = Wend m dats c (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (fun b => Wend m dats c (Proc.devRef .tc b)) s')
      isplitl [HU] <;> iassumption)
    (hQ := fun s h c => ⟨((h c).2.2 main_v4 (by decide)).trans (Wend_v4 hA c),
      ((h c).2.2 main_arg0 (by decide)).trans (Wend_arg0 c), ((h c).2.2 main_arg1 (by decide)).trans (Wend_arg1 c)⟩)

/-- info: 'Cert.KernelIdeal.Launch.run_of_body' depends on axioms: [propext, Classical.choice, Quot.sound] -/
#guard_msgs in #print axioms run_of_body

end Cert.KernelIdeal.Launch

end
-- ==== Proof.KernelRun.lean ====
/-
  The kernel program's run: the launch of the region, whose two input windows read one array, applied to the proof data of
  ProofData.lean and its body obligation. Every weakly fair execution terminates; the result is the host's mean of the
  output array as the pipeline leaves it, and the two arguments are unchanged.
-/
import proofs.«169670_j40578851012794_1_alg».proof.Proof.BodyObligation
import proofs.«169670_j40578851012794_1_alg».proof.Proof.LaunchShared

noncomputable section

namespace Cert.KernelIdeal.Body

open Cert.KernelIdeal Cert.KernelIdeal.Gen Cert.KernelIdeal.Entry
open Idealize.ShloMosaic Idealize.ShloMosaic.TcCoe
open Idealize.SL Idealize.SL.Sem
open Idealize.ShloMosaic.Pipeline (Dat)

variable {F : FTy → Type} [FloatOps F]

/-- The run, the result named through the output array after the region. -/
theorem run_named (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v4)
          = Host.divf (Host.reduceAdd ((dats m 0 c).arrAt 2 cfg0.N) (constant S_ .f32 0x00000000#32) reducesTo_S8192x1_S_d0_1 h_S_) (constant S_ .f32 0x46000000#32)
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  Cert.KernelIdeal.Launch.run_of_body m ρ (A_eq m) (q_eq m) (fun _ _ => rfl) (fun c => (body_obligation m c).loose) (hin m) (hout m)

/-- The frame: the program runs to the end, nothing faults, and its two arguments end unchanged. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun _ h c => ⟨(h c).2.1, (h c).2.2⟩) (run_named m ρ)

end Cert.KernelIdeal.Body

end
-- ==== Proof.OutArray.lean ====
/-
  From blocks to the array: the result column after the region.

  The grid is 4 × 4, point t = 4·r + c handling row tile r against column tile c. The output window's block at point t
  is rows 2048·(t / 4) … 2048·(t / 4) + 2047 of the `[8192, 1]` result column, and the window is written back exactly
  at the points with t mod 4 = 3, the last column tile of each row tile. So the four written blocks tile the column:
  row i lies in the block of point 4·(i / 2048) + 3, at row i mod 2048 of it. Hence the column ends holding, at row
  2048·r + p, row p of what the body left in the window at point 4·r + 3. The two input windows are never written:
  their array ends as the region found it.
-/
import proofs.«169670_j40578851012794_1_alg».proof.Proof.ProofData
import Idealize.ShloMosaic.Lib.Pipeline.Value
import Idealize.ShloMosaic.Lib.ValueIdx

set_option maxRecDepth 16384

noncomputable section

namespace Cert.NtXent.OutArray

open Cert.KernelIdeal Cert.KernelIdeal.Gen Cert.KernelIdeal.Entry Cert.KernelIdeal.Body
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

/-- The point that writes back row tile `r`: its last column tile, 4·r + 3. -/
def lastPt (r : ℕ) (hr : r < 4) : Fin cfg0.N := ⟨4 * r + 3, by rw [show cfg0.N = 16 from N_0]; omega⟩

@[simp] theorem lastPt_val (r : ℕ) (hr : r < 4) : (lastPt r hr).val = 4 * r + 3 := rfl

/-- The whole column: row `i` is row `i mod 2048` of what row tile `i / 2048` leaves at its last column tile. -/
def G (c : Dev nD) : S8192x1.Idx → Elt F .f32 := fun i =>
  outAt m c (lastPt ((i 0).val / 2048) (by have h : (i 0).val < 8192 := (i 0).isLt; omega))
    (ix2 (⟨(i 0).val % 2048, Nat.mod_lt _ (by norm_num)⟩ : Fin 2048) (0 : Fin 1))

/-- The output window's index map over the grid: block row t / 4, block column 0. -/
theorem idx_facts : ∀ t : Fin cfg0.N, win0_2.index t (0 : Fin 2) = t.val / 4 ∧ win0_2.index t (1 : Fin 2) = 0 :=
  (by decide +kernel : ∀ t : Fin grid0.N, _)

theorem outAt_congr (c : Dev nD) {t t' : Fin cfg0.N} (e : t = t') {p p' : S2048x1.Idx} (e' : p = p') :
    outAt m c t p = outAt m c t' p' := by subst e; subst e'; rfl

/-- The whole column at a row of row tile t / 4, for a point `t` that writes back: with i = 2048·(t / 4) + p and
    t mod 4 = 3, the quotient i / 2048 is t / 4, so the point 4·(i / 2048) + 3 is `t`, and i mod 2048 is p. -/
theorem G_apply (c : Dev nD) (t : Fin cfg0.N) (ht : t.val % 4 = 3) (i : S8192x1.Idx) (p : S2048x1.Idx)
    (h0 : (i 0).val = 2048 * (t.val / 4) + (p 0).val) : G m c i = outAt m c t p := by
  have hp0 : (p 0).val < 2048 := (p 0).isLt
  have hp1 : (p 1).val < 1 := (p 1).isLt
  unfold G
  refine outAt_congr m c (Fin.ext ?_) (funext fun a => Fin.ext ?_)
  · show 4 * ((i 0).val / 2048) + 3 = t.val
    omega
  · match a with
    | ⟨0, _⟩ => show (i 0).val % 2048 = (p 0).val; omega
    | ⟨1, _⟩ => show 0 = (p 1).val; omega

/-- What a point that writes back writes is its block of the whole column. -/
theorem flushed_eq (c : Dev nD) (t : Fin cfg0.N) (hf : (cfg0.win 2).flush t = true) :
    (dats m 0 c).flushed 2 t = ((cfg0.win 2).blk t).view.read (Elt F) (G m c) := by
  have ht : t.val % 4 = 3 := (flush0_2 t).mp hf
  show (cfg0.win 2).cut (grid0.coords t) ((dats m 0 c).after 2 t) = _
  rw [after_2]
  funext j
  show outAt m c t ((cfg0.win 2).xinj (grid0.coords t) j) = G m c (((cfg0.win 2).blk t).view.emb j)
  refine (G_apply m c t ht _ _ ?_).symm
  show win0_2.index t (0 : Fin 2) * 2048 + 1 * (j 0).val = 2048 * (t.val / 4) + (j 0).val
  rw [(idx_facts t).1]
  omega

/-- An index of the column is in point `t`'s block iff each coordinate is in the block's range on its axis. -/
theorem mem_blk (t : Fin cfg0.N) (i : S8192x1.Idx) :
    i ∈ ((cfg0.win 2).blk t).view.set ↔ ∀ a : Fin 2, win0_2.index t a * S2048x1.size a ≤ (i a).val
      ∧ (i a).val < win0_2.index t a * S2048x1.size a + S2048x1.size a := by
  show i ∈ ((View.whole main_v2).slice (win0_2.rect t)).set ↔ _
  rw [View.set_slice_whole, Rect.mem_set_unit]
  exact Iff.rfl

/-- Every row of the column is in the block of a point that writes back: row `i` in that of 4·(i / 2048) + 3. -/
theorem cover (i : S8192x1.Idx) :
    ∃ t : Fin cfg0.N, (cfg0.win 2).flush t = true ∧ i ∈ ((cfg0.win 2).blk t).view.set := by
  have hi0 : (i 0).val < 8192 := (i 0).isLt
  have hi1 : (i 1).val < 1 := (i 1).isLt
  refine ⟨lastPt ((i 0).val / 2048) (by omega),
    (flush0_2 _).mpr (by show (4 * ((i 0).val / 2048) + 3) % 4 = 3; omega), ?_⟩
  rw [mem_blk]
  obtain ⟨e0, e1⟩ := idx_facts (lastPt ((i 0).val / 2048) (by omega))
  have ev : (lastPt ((i 0).val / 2048) (by omega)).val = 4 * ((i 0).val / 2048) + 3 := rfl
  intro a
  match a with
  | ⟨0, _⟩ =>
    show win0_2.index _ (0 : Fin 2) * 2048 ≤ (i 0).val ∧ (i 0).val < win0_2.index _ (0 : Fin 2) * 2048 + 2048
    rw [e0, ev]; omega
  | ⟨1, _⟩ =>
    show win0_2.index _ (1 : Fin 2) * 1 ≤ (i 1).val ∧ (i 1).val < win0_2.index _ (1 : Fin 2) * 1 + 1
    rw [e1]; omega

/-- The result column after the region is the whole column `G`. -/
theorem final (c : Dev nD) : (dats m 0 c).arrAt 2 cfg0.N = G m c :=
  (dats m 0 c).arrAt_eq_of_cover 2 (G m c) (flushed_eq m c) cover

/-- Row 2048·r + p of the result column is row p of what the body leaves at point 4·r + 3. -/
theorem out_apply (c : Dev nD) (r : Fin 4) (p : Fin 2048) :
    (dats m 0 c).arrAt 2 cfg0.N
        (ix2 (⟨2048 * r.val + p.val, by have := r.isLt; have := p.isLt; omega⟩ : Fin 8192) (0 : Fin 1))
      = outAt m c (lastPt r.val r.isLt) (ix2 p (0 : Fin 1)) := by
  rw [final m c]
  have hr := r.isLt; have hp := p.isLt
  refine G_apply m c (lastPt r.val r.isLt) (by show (4 * r.val + 3) % 4 = 3; omega) _ _ ?_
  show 2048 * r.val + p.val = 2048 * ((4 * r.val + 3) / 4) + p.val
  omega

/-- The input windows' array is never written: it ends as the region found it. -/
theorem in0 (c : Dev nD) : (dats m 0 c).arrAt 0 cfg0.N = (dats m 0 c).A 0 := (dats m 0 c).arrAt_in 0 rfl cfg0.N
theorem in1 (c : Dev nD) : (dats m 0 c).arrAt 1 cfg0.N = (dats m 0 c).A 1 := (dats m 0 c).arrAt_in 1 rfl cfg0.N

end Cert.NtXent.OutArray

end
-- ==== Proof.LibRowOps.lean ====
/-
  Row-wise operations of a two-axis vector, read at an index (program-independent; imports only the library).

  A reduction along the rows of an `[a, b]` vector that keeps the reduced axis as a unit axis passes through three
  operations: the reduction itself into `[a]`, a shape cast of that into the column `[a, 1]`, and a broadcast of the
  column back to `[a, b]`. Read at `(i, j)`, the cast column at `(i, 0)` is entry `i` of the reduced vector, and the
  broadcast column at `(i, j)` is the column's entry `(i, 0)`: the value depends on the row alone. At the ideal values
  the reduction at row `i` is the sum over `k` of the entries `(i, k)`, or the fold of `max` over them from the
  accumulator's value, in any order.
-/
import Idealize.ShloMosaic.Lib.ValueIdx
import Idealize.ShloMosaic.Lib.Pipeline.Value
import Idealize.ShloMosaic.PureOps.Ideal.Laws

noncomputable section

namespace Cert.RowOps

open Idealize.ShloMosaic Idealize.ShloMosaic.ValueIdx

variable {α : Type}

/-- An `[a]` vector cast to the column `[a, 1]` reads, at `(i, z)`, the operand's entry `i`: both sit at row-major
    position `i`. -/
theorem shapeCast_a_a1_apply {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_one, Shape.rowMajor_val_two]
    show i.val = i.val * 1 + z.val
    rw [hz, Nat.mul_one, Nat.add_zero])

/-- A column `[a, 1]` broadcast to `[a, b]` reads, at `(i, j)`, the column's entry `(i, 0)`: the row is kept and
    the unit axis is read at its only coordinate. -/
theorem broadcastTo_a1_ab_apply {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) :=
  broadcastTo_apply x h _ _ (fun c => match c with
    | ⟨0, _⟩ => by
      show i.val = if a = 1 then 0 else i.val
      by_cases ha : a = 1
      · rw [if_pos ha]; have := i.isLt; omega
      · rw [if_neg ha]
    | ⟨1, _⟩ => by
      show 0 = if (1 : Nat) = 1 then 0 else j.val
      rw [if_pos rfl])

/-- The index over row `i` with coordinate `k` put back on the reduced axis is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext c; apply Fin.ext
  fin_cases c <;> rfl

/-- At the ideal values a sum along the rows of an `[a, b]` vector is, at row `i`, the sum of that row's entries. -/
theorem multiReduction_add_row {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ X acc h hφ hacc (ix1 i) = ∑ k : Fin b, X (ix2 i k) := by
  refine (Ideal.multiReduction_add_single X acc h hφ hacc (ix1 i)).trans ?_
  exact Finset.sum_congr rfl fun k _ => congrArg X (lift_row h i k)

/-- At the ideal values a maximum along the rows of an `[a, b]` vector is, at row `i`, the fold of `max` over that
    row's entries from the accumulator's value, in any order. -/
theorem multiReduction_maximumf_row {a b : ℕ} {φ : FTy} (X : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (i : Fin a) :
    multiReduction .maximumf [1] ⟨1, ![a]⟩ X acc h hφ hacc (ix1 i)
      = (Finset.univ : Finset (Fin b)).fold max (Ideal.ofBits φ acc) (fun k => X (ix2 i k)) := by
  refine (Ideal.multiReduction_maximumf_single X acc h hφ hacc (ix1 i)).trans ?_
  have hf : (X ∘ h.lift (ix1 i)) = fun k : Fin b => X (ix2 i k) := funext fun k => congrArg X (lift_row h i k)
  rw [hf]
  rfl

end Cert.RowOps

end
-- ==== Proof.LibPlainDot.lean ====
/-
  A plain matrix product read at an index (program-independent; imports only the library).

  For the dimension numbers of an ordinary product of an `[M, K]` matrix by a `[K, N]` matrix — the left operand's
  second axis contracted with the right operand's first, no batch axis — the contraction index is one coordinate
  `k : Fin K`, the left operand is read at `(r, k)` and the right one at `(k, j)`. So at the ideal values both the
  kernel's matrix product into a zero accumulator and the host's general product are, at `(r, j)`, the sum over `k` of
  the products of the entries `(r, k)` and `(k, j)`.
-/
import Idealize.ShloMosaic.Lib.ValueIdx
import Idealize.ShloMosaic.PureOps.Ideal.Laws

noncomputable section

namespace Cert.PlainDot

open Idealize.ShloMosaic Idealize.ShloMosaic.ValueIdx

/-- The contraction index of a plain product is its one coordinate. -/
abbrev contrFin (M K N : ℕ) : (DotDims.plain M K N).contr.Idx ≃ Fin K :=
  contrEquiv1 (DotDims.plain M K N) K rfl rfl

/-- At output `(r, j)` and contraction coordinate `k` the left operand is read at `(r, k)`. -/
theorem lhsIdx_plain (M K N : ℕ) (r : Fin M) (j : Fin N) (k : Fin K) :
    (DotDims.plain M K N).lhsIdx (ix2 r j) ((contrFin M K N).symm k) = ix2 r k := by
  funext a; apply Fin.ext
  match a with
  | ⟨0, _⟩ => rfl
  | ⟨1, _⟩ =>
    refine ((DotDims.plain M K N).lhsIdx_val_of_single (cl := (1 : Fin 2)) rfl (ix2 r j) _).trans ?_
    exact contrEquiv1_symm_val (DotDims.plain M K N) K rfl rfl k

/-- At output `(r, j)` and contraction coordinate `k` the right operand is read at `(k, j)`. -/
theorem rhsIdx_plain (M K N : ℕ) (r : Fin M) (j : Fin N) (k : Fin K) :
    (DotDims.plain M K N).rhsIdx (ix2 r j) ((contrFin M K N).symm k) = ix2 k j := by
  funext a; apply Fin.ext
  match a with
  | ⟨0, _⟩ =>
    refine ((DotDims.plain M K N).rhsIdx_val_of_single (cr := (0 : Fin 2)) rfl (ix2 r j) _).trans ?_
    exact contrEquiv1_symm_val (DotDims.plain M K N) K rfl rfl k
  | ⟨1, _⟩ => rfl

/-- The contraction's sum of a plain product at `(r, j)`, over the coordinate `k`. -/
theorem sum_plain {M K N : ℕ} (L : (⟨2, ![M, K]⟩ : Shape).Idx → EReal) (R : (⟨2, ![K, N]⟩ : Shape).Idx → EReal)
    (r : Fin M) (j : Fin N) :
    (∑ q : (DotDims.plain M K N).contr.Idx,
        L ((DotDims.plain M K N).lhsIdx (ix2 r j) q) * R ((DotDims.plain M K N).rhsIdx (ix2 r j) q))
      = ∑ k : Fin K, L (ix2 r k) * R (ix2 k j) := by
  rw [← Equiv.sum_comp (contrFin M K N).symm]
  exact Finset.sum_congr rfl fun k _ => by rw [lhsIdx_plain, rhsIdx_plain]

/-- At the ideal values the kernel's matrix product into the zero accumulator, read at `(r, j)`. -/
theorem matmul_plain_apply {M K N : ℕ} {φ₁ φ₂ : FTy} (prec : Option ContractPrecision)
    (lhs : FVec Ideal ⟨2, ![M, K]⟩ φ₁) (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) :=
  (Ideal.matmul_constant_zero_apply _ prec lhs rhs (ix2 r j)).trans (sum_plain lhs rhs r j)

/-- At the ideal values the host's general product, read at `(r, j)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j)
      = ∑ k : Fin K, lhs (ix2 r k) * rhs (ix2 k j) :=
  (Ideal.dotGeneral_apply _ prec sched lhs rhs (ix2 r j)).trans (sum_plain lhs rhs r j)

end Cert.PlainDot

end
-- ==== Proof.Payloads8.lean ====
/-
  The similarity tile of the kernel's body, read at an index, at the ideal values.

  At grid point `(i₀, i₁)` the body holds rows `2048·i₀ … 2048·i₀ + 2047` of the stacked matrix (the row tile) and rows
  `2048·i₁ … 2048·i₁ + 2047` (the column tile). Its similarity tile is, at `(p, j)`, twice the inner product of row `p`
  of the first with row `j` of the second, except where the two are the same global row, `2048·i₀ + p = 2048·i₁ + j`,
  where it is the fill word. The comparison is made on 32-bit words; both sides are below `4·2048`, so no word wraps and
  the words agree exactly when the numbers do. The product is the plain matrix product of the row tile with the
  transpose of the column tile, and the transpose read at `(d, j)` is the column tile at `(j, d)`.
-/
import proofs.«169670_j40578851012794_1_alg».proof.Proof.Gen.KernelIdeal.Skeleton
import proofs.«169670_j40578851012794_1_alg».proof.Proof.LibRowOps
import proofs.«169670_j40578851012794_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.NtXent.Payloads

open Idealize.ShloMosaic Idealize.ShloMosaic.ValueIdx Cert.KernelIdeal Cert.KernelIdeal.Gen

/-- The kernel's product record is the plain one: the same axis lists. -/
theorem dot_eq_plain :
    dot_S2048x256_S256x2048_S2048x2048_1_0_0_1_n_n = DotDims.plain 2048 256 2048 := rfl

/-- A grid coordinate is below 4. -/
theorem coord0_lt (i : grid0.Coords) : (i 0).val < 4 := (i 0).isLt
theorem coord1_lt (i : grid0.Coords) : (i 1).val < 4 := (i 1).isLt

theorem ofBool_one_iff (b : Bool) : BitVec.ofBool b = 1#1 ↔ b = true := by cases b <;> decide

/-- The two global positions as 32-bit words agree exactly when they agree as numbers: nothing wraps below 2^32. -/
theorem diag_word (a b : ℕ) (ha : a < 4) (hb : b < 4) (p j : Fin 2048) :
    IntOp.cmpi .eq (IntOp.addi (Scalar.muli (BitVec.ofNat 32 a) 2048#32) (BitVec.ofNat 32 p.val))
        (IntOp.addi (Scalar.muli (BitVec.ofNat 32 b) 2048#32) (BitVec.ofNat 32 j.val)) = 1#1
      ↔ 2048 * a + p.val = 2048 * b + j.val := by
  have hp := p.isLt
  have hj := j.isLt
  unfold IntOp.cmpi IntOp.addi Scalar.muli IntOp.muli
  show BitVec.ofBool (_ == _) = 1#1 ↔ _
  rw [ofBool_one_iff, beq_iff_eq, ← BitVec.toNat_inj]
  simp only [BitVec.toNat_add, BitVec.toNat_mul, BitVec.toNat_ofNat]
  omega

/-- The product of the row tile with the transposed column tile, at `(p, j)`: the inner product of row `p` of the
    first with row `j` of the second. -/
theorem product_apply (x0 x1 : FVec Ideal S2048x256 .bf16) (h1 h2 : S2048x256.ShapeCasts S2048x256)
    (ht : S2048x256.Transposes [1, 0] S256x2048) (p j : Fin 2048) :
    matmul dot_S2048x256_S256x2048_S2048x2048_1_0_0_1_n_n none (shapeCast S2048x256 x0 h1)
        (transpose S256x2048 [1, 0] (shapeCast S2048x256 x1 h2) ht)
        (constant (F := Ideal) S2048x2048 .f32 0x00000000#32) (ix2 p j)
      = ∑ d : Fin 256, x0 (ix2 p d) * x1 (ix2 j d) := by
  rw [shapeCast_self, shapeCast_self, dot_eq_plain]
  refine (Cert.PlainDot.matmul_plain_apply none x0 _ p j).trans ?_
  exact Finset.sum_congr rfl fun d _ => congrArg (x0 (ix2 p d) * ·) (transpose_ix2_apply x1 ht d j)

/-- The masked, scaled similarity tile at `(p, j)`: the fill word where the global row `2048·i₀ + p` is the global
    column `2048·i₁ + j`, else twice the inner product of the two rows. -/
theorem pay8_apply (i : grid0.Coords) (x0 x1 : Vec Ideal S2048x256 .bf16) (p j : Fin 2048) :
    k0_pay8 (F := Ideal) i x0 x1 (ix2 p j)
      = if 2048 * (i 0).val + p.val = 2048 * (i 1).val + j.val then Ideal.ofBits .f32 0xCE6E6B28#32
        else (∑ d : Fin 256, x0 (ix2 p d) * x1 (ix2 j d)) * Ideal.ofBits .f32 0x40000000#32 := by
  unfold k0_pay8
  have hm := product_apply x0 x1 shapeCasts_S2048x256_S2048x256 shapeCasts_S2048x256_S2048x256
    transposes_S2048x256_p1_0_S256x2048 p j
  have hc := diag_word (i 0).val (i 1).val (coord0_lt i) (coord1_lt i) p j
  have e0 : iota .tc S2048x2048 32 [0] iota_S2048x2048_d0_w32 (ix2 p j) = BitVec.ofNat 32 p.val :=
    iota_single_apply .tc S2048x2048 32 0 _ (ix2 p j)
  have e1 : iota .tc S2048x2048 32 [1] iota_S2048x2048_d1_w32 (ix2 p j) = BitVec.ofNat 32 j.val :=
    iota_single_apply .tc S2048x2048 32 1 _ (ix2 p j)
  show Scalar.select
      (IntOp.cmpi .eq
        (IntOp.addi (Scalar.muli (BitVec.ofNat 32 (i 0).val) 2048#32)
          (iota .tc S2048x2048 32 [0] iota_S2048x2048_d0_w32 (ix2 p j)))
        (IntOp.addi (Scalar.muli (BitVec.ofNat 32 (i 1).val) 2048#32)
          (iota .tc S2048x2048 32 [1] iota_S2048x2048_d1_w32 (ix2 p j))))
      (Ideal.ofBits .f32 0xCE6E6B28#32)
      (matmul dot_S2048x256_S256x2048_S2048x2048_1_0_0_1_n_n none
          (shapeCast S2048x256 x0 shapeCasts_S2048x256_S2048x256)
          (transpose S256x2048 [1, 0] (shapeCast S2048x256 x1 shapeCasts_S2048x256_S2048x256)
            transposes_S2048x256_p1_0_S256x2048)
          (constant (F := Ideal) S2048x2048 .f32 0x00000000#32) (ix2 p j)
        * Ideal.ofBits .f32 0x40000000#32) = _
  rw [e0, e1, hm]
  unfold Scalar.select
  by_cases h : 2048 * (i 0).val + p.val = 2048 * (i 1).val + j.val
  · rw [if_pos h]; exact if_pos (hc.2 h)
  · rw [if_neg h]; exact if_neg (fun h' => h (hc.1 h'))

end Cert.NtXent.Payloads

end
-- ==== Proof.Payloads9.lean ====
/-
  The running maximum and the running sum of the kernel's body, read at an index, at the ideal values.

  Row `p` of the new running maximum is the larger of the old one and the largest entry of row `p` of the similarity
  tile (a fold of `max` over the row from `-∞`). Row `p` of the new running sum is the old one rescaled by the
  exponential of the old maximum less the new one, plus the row's sum of the exponentials of the tile's entries less
  the new maximum; the new maximum reaches every column of the tile by a broadcast of its column, which reads the
  column's entry of the same row.
-/
import proofs.«169670_j40578851012794_1_alg».proof.Proof.Payloads8

noncomputable section

namespace Cert.NtXent.Payloads

open Idealize.ShloMosaic Idealize.ShloMosaic.ValueIdx Cert.KernelIdeal Cert.KernelIdeal.Gen

/-- The new running maximum at row `p`. -/
theorem pay9_apply (i : grid0.Coords) (x0 x1 : Vec Ideal S2048x256 .bf16) (v22 : Vec Ideal S2048x1 .f32)
    (p : Fin 2048) (z : Fin 1) :
    k0_pay9 (F := Ideal) i x0 x1 v22 (ix2 p z)
      = max (v22 (ix2 p 0))
          ((Finset.univ : Finset (Fin 2048)).fold max (Ideal.ofBits .f32 0xFF800000#32)
            (fun j => k0_pay8 (F := Ideal) i x0 x1 (ix2 p j))) := by
  obtain rfl : z = 0 := Subsingleton.elim _ _
  unfold k0_pay9
  refine (maximumf_apply _ _ (ix2 p 0)).trans ?_
  refine congrArg (max (v22 (ix2 p 0))) ?_
  refine (Cert.RowOps.shapeCast_a_a1_apply _ shapeCasts_S2048_S2048x1 p 0).trans ?_
  exact Cert.RowOps.multiReduction_maximumf_row (k0_pay8 (F := Ideal) i x0 x1) 0xFF800000#32
    reduces_S2048x2048_S2048 (.inl rfl) rfl p

/-- The new running sum at row `p`. -/
theorem pay10_apply (i : grid0.Coords) (x0 x1 : Vec Ideal S2048x256 .bf16) (v22 v31 : Vec Ideal S2048x1 .f32)
    (p : Fin 2048) (z : Fin 1) :
    k0_pay10 (F := Ideal) i x0 x1 v22 v31 (ix2 p z)
      = Ideal.exp (v22 (ix2 p 0) - k0_pay9 (F := Ideal) i x0 x1 v22 (ix2 p 0)) * v31 (ix2 p 0)
        + ∑ j : Fin 2048, Ideal.exp (k0_pay8 (F := Ideal) i x0 x1 (ix2 p j)
            - k0_pay9 (F := Ideal) i x0 x1 v22 (ix2 p 0)) := by
  obtain rfl : z = 0 := Subsingleton.elim _ _
  unfold k0_pay10
  refine (addf_apply _ _ (ix2 p 0)).trans ?_
  refine congrArg₂ (· + ·) rfl ?_
  refine (Cert.RowOps.shapeCast_a_a1_apply _ shapeCasts_S2048_S2048x1 p 0).trans ?_
  refine (Cert.RowOps.multiReduction_add_row _ 0x00000000#32 reduces_S2048x2048_S2048 (.inl rfl) rfl p).trans ?_
  refine Finset.sum_congr rfl fun j _ => ?_
  exact congrArg (fun t => Ideal.exp (k0_pay8 (F := Ideal) i x0 x1 (ix2 p j) - t))
    (Cert.RowOps.broadcastTo_a1_ab_apply (k0_pay9 (F := Ideal) i x0 x1 v22) broadcasts_S2048x1_S2048x2048 p j)

end Cert.NtXent.Payloads

end
-- ==== Proof.Payloads.lean ====
/-
  The remaining payloads of the kernel's body, read at an index, at the ideal values; with the similarity tile, the
  running maximum and the running sum of the two modules imported here, this is every value the body stores.

  The positive's similarity is read off the diagonal of a tile: the row sum of the tile with every entry off the
  diagonal replaced by zero has one nonzero term, the diagonal entry. The comparison of the row and column numbers is
  made on 32-bit words of numbers below 2048, which agree exactly when the numbers do. A row's loss term is its running
  maximum plus the logarithm of its running sum, less the positive's similarity. The three accumulators start at
  `-∞`, `0` and `0`. A shape cast of a vector to its own shape is the vector.
-/
import proofs.«169670_j40578851012794_1_alg».proof.Proof.Payloads8
import proofs.«169670_j40578851012794_1_alg».proof.Proof.Payloads9

noncomputable section

namespace Cert.NtXent.Payloads

open Idealize.ShloMosaic Idealize.ShloMosaic.ValueIdx Cert.KernelIdeal Cert.KernelIdeal.Gen

/-- The words of two numbers below 2048 agree exactly when the numbers do. -/
theorem eq_word (p k : Fin 2048) :
    IntOp.cmpi .eq (BitVec.ofNat 32 p.val) (BitVec.ofNat 32 k.val) = 1#1 ↔ p = k := by
  have hp := p.isLt
  have hk := k.isLt
  unfold IntOp.cmpi
  show BitVec.ofBool (_ == _) = 1#1 ↔ _
  rw [ofBool_one_iff, beq_iff_eq, ← BitVec.toNat_inj, Fin.ext_iff]
  simp only [BitVec.toNat_ofNat]
  omega

/-- The diagonal of a tile: row `p` of the row sums of the tile with its off-diagonal entries zeroed is the tile's
    entry `(p, p)`. -/
theorem pay3_apply (v21 : FVec Ideal S2048x2048 .f32) (p : Fin 2048) (z : Fin 1) :
    k0_pay3 (F := Ideal) (iota .tc S2048x2048 32 [0] iota_S2048x2048_d0_w32)
        (iota .tc S2048x2048 32 [1] iota_S2048x2048_d1_w32) v21 (ix2 p z) = v21 (ix2 p p) := by
  obtain rfl : z = 0 := Subsingleton.elim _ _
  unfold k0_pay3
  refine (congrFun (shapeCast_self _ shapeCasts_S2048x1_S2048x1) (ix2 p 0)).trans ?_
  refine (Cert.RowOps.shapeCast_a_a1_apply _ shapeCasts_S2048_S2048x1 p 0).trans ?_
  refine (Cert.RowOps.multiReduction_add_row _ 0x00000000#32 reduces_S2048x2048_S2048 (.inl rfl) rfl p).trans ?_
  have hterm : ∀ k : Fin 2048,
      select (cmpi .eq (iota .tc S2048x2048 32 [0] iota_S2048x2048_d0_w32)
          (iota .tc S2048x2048 32 [1] iota_S2048x2048_d1_w32)) v21
          (broadcast S2048x2048 (Scalar.ofBits (F := Ideal) .f32 0x00000000#32)) (ix2 p k)
        = if p = k then v21 (ix2 p k) else 0 := by
    intro k
    have e0 : iota .tc S2048x2048 32 [0] iota_S2048x2048_d0_w32 (ix2 p k) = BitVec.ofNat 32 p.val :=
      iota_single_apply .tc S2048x2048 32 0 _ (ix2 p k)
    have e1 : iota .tc S2048x2048 32 [1] iota_S2048x2048_d1_w32 (ix2 p k) = BitVec.ofNat 32 k.val :=
      iota_single_apply .tc S2048x2048 32 1 _ (ix2 p k)
    show Scalar.select (IntOp.cmpi .eq (iota .tc S2048x2048 32 [0] iota_S2048x2048_d0_w32 (ix2 p k))
        (iota .tc S2048x2048 32 [1] iota_S2048x2048_d1_w32 (ix2 p k))) (v21 (ix2 p k))
        (Ideal.ofBits .f32 0x00000000#32) = _
    rw [e0, e1, Ideal.ofBits_zero_f32]
    unfold Scalar.select
    by_cases h : p = k
    · rw [if_pos h]; exact if_pos ((eq_word p k).2 h)
    · rw [if_neg h]; exact if_neg (fun h' => h ((eq_word p k).1 h'))
  refine (Finset.sum_congr rfl fun k _ => hterm k).trans ?_
  rw [Finset.sum_ite_eq Finset.univ p (fun k => v21 (ix2 p k)), if_pos (Finset.mem_univ p)]

/-- A row's loss term: its maximum plus the logarithm of its sum, less the positive's similarity. -/
theorem pay4_apply (v52 v53 v56 : Vec Ideal S2048x1 .f32) (p : Fin 2048) (z : Fin 1) :
    k0_pay4 (F := Ideal) v52 v53 v56 (ix2 p z)
      = (v52 (ix2 p z) + Ideal.log (v53 (ix2 p z))) - v56 (ix2 p z) := rfl

/-- The running maximum starts at the word of `-∞`. -/
theorem pay5_apply (p : Fin 2048) (z : Fin 1) :
    k0_pay5 (F := Ideal) (ix2 p z) = Ideal.ofBits .f32 0xFF800000#32 := by
  unfold k0_pay5
  exact congrFun (shapeCast_self _ shapeCasts_S2048x1_S2048x1) (ix2 p z)

/-- The running sum starts at zero. -/
theorem pay6_apply (p : Fin 2048) (z : Fin 1) : k0_pay6 (F := Ideal) (ix2 p z) = 0 := by
  unfold k0_pay6
  exact (congrFun (shapeCast_self _ shapeCasts_S2048x1_S2048x1) (ix2 p z)).trans Ideal.ofBits_zero_f32

/-- The positive's similarity starts at zero. -/
theorem pay7_apply (p : Fin 2048) (z : Fin 1) : k0_pay7 (F := Ideal) (ix2 p z) = 0 := by
  unfold k0_pay7
  exact (congrFun (shapeCast_self _ shapeCasts_S2048x1_S2048x1) (ix2 p z)).trans Ideal.ofBits_zero_f32

/-- The stored running sum is the running sum. -/
theorem pay1_eq (v : FVec Ideal S2048x1 .f32) : k0_pay1 (F := Ideal) v = v := by
  unfold k0_pay1
  exact shapeCast_self v shapeCasts_S2048x1_S2048x1

/-- The stored running maximum is the running maximum. -/
theorem pay2_eq (v : FVec Ideal S2048x1 .f32) : k0_pay2 (F := Ideal) v = v := by
  unfold k0_pay2
  exact shapeCast_self v shapeCasts_S2048x1_S2048x1

end Cert.NtXent.Payloads

end
-- ==== Proof.Consts.lean ====
/-
  The float literals the two programs spell, as the extended reals their bit patterns denote at the ideal instance
  (floats are extended reals; a pattern denotes sign * significand * 2 ^ exponent, an all-ones exponent an infinity
  or, with a non-zero fraction, the junk value ⊥). One lemma per literal, all in one module.
-/
import Idealize.ShloMosaic.PureOps.Ideal

noncomputable section

namespace Cert.NtXent.Consts

open Idealize.ShloMosaic

/-- `+0.0` denotes `0`. -/
theorem ofBits_zero : Ideal.ofBits .f32 0x00000000#32 = 0 := by
  simp [Ideal.ofBits, Ideal.ieee]

/-- `2.0` (the reciprocal of the temperature `1/2`) denotes the real `2`. -/
theorem ofBits_two : Ideal.ofBits .f32 0x40000000#32 = ((2 : ℝ) : EReal) := by
  simp [Ideal.ofBits, Ideal.ieee, -EReal.coe_mul]; norm_num

/-- `0.5` (the temperature) denotes the real `1/2`. -/
theorem ofBits_half : Ideal.ofBits .f32 0x3F000000#32 = ((1 / 2 : ℝ) : EReal) := by
  simp [Ideal.ofBits, Ideal.ieee, -EReal.coe_mul]; norm_num

/-- `8192.0` (the number of rows, the divisor of the mean) denotes the real `8192`. -/
theorem ofBits_8192 : Ideal.ofBits .f32 0x46000000#32 = ((8192 : ℝ) : EReal) := by
  simp [Ideal.ofBits, Ideal.ieee, -EReal.coe_mul]; norm_num

/-- `-inf` (the running maximum's start) denotes `⊥`. -/
theorem ofBits_neg_inf : Ideal.ofBits .f32 0xFF800000#32 = ⊥ := by
  simp [Ideal.ofBits, Ideal.ieee]

/-- `+inf` denotes `⊤`. -/
theorem ofBits_pos_inf : Ideal.ofBits .f32 0x7F800000#32 = ⊤ := by
  simp [Ideal.ofBits, Ideal.ieee]

/-- The quiet NaN pattern denotes the junk value `⊥`. -/
theorem ofBits_nan : Ideal.ofBits .f32 0x7FC00000#32 = ⊥ := by
  simp [Ideal.ofBits, Ideal.ieee]

/-- The fill of the similarity matrix's diagonal: `-10^9`, which single precision holds exactly
    (`10^9 = 15625000 * 2^6` and `15625000 < 2^24`). -/
def negFillR : ℝ := -1000000000

/-- The fill literal denotes `-10^9`. -/
theorem ofBits_negFill : Ideal.ofBits .f32 0xCE6E6B28#32 = ((negFillR : ℝ) : EReal) := by
  unfold negFillR
  simp [Ideal.ofBits, Ideal.ieee, -EReal.coe_mul]; norm_num

end Cert.NtXent.Consts

end
-- ==== Proof.Spec.lean ====
/-
  The NT-Xent loss over the reals, as ONE function of the stacked rows.

  Rows `i, j : Fin 8192` index the two views stacked on top of each other (rows `0 … 4095` the first view, rows
  `4096 … 8191` the second); `zr i k` is entry `k` of row `i`. The similarity of two distinct rows is twice their inner
  product (the inner product divided by the temperature 1/2); a row's similarity with itself is replaced by a fill value
  `nf`. The positive of row `i` is the same sample in the other view, row `i ± 4096`. The loss is the mean over the rows
  of  log-sum-exp of the row's similarities  minus  the similarity with the positive, the log-sum-exp written
  around the row's maximum, as both programs compute it.
-/
import Mathlib

noncomputable section

namespace Cert.NtXent

/-- Two blocks of 4096 rows stacked: rows below 4096 from the first, the others from the second. -/
def stack (a b : Fin 4096 → Fin 256 → ℝ) : Fin 8192 → Fin 256 → ℝ :=
  fun i k => if h : i.val < 4096 then a ⟨i.val, h⟩ k else b ⟨i.val - 4096, by have := i.isLt; omega⟩ k

variable (zr : Fin 8192 → Fin 256 → ℝ) (nf : ℝ)

/-- The inner product of rows `i` and `j`. -/
def gram (i j : Fin 8192) : ℝ := ∑ k : Fin 256, zr i k * zr j k

/-- The similarity matrix with its diagonal filled. -/
def sim (i j : Fin 8192) : ℝ := if i = j then nf else gram zr i j * 2

/-- The largest similarity of row `i`. -/
def rowMax (i : Fin 8192) : ℝ := Finset.univ.sup' Finset.univ_nonempty (sim zr nf i)

/-- The positive of row `i`: the same sample in the other view. -/
def target (i : Fin 8192) : Fin 8192 :=
  if h : i.val < 4096 then ⟨i.val + 4096, by omega⟩ else ⟨i.val - 4096, by have := i.isLt; omega⟩

/-- Row `i`'s term: the log-sum-exp of its similarities, around their maximum, less the similarity with its positive. -/
def rowLoss (i : Fin 8192) : ℝ :=
  rowMax zr nf i + Real.log (∑ j : Fin 8192, Real.exp (sim zr nf i j - rowMax zr nf i)) - sim zr nf i (target i)

/-- The loss: the mean of the rows' terms. -/
def loss : ℝ := (∑ i : Fin 8192, rowLoss zr nf i) / 8192

end Cert.NtXent

end
-- ==== Proof.LibOnlineSoftmax.lean ====
/-
  The online (streaming) softmax on the extended reals.

  A row of real scores x is read tile by tile. A running maximum m starts at -∞ and a running sum l at 0;
  each tile B replaces m by m' = max m (max of x over B) and l by  exp (m - m') * l + ∑_{j ∈ B} exp (x j - m').
  After the tiles seen so far cover the index set A, the pair (m, l) is the maximum of x over A and
  ∑_{j ∈ A} exp (x j - that maximum): this is the invariant Inv below, kept by every step (step), true at the
  start (inv_empty), and at the end it turns  m + log l - x t  into the textbook log-sum-exp around the row's
  maximum, less x t (final). The operations are the extended reals' own +, -, *, max, with the exponential and
  logarithm extended by exp (-∞) = 0 and log of a positive real the real logarithm; at the first tile
  m - m' = -∞, its exponential is 0 and 0 * 0 = 0, so the start needs no special case.
-/
import Mathlib
import Idealize.ShloMosaic.PureOps.Ideal

noncomputable section

namespace Cert.OnlineSoftmax

open Idealize.ShloMosaic

variable {ι : Type*} [DecidableEq ι]

/-! ### Coercion of sums and maxima -/

/-- The inclusion of the reals in the extended reals commutes with finite sums. -/
theorem coe_sum (s : Finset ι) (f : ι → ℝ) :
    ((∑ i ∈ s, f i : ℝ) : EReal) = ∑ i ∈ s, ((f i : ℝ) : EReal) := by
  induction s using Finset.induction_on with
  | empty => simp
  | insert a s ha ih => rw [Finset.sum_insert ha, Finset.sum_insert ha, EReal.coe_add, ih]

/-- The inclusion of the reals in the extended reals commutes with the maximum of two numbers. -/
theorem coe_max (a b : ℝ) : ((max a b : ℝ) : EReal) = max (a : EReal) (b : EReal) :=
  EReal.coe_strictMono.monotone.map_max

/-- A maximum folded from an initial value m is the maximum of m and the fold from -∞. -/
theorem fold_max_init (s : Finset ι) (m : EReal) (f : ι → EReal) :
    s.fold max m f = max m (s.fold max ⊥ f) := by
  induction s using Finset.induction_on with
  | empty => simp
  | insert a s ha ih => rw [Finset.fold_insert ha, Finset.fold_insert ha, ih, max_left_comm]

/-- The maximum of finitely many reals, folded in the extended reals from -∞, is their real maximum. -/
theorem fold_max_coe (s : Finset ι) (hs : s.Nonempty) (x : ι → ℝ) :
    s.fold max (⊥ : EReal) (fun k => ((x k : ℝ) : EReal)) = ((s.sup' hs x : ℝ) : EReal) := by
  induction hs using Finset.Nonempty.cons_induction with
  | singleton a => simp
  | cons a s ha hs ih => rw [Finset.fold_cons, ih, Finset.sup'_cons hs, coe_max]

/-! ### The invariant -/

/-- The state of the online softmax after the index set A: nothing seen yet (m = -∞, l = 0), or m the maximum of x
    over A and l the sum over A of exp (x j - m). -/
def Inv (x : ι → ℝ) (A : Finset ι) (m l : EReal) : Prop :=
  (A = ∅ ∧ m = ⊥ ∧ l = 0) ∨
    ∃ hA : A.Nonempty, m = ((A.sup' hA x : ℝ) : EReal) ∧
      l = ((∑ j ∈ A, Real.exp (x j - A.sup' hA x) : ℝ) : EReal)

/-- The invariant holds at the start: no index seen, running maximum -∞, running sum 0. -/
theorem inv_empty (x : ι → ℝ) : Inv x ∅ ⊥ 0 := Or.inl ⟨rfl, rfl, rfl⟩

/-- Moving the reference point of a sum of exponentials from a to b multiplies it by exp (a - b). -/
theorem rescale_sum (x : ι → ℝ) (A : Finset ι) (a b : ℝ) :
    Real.exp (a - b) * ∑ j ∈ A, Real.exp (x j - a) = ∑ j ∈ A, Real.exp (x j - b) := by
  rw [Finset.mul_sum]
  refine Finset.sum_congr rfl fun j _ => ?_
  rw [← Real.exp_add]
  congr 1
  ring

/-- One tile of the online softmax keeps the invariant: from the state (m, l) after A, a nonempty tile B disjoint
    from A gives the state after A ∪ B, with the new maximum m' = max m (max of x over B, folded from -∞) and the
    new sum l' = exp (m - m') * l + ∑_{j ∈ B} exp (x j - m'). -/
theorem step {x : ι → ℝ} {A B : Finset ι} {m l m' l' : EReal} (h : Inv x A m l) (hd : Disjoint A B)
    (hB : B.Nonempty) (hm' : m' = max m (B.fold max ⊥ (fun j => ((x j : ℝ) : EReal))))
    (hl' : l' = Ideal.exp (m - m') * l + ∑ j ∈ B, Ideal.exp (((x j : ℝ) : EReal) - m')) :
    Inv x (A ∪ B) m' l' := by
  rw [fold_max_coe B hB x] at hm'
  rcases h with ⟨rfl, rfl, rfl⟩ | ⟨hA, rfl, rfl⟩
  · -- the first tile: m - m' = -∞, exp of it is 0, and the old sum is 0
    rw [max_eq_right bot_le] at hm'
    subst hm'
    rw [Finset.empty_union]
    refine Or.inr ⟨hB, rfl, ?_⟩
    rw [hl', mul_zero, zero_add, coe_sum]
    refine Finset.sum_congr rfl fun j _ => ?_
    rw [← EReal.coe_sub, Ideal.exp_coe]
  · have hAB : (A ∪ B).Nonempty := hA.mono Finset.subset_union_left
    have hM : (A ∪ B).sup' hAB x = max (A.sup' hA x) (B.sup' hB x) := Finset.sup'_union hA hB x
    rw [← coe_max, ← hM] at hm'
    subst hm'
    refine Or.inr ⟨hAB, rfl, ?_⟩
    have hB' : ∑ j ∈ B, Ideal.exp (((x j : ℝ) : EReal) - (((A ∪ B).sup' hAB x : ℝ) : EReal)) =
        ((∑ j ∈ B, Real.exp (x j - (A ∪ B).sup' hAB x) : ℝ) : EReal) := by
      rw [coe_sum]
      refine Finset.sum_congr rfl fun j _ => ?_
      rw [← EReal.coe_sub, Ideal.exp_coe]
    rw [hl', hB', ← EReal.coe_sub, Ideal.exp_coe, ← EReal.coe_mul, ← EReal.coe_add, rescale_sum,
      Finset.sum_union hd]

/-- The same step with the tile's maximum folded from the carried maximum m instead of from -∞. -/
theorem step_fold {x : ι → ℝ} {A B : Finset ι} {m l m' l' : EReal} (h : Inv x A m l) (hd : Disjoint A B)
    (hB : B.Nonempty) (hm' : m' = B.fold max m (fun j => ((x j : ℝ) : EReal)))
    (hl' : l' = Ideal.exp (m - m') * l + ∑ j ∈ B, Ideal.exp (((x j : ℝ) : EReal) - m')) :
    Inv x (A ∪ B) m' l' :=
  step h hd hB (hm'.trans (fold_max_init B m _)) hl'

/-- The step for a tile given by its own finite index type κ, embedded in the row's index set by e: the tile's
    maximum and sum are taken over κ, as a tile-local reduction takes them, and the state moves to A ∪ e(κ). -/
theorem step_map {κ : Type*} [Fintype κ] [Nonempty κ] (e : κ ↪ ι) {x : ι → ℝ} {A : Finset ι} {m l m' l' : EReal}
    (h : Inv x A m l) (hd : Disjoint A (Finset.univ.map e))
    (hm' : m' = max m ((Finset.univ : Finset κ).fold max ⊥ (fun k => ((x (e k) : ℝ) : EReal))))
    (hl' : l' = Ideal.exp (m - m') * l + ∑ k : κ, Ideal.exp (((x (e k) : ℝ) : EReal) - m')) :
    Inv x (A ∪ Finset.univ.map e) m' l' := by
  refine step h hd (Finset.univ_nonempty.map) ?_ ?_
  · rw [hm', Finset.fold_map]; rfl
  · rw [hl', Finset.sum_map]

/-! ### The end of the row, and the mean -/

/-- After every index has been seen, m + log l - x t is the log-sum-exp of x around its maximum, less x t: a real. -/
theorem final [Fintype ι] [Nonempty ι] {x : ι → ℝ} {m l : EReal} (h : Inv x Finset.univ m l) (t : ι) :
    (m + Ideal.log l) - ((x t : ℝ) : EReal) =
      ((Finset.univ.sup' Finset.univ_nonempty x
          + Real.log (∑ j, Real.exp (x j - Finset.univ.sup' Finset.univ_nonempty x)) - x t : ℝ) : EReal) := by
  rcases h with ⟨h0, -, -⟩ | ⟨hA, rfl, rfl⟩
  · exact absurd h0 Finset.univ_nonempty.ne_empty
  · have hpos : 0 < ∑ j, Real.exp (x j - Finset.univ.sup' hA x) :=
      Finset.sum_pos (fun j _ => Real.exp_pos _) Finset.univ_nonempty
    rw [Ideal.log_coe, if_neg (not_le.mpr hpos), ← EReal.coe_add, ← EReal.coe_sub]

/-- A sum of reals started from 0 and divided by a nonzero real c, all in the extended reals, is the real quotient. -/
theorem mean_coe (s : Finset ι) (f : ι → ℝ) {c : ℝ} (hc : c ≠ 0) :
    Ideal.div (0 + ∑ i ∈ s, ((f i : ℝ) : EReal)) (c : EReal) = (((∑ i ∈ s, f i) / c : ℝ) : EReal) := by
  rw [zero_add, Ideal.div_coe hc, ← coe_sum, ← EReal.coe_mul, mul_one_div]

end Cert.OnlineSoftmax

end
-- ==== Proof.KernelTiles.lean ====
/-
  The 8192 columns of the similarity matrix as four tiles of 2048, and the positive of a row.

  Tile c holds columns 2048·c … 2048·c + 2047. The columns of the tiles before tile c are those below 2048·c: none
  before the first tile, all of them after the fourth, and tile c is exactly what is added going from c to c + 1. The
  rows split the same way, and the positive of row p of row tile r (the same sample in the other view, 4096 rows away)
  is column p of the mirror tile r ± 2.
-/
import Mathlib
import proofs.«169670_j40578851012794_1_alg».proof.Proof.Spec

noncomputable section

namespace Cert.NtXent.Tiles

/-- Column tile c of the 8192 columns: its 2048 columns in order. -/
def tileEmb (c : ℕ) (hc : c < 4) : Fin 2048 ↪ Fin 8192 :=
  ⟨fun j => ⟨2048 * c + j.val, by have := j.isLt; omega⟩, fun a b h => by
    have := congrArg Fin.val h
    simp only at this
    exact Fin.ext (by omega)⟩

@[simp] theorem tileEmb_val (c : ℕ) (hc : c < 4) (j : Fin 2048) : (tileEmb c hc j).val = 2048 * c + j.val := rfl

/-- The columns of the tiles before tile c. -/
def colsBelow (c : ℕ) : Finset (Fin 8192) := Finset.univ.filter fun j => j.val < 2048 * c

theorem mem_colsBelow (c : ℕ) (j : Fin 8192) : j ∈ colsBelow c ↔ j.val < 2048 * c := by
  simp [colsBelow]

theorem mem_tile (c : ℕ) (hc : c < 4) (j : Fin 8192) :
    j ∈ Finset.univ.map (tileEmb c hc) ↔ 2048 * c ≤ j.val ∧ j.val < 2048 * (c + 1) := by
  rw [Finset.mem_map]
  constructor
  · rintro ⟨k, -, rfl⟩
    have := k.isLt
    rw [tileEmb_val]
    omega
  · rintro ⟨h1, h2⟩
    exact ⟨⟨j.val - 2048 * c, by omega⟩, Finset.mem_univ _, Fin.ext (by rw [tileEmb_val]; simp only; omega)⟩

theorem colsBelow_zero : colsBelow 0 = ∅ := by
  ext j; rw [mem_colsBelow]; simp

theorem colsBelow_succ (c : ℕ) (hc : c < 4) : colsBelow (c + 1) = colsBelow c ∪ Finset.univ.map (tileEmb c hc) := by
  ext j
  rw [Finset.mem_union, mem_colsBelow, mem_colsBelow, mem_tile]
  omega

theorem colsBelow_disjoint (c : ℕ) (hc : c < 4) : Disjoint (colsBelow c) (Finset.univ.map (tileEmb c hc)) := by
  rw [Finset.disjoint_left]
  intro j h1 h2
  rw [mem_colsBelow] at h1
  rw [mem_tile] at h2
  omega

theorem colsBelow_four : colsBelow 4 = Finset.univ := by
  ext j
  rw [mem_colsBelow]
  have := j.isLt
  simp only [Finset.mem_univ, iff_true]
  omega

/-- The mirror of row tile r: the column tile that holds the positives of its rows. -/
def mirror (r : ℕ) : ℕ := if r < 2 then r + 2 else r - 2

/-- The four row tiles and their mirrors. -/
theorem mirror_cases (r : ℕ) (hr : r < 4) :
    (r = 0 ∧ mirror r = 2) ∨ (r = 1 ∧ mirror r = 3) ∨ (r = 2 ∧ mirror r = 0) ∨ (r = 3 ∧ mirror r = 1) := by
  unfold mirror
  rcases (by omega : r = 0 ∨ r = 1 ∨ r = 2 ∨ r = 3) with rfl | rfl | rfl | rfl <;> simp

theorem mirror_lt (r : ℕ) (hr : r < 4) : mirror r < 4 := by
  rcases mirror_cases r hr with ⟨-, h⟩ | ⟨-, h⟩ | ⟨-, h⟩ | ⟨-, h⟩ <;> omega

/-- The positive of row p of row tile r is column p of the mirror tile. -/
theorem target_eq (r : ℕ) (hr : r < 4) (p : Fin 2048) (h1 : 2048 * r + p.val < 8192) (h2 : mirror r < 4) :
    Cert.NtXent.target ⟨2048 * r + p.val, h1⟩ = tileEmb (mirror r) h2 p := by
  have hp := p.isLt
  apply Fin.ext
  rw [tileEmb_val]
  unfold Cert.NtXent.target mirror
  by_cases h : r < 2
  · rw [dif_pos (show (⟨2048 * r + p.val, h1⟩ : Fin 8192).val < 4096 by simp only; omega), if_pos h]
    simp only
    omega
  · rw [dif_neg (show ¬ (⟨2048 * r + p.val, h1⟩ : Fin 8192).val < 4096 by simp only; omega), if_neg h]
    simp only
    omega

end Cert.NtXent.Tiles

end
-- ==== Proof.KernelBlocks.lean ====
/-
  The two input blocks of a grid point, read at an index.

  The grid is 4 × 4 and point t = 4·r + c handles row tile r against column tile c. Both input windows read the one
  stacked matrix of 8192 rows: the first window's block at point t is rows 2048·(t / 4) … of it, the second window's
  rows 2048·(t % 4) …; a block's coordinate is the block's index times the block's extent plus the coordinate inside the
  block, and the index maps are decided once over the sixteen points.
-/
import proofs.«169670_j40578851012794_1_alg».proof.Proof.ProofData
import proofs.«169670_j40578851012794_1_alg».proof.Proof.KernelTiles
import Idealize.ShloMosaic.Lib.ValueIdx

set_option maxRecDepth 16384

noncomputable section

namespace Cert.NtXent.KernelBlocks

open Cert.KernelIdeal Cert.KernelIdeal.Gen Cert.KernelIdeal.Entry Cert.KernelIdeal.Body
open Idealize.ShloMosaic Idealize.ShloMosaic.ValueIdx Cert.NtXent.Tiles

/-- The two windows' block indices and the grid coordinates at point t: row tile t / 4, column tile t % 4. -/
theorem idx_facts : ∀ t : Fin cfg0.N, win0_0.index t (0 : Fin 2) = t.val / 4 ∧ win0_0.index t (1 : Fin 2) = 0
    ∧ win0_1.index t (0 : Fin 2) = t.val % 4 ∧ win0_1.index t (1 : Fin 2) = 0
    ∧ ((grid0.coords t) 0).val = t.val / 4 ∧ ((grid0.coords t) 1).val = t.val % 4 :=
  (by decide +kernel : ∀ t : Fin grid0.N, _)

/-- A grid point is below 16. -/
theorem t_lt (t : Fin cfg0.N) : t.val < 16 := lt_of_lt_of_eq t.isLt (show cfg0.N = 16 from N_0)

/-- The grid coordinates of point t. -/
theorem coord0 (t : Fin cfg0.N) : ((grid0.coords t) 0).val = t.val / 4 := (idx_facts t).2.2.2.2.1
theorem coord1 (t : Fin cfg0.N) : ((grid0.coords t) 1).val = t.val % 4 := (idx_facts t).2.2.2.2.2

variable (m : (ℓ : Loc nD τ sig) → Buf (Elt Ideal) ℓ) (c : Dev nD)

/-- The first window's block at a point of row tile r is rows 2048·r … of the stacked matrix. -/
theorem iblk0_apply (t : Fin cfg0.N) (r : ℕ) (hr : r < 4) (ht : t.val / 4 = r) (p : Fin 2048) (d : Fin 256) :
    iblk m c 0 t (ix2 p d) = V m c main_v1 (ix2 (tileEmb r hr p) d) := by
  obtain ⟨e0, e1, e2, e3, e4, e5⟩ := idx_facts t
  show V m c main_v1 (((cfg0.win 0).blk t).view.emb (ix2 p d)) = V m c main_v1 _
  refine congrArg (V m c main_v1) ?_
  funext a; apply Fin.ext
  match a with
  | ⟨0, _⟩ => show win0_0.index t (0 : Fin 2) * 2048 + 1 * p.val = 2048 * r + p.val; omega
  | ⟨1, _⟩ => show win0_0.index t (1 : Fin 2) * 256 + 1 * d.val = d.val; omega

/-- The second window's block at a point of column tile cc is rows 2048·cc … of the stacked matrix. -/
theorem iblk1_apply (t : Fin cfg0.N) (cc : ℕ) (hc : cc < 4) (ht : t.val % 4 = cc) (j : Fin 2048) (d : Fin 256) :
    iblk m c 1 t (ix2 j d) = V m c main_v1 (ix2 (tileEmb cc hc j) d) := by
  obtain ⟨e0, e1, e2, e3, e4, e5⟩ := idx_facts t
  show V m c main_v1 (((cfg0.win 1).blk t).view.emb (ix2 j d)) = V m c main_v1 _
  refine congrArg (V m c main_v1) ?_
  funext a; apply Fin.ext
  match a with
  | ⟨0, _⟩ => show win0_1.index t (0 : Fin 2) * 2048 + 1 * j.val = 2048 * cc + j.val; omega
  | ⟨1, _⟩ => show win0_1.index t (1 : Fin 2) * 256 + 1 * d.val = d.val; omega

end Cert.NtXent.KernelBlocks

end
-- ==== Proof.KernelRows.lean ====
/-
  A row of the kernel's output is the specification's row term.

  Fix a row tile r and a row p of it, global row R = 2048·r + p, and write x for row R of the filled similarity matrix.
  At the point of row tile r and column tile c the similarity tile's row p is x on the columns of tile c. So along the
  four points of the row tile the running maximum and the running sum at row p follow the online softmax of x over the
  column tiles: they start from (-∞, 0) at the first tile and after tile c they are the maximum of x over the columns
  below 2048·(c + 1) and the sum of exp (x j - that maximum) over them. The positive's similarity is read off the
  diagonal of the mirror tile, x at the positive of R, and carried from there to the last tile. At the last tile the
  result is  maximum + log sum - positive, the specification's row term.
-/
import proofs.«169670_j40578851012794_1_alg».proof.Proof.ProofData
import proofs.«169670_j40578851012794_1_alg».proof.Proof.Payloads
import proofs.«169670_j40578851012794_1_alg».proof.Proof.Consts
import proofs.«169670_j40578851012794_1_alg».proof.Proof.Spec
import proofs.«169670_j40578851012794_1_alg».proof.Proof.LibOnlineSoftmax
import proofs.«169670_j40578851012794_1_alg».proof.Proof.KernelTiles
import proofs.«169670_j40578851012794_1_alg».proof.Proof.KernelBlocks

set_option maxRecDepth 16384

noncomputable section

namespace Cert.NtXent.KernelRows

open Cert.KernelIdeal Cert.KernelIdeal.Gen Cert.KernelIdeal.Entry Cert.KernelIdeal.Body
open Idealize.ShloMosaic Idealize.ShloMosaic.ValueIdx
open Cert.NtXent.Tiles Cert.NtXent.Consts Cert.NtXent.Payloads Cert.NtXent.KernelBlocks

variable (zr : Fin 8192 → Fin 256 → ℝ)

/-! ## One point, on vectors -/

/-- The similarity tile of row tile r against column tile cc, at (p, j), is the filled similarity of global row
    2048·r + p and global column 2048·cc + j. -/
theorem pay8_sim (i : grid0.Coords) (x0 x1 : Vec Ideal S2048x256 .bf16) (r cc : ℕ) (hr : r < 4) (hc : cc < 4)
    (hi0 : (i 0).val = r) (hi1 : (i 1).val = cc) (p : Fin 2048)
    (hx0 : ∀ d : Fin 256, x0 (ix2 p d) = ((zr (tileEmb r hr p) d : ℝ) : EReal))
    (hx1 : ∀ (j : Fin 2048) (d : Fin 256), x1 (ix2 j d) = ((zr (tileEmb cc hc j) d : ℝ) : EReal)) (j : Fin 2048) :
    k0_pay8 (F := Ideal) i x0 x1 (ix2 p j)
      = ((Cert.NtXent.sim zr negFillR (tileEmb r hr p) (tileEmb cc hc j) : ℝ) : EReal) := by
  rw [pay8_apply, hi0, hi1, ofBits_negFill, ofBits_two]
  unfold Cert.NtXent.sim
  by_cases h : 2048 * r + p.val = 2048 * cc + j.val
  · have h' : tileEmb r hr p = tileEmb cc hc j := Fin.ext h
    rw [if_pos h, if_pos h']
  · have h' : tileEmb r hr p ≠ tileEmb cc hc j := fun e => h (congrArg Fin.val e)
    rw [if_neg h, if_neg h']
    unfold Cert.NtXent.gram
    rw [EReal.coe_mul, Cert.OnlineSoftmax.coe_sum]
    congr 1
    refine Finset.sum_congr rfl fun d _ => ?_
    rw [hx0, hx1, EReal.coe_mul]

/-- One point's step on the running maximum and sum at row p, from the columns A to A with tile cc added. -/
theorem cols_step (i : grid0.Coords) (x0 x1 : Vec Ideal S2048x256 .bf16) (v22 v31 : Vec Ideal S2048x1 .f32)
    (r cc : ℕ) (hr : r < 4) (hc : cc < 4) (hi0 : (i 0).val = r) (hi1 : (i 1).val = cc) (p : Fin 2048)
    (hx0 : ∀ d : Fin 256, x0 (ix2 p d) = ((zr (tileEmb r hr p) d : ℝ) : EReal))
    (hx1 : ∀ (j : Fin 2048) (d : Fin 256), x1 (ix2 j d) = ((zr (tileEmb cc hc j) d : ℝ) : EReal))
    (A : Finset (Fin 8192))
    (hInv : Cert.OnlineSoftmax.Inv (Cert.NtXent.sim zr negFillR (tileEmb r hr p)) A (v22 (ix2 p 0)) (v31 (ix2 p 0)))
    (hd : Disjoint A (Finset.univ.map (tileEmb cc hc))) :
    Cert.OnlineSoftmax.Inv (Cert.NtXent.sim zr negFillR (tileEmb r hr p)) (A ∪ Finset.univ.map (tileEmb cc hc))
      (k0_pay9 (F := Ideal) i x0 x1 v22 (ix2 p 0)) (k0_pay10 (F := Ideal) i x0 x1 v22 v31 (ix2 p 0)) := by
  have h8 := pay8_sim zr i x0 x1 r cc hr hc hi0 hi1 p hx0 hx1
  refine Cert.OnlineSoftmax.step_map (tileEmb cc hc) hInv hd ?_ ?_
  · rw [pay9_apply, ofBits_neg_inf]
    refine congrArg (max (v22 (ix2 p 0))) ?_
    refine congrArg (Finset.fold max ⊥ · Finset.univ) ?_
    funext j
    exact h8 j
  · rw [pay10_apply]
    congr 1
    refine Finset.sum_congr rfl fun j _ => ?_
    rw [h8 j]

/-- The stored running maximum and sum are the running maximum and sum. -/
theorem mOut_eq (i : grid0.Coords) (x0 x1 : Vec Ideal S2048x256 .bf16) (ym : Vec Ideal S2048x1 .f32) :
    mOut (F := Ideal) i x0 x1 ym = k0_pay9 (F := Ideal) i x0 x1 (mIn i ym) := by
  unfold mOut; exact pay2_eq _
theorem lOut_eq (i : grid0.Coords) (x0 x1 : Vec Ideal S2048x256 .bf16) (ym yl : Vec Ideal S2048x1 .f32) :
    lOut (F := Ideal) i x0 x1 ym yl = k0_pay10 (F := Ideal) i x0 x1 (mIn i ym) (lIn i yl) := by
  unfold lOut; exact pay1_eq _

/-- The running columns start from (-∞, 0) at the first column tile: the online softmax before any column. -/
theorem reset_inv (i : grid0.Coords) (h0 : cond0 i) (ym yl : Vec Ideal S2048x1 .f32) (x : Fin 8192 → ℝ) (p : Fin 2048) :
    Cert.OnlineSoftmax.Inv x (colsBelow 0) (mIn (F := Ideal) i ym (ix2 p 0)) (lIn (F := Ideal) i yl (ix2 p 0)) := by
  unfold mIn lIn
  rw [if_pos h0, if_pos h0, pay5_apply, pay6_apply, ofBits_neg_inf, colsBelow_zero]
  exact Cert.OnlineSoftmax.inv_empty x

/-- Away from the first column tile a point starts from the columns it finds. -/
theorem mIn_keep (i : grid0.Coords) (h0 : ¬cond0 i) (ym : Vec Ideal S2048x1 .f32) : mIn (F := Ideal) i ym = ym := by
  unfold mIn; exact if_neg h0
theorem lIn_keep (i : grid0.Coords) (h0 : ¬cond0 i) (yl : Vec Ideal S2048x1 .f32) : lIn (F := Ideal) i yl = yl := by
  unfold lIn; exact if_neg h0

/-- The positive of row p of row tile r is column p of the mirror tile. -/
theorem target_tile (r : ℕ) (hr : r < 4) (p : Fin 2048) :
    Cert.NtXent.target (tileEmb r hr p) = tileEmb (mirror r) (mirror_lt r hr) p :=
  target_eq r hr p _ _

/-! ## The points of a row tile -/

variable (m : (ℓ : Loc nD τ sig) → Buf (Elt Ideal) ℓ) (c : Dev nD)

/-- The columns after point t are one step from the columns before it. -/
theorem S_at (t : Fin cfg0.N) :
    S m c t.val = (mOut (grid0.coords t) (iblk m c 0 t) (iblk m c 1 t) (Sprev m c t.val).1,
      lOut (grid0.coords t) (iblk m c 0 t) (iblk m c 1 t) (Sprev m c t.val).1 (Sprev m c t.val).2.1,
      pOut (grid0.coords t) (iblk m c 0 t) (iblk m c 1 t) (Sprev m c t.val).2.2) := by
  have h := S_eq m c t.val
  rwa [pt_val] at h

/-- The result column at point t, from the columns after it. -/
theorem outAt_eq (t : Fin cfg0.N) (p : Fin 2048) :
    outAt m c t (ix2 p 0) = ((S m c t.val).1 (ix2 p 0) + Ideal.log ((S m c t.val).2.1 (ix2 p 0)))
      - (S m c t.val).2.2 (ix2 p 0) := by
  rw [S_at m c t]; rfl

/-- The point of row tile r and column tile cc takes the online softmax of row p over the columns below tile cc to
    the one over the columns below tile cc + 1. -/
theorem point_cols (hz : ∀ (i : Fin 8192) (k : Fin 256), V m c main_v1 (ix2 i k) = ((zr i k : ℝ) : EReal))
    (t : Fin cfg0.N) (r cc : ℕ) (hr : r < 4) (hc : cc < 4) (ht : t.val = 4 * r + cc) (p : Fin 2048)
    (hprev : Cert.OnlineSoftmax.Inv (Cert.NtXent.sim zr negFillR (tileEmb r hr p)) (colsBelow cc)
      (mIn (F := Ideal) (grid0.coords t) (Sprev m c t.val).1 (ix2 p 0))
      (lIn (F := Ideal) (grid0.coords t) (Sprev m c t.val).2.1 (ix2 p 0))) :
    Cert.OnlineSoftmax.Inv (Cert.NtXent.sim zr negFillR (tileEmb r hr p)) (colsBelow (cc + 1))
      ((S m c t.val).1 (ix2 p 0)) ((S m c t.val).2.1 (ix2 p 0)) := by
  have e1 := mOut_eq (grid0.coords t) (iblk m c 0 t) (iblk m c 1 t) (Sprev m c t.val).1
  have e2 := lOut_eq (grid0.coords t) (iblk m c 0 t) (iblk m c 1 t) (Sprev m c t.val).1 (Sprev m c t.val).2.1
  have key := cols_step zr (grid0.coords t) (iblk m c 0 t) (iblk m c 1 t)
    (mIn (F := Ideal) (grid0.coords t) (Sprev m c t.val).1) (lIn (F := Ideal) (grid0.coords t) (Sprev m c t.val).2.1)
    r cc hr hc ((coord0 t).trans (by omega)) ((coord1 t).trans (by omega)) p
    (fun d => (iblk0_apply m c t r hr (by omega) p d).trans (hz _ _))
    (fun j d => (iblk1_apply m c t cc hc (by omega) j d).trans (hz _ _))
    (colsBelow cc) hprev (colsBelow_disjoint cc hc)
  rw [S_at m c t, colsBelow_succ cc hc]
  show Cert.OnlineSoftmax.Inv _ _
    (mOut (F := Ideal) (grid0.coords t) (iblk m c 0 t) (iblk m c 1 t) (Sprev m c t.val).1 (ix2 p 0))
    (lOut (F := Ideal) (grid0.coords t) (iblk m c 0 t) (iblk m c 1 t) (Sprev m c t.val).1 (Sprev m c t.val).2.1 (ix2 p 0))
  rw [e1, e2]
  exact key

/-- After the point of row tile r and column tile cc, the running maximum and sum at row p are the online softmax
    of the row over the columns below tile cc + 1. -/
theorem cols_inv (hz : ∀ (i : Fin 8192) (k : Fin 256), V m c main_v1 (ix2 i k) = ((zr i k : ℝ) : EReal))
    (r : ℕ) (hr : r < 4) (p : Fin 2048) : ∀ (cc : ℕ) (_ : cc < 4),
    Cert.OnlineSoftmax.Inv (Cert.NtXent.sim zr negFillR (tileEmb r hr p)) (colsBelow (cc + 1))
      ((S m c (4 * r + cc)).1 (ix2 p 0)) ((S m c (4 * r + cc)).2.1 (ix2 p 0)) := by
  intro cc
  induction cc with
  | zero =>
    intro hc
    have hN : 4 * r + 0 < cfg0.N := by rw [show cfg0.N = 16 from N_0]; omega
    have h0 : cond0 (grid0.coords (⟨4 * r + 0, hN⟩ : Fin cfg0.N)) :=
      (hcond0 ⟨4 * r + 0, hN⟩).2 (by show (4 * r + 0) % 4 = 0; omega)
    exact point_cols zr m c hz ⟨4 * r + 0, hN⟩ r 0 hr hc rfl p (reset_inv _ h0 _ _ _ p)
  | succ cc ih =>
    intro hc
    have hN : 4 * r + (cc + 1) < cfg0.N := by rw [show cfg0.N = 16 from N_0]; omega
    have h0 : ¬cond0 (grid0.coords (⟨4 * r + (cc + 1), hN⟩ : Fin cfg0.N)) := fun h => by
      have h' : (4 * r + (cc + 1)) % 4 = 0 := (hcond0 ⟨4 * r + (cc + 1), hN⟩).1 h
      omega
    refine point_cols zr m c hz ⟨4 * r + (cc + 1), hN⟩ r (cc + 1) hr hc rfl p ?_
    rw [mIn_keep _ h0, lIn_keep _ h0]
    exact ih (by omega)

/-- At the mirror tile the positive's similarity at row p is the row's similarity with its positive. -/
theorem point_pos_hit (hz : ∀ (i : Fin 8192) (k : Fin 256), V m c main_v1 (ix2 i k) = ((zr i k : ℝ) : EReal))
    (t : Fin cfg0.N) (r : ℕ) (hr : r < 4) (ht4 : t.val / 4 = r) (hmir : t.val % 4 = mirror r)
    (h1 : cond1 (grid0.coords t)) (p : Fin 2048) :
    (S m c t.val).2.2 (ix2 p 0)
      = ((Cert.NtXent.sim zr negFillR (tileEmb r hr p) (Cert.NtXent.target (tileEmb r hr p)) : ℝ) : EReal) := by
  have h8 := pay8_sim zr (grid0.coords t) (iblk m c 0 t) (iblk m c 1 t) r (mirror r) hr (mirror_lt r hr)
    ((coord0 t).trans ht4) ((coord1 t).trans hmir) p
    (fun d => (iblk0_apply m c t r hr ht4 p d).trans (hz _ _))
    (fun j d => (iblk1_apply m c t (mirror r) (mirror_lt r hr) hmir j d).trans (hz _ _)) p
  rw [S_at m c t, target_tile r hr p]
  show pOut (F := Ideal) (grid0.coords t) (iblk m c 0 t) (iblk m c 1 t) (Sprev m c t.val).2.2 (ix2 p 0) = _
  unfold pOut
  rw [if_pos h1]
  exact (pay3_apply _ p 0).trans h8

/-- Away from the first tile and the mirror tile the positive's similarity is carried. -/
theorem point_pos_keep (t : Fin cfg0.N) (h0 : ¬cond0 (grid0.coords t)) (h1 : ¬cond1 (grid0.coords t)) (p : Fin 2048) :
    (S m c t.val).2.2 (ix2 p 0) = (Sprev m c t.val).2.2 (ix2 p 0) := by
  rw [S_at m c t]
  show pOut (F := Ideal) (grid0.coords t) (iblk m c 0 t) (iblk m c 1 t) (Sprev m c t.val).2.2 (ix2 p 0) = _
  unfold pOut pIn
  rw [if_neg h1, if_neg h0]

/-- From the mirror tile on, the positive's similarity at row p is the row's similarity with its positive. -/
theorem pos_inv (hz : ∀ (i : Fin 8192) (k : Fin 256), V m c main_v1 (ix2 i k) = ((zr i k : ℝ) : EReal))
    (r : ℕ) (hr : r < 4) (p : Fin 2048) : ∀ (cc : ℕ) (_ : cc < 4), mirror r ≤ cc →
    (S m c (4 * r + cc)).2.2 (ix2 p 0)
      = ((Cert.NtXent.sim zr negFillR (tileEmb r hr p) (Cert.NtXent.target (tileEmb r hr p)) : ℝ) : EReal) := by
  intro cc
  induction cc with
  | zero =>
    intro hc hm
    have hN : 4 * r + 0 < cfg0.N := by rw [show cfg0.N = 16 from N_0]; omega
    have hmc := mirror_cases r hr
    have h1 : cond1 (grid0.coords (⟨4 * r + 0, hN⟩ : Fin cfg0.N)) :=
      (hcond1 ⟨4 * r + 0, hN⟩).2 (by
        show 4 * r + 0 = 2 ∨ 4 * r + 0 = 7 ∨ 4 * r + 0 = 8 ∨ 4 * r + 0 = 13
        omega)
    exact point_pos_hit zr m c hz ⟨4 * r + 0, hN⟩ r hr (by show (4 * r + 0) / 4 = r; omega)
      (by show (4 * r + 0) % 4 = mirror r; omega) h1 p
  | succ cc ih =>
    intro hc hm
    have hN : 4 * r + (cc + 1) < cfg0.N := by rw [show cfg0.N = 16 from N_0]; omega
    have hmc := mirror_cases r hr
    by_cases hmir : mirror r = cc + 1
    · have h1 : cond1 (grid0.coords (⟨4 * r + (cc + 1), hN⟩ : Fin cfg0.N)) :=
        (hcond1 ⟨4 * r + (cc + 1), hN⟩).2 (by
          show 4 * r + (cc + 1) = 2 ∨ 4 * r + (cc + 1) = 7 ∨ 4 * r + (cc + 1) = 8 ∨ 4 * r + (cc + 1) = 13
          omega)
      exact point_pos_hit zr m c hz ⟨4 * r + (cc + 1), hN⟩ r hr (by show (4 * r + (cc + 1)) / 4 = r; omega)
        (by show (4 * r + (cc + 1)) % 4 = mirror r; omega) h1 p
    · have h0 : ¬cond0 (grid0.coords (⟨4 * r + (cc + 1), hN⟩ : Fin cfg0.N)) := fun h => by
        have h' : (4 * r + (cc + 1)) % 4 = 0 := (hcond0 ⟨4 * r + (cc + 1), hN⟩).1 h
        omega
      have h1 : ¬cond1 (grid0.coords (⟨4 * r + (cc + 1), hN⟩ : Fin cfg0.N)) := fun h => by
        have h' : 4 * r + (cc + 1) = 2 ∨ 4 * r + (cc + 1) = 7 ∨ 4 * r + (cc + 1) = 8 ∨ 4 * r + (cc + 1) = 13 :=
          (hcond1 ⟨4 * r + (cc + 1), hN⟩).1 h
        omega
      refine (point_pos_keep m c ⟨4 * r + (cc + 1), hN⟩ h0 h1 p).trans ?_
      exact ih (by omega) (by omega)

/-! ## The row -/

/-- Row p of the result column at the last point of row tile r is the specification's term of global row
    2048·r + p. -/
theorem out_row (hz : ∀ (i : Fin 8192) (k : Fin 256), V m c main_v1 (ix2 i k) = ((zr i k : ℝ) : EReal))
    (r : Fin 4) (p : Fin 2048) :
    outAt m c (⟨4 * r.val + 3, by rw [show cfg0.N = 16 from N_0]; have := r.isLt; omega⟩ : Fin cfg0.N)
        (ix2 p (0 : Fin 1))
      = ((Cert.NtXent.rowLoss zr negFillR
          (⟨2048 * r.val + p.val, by have := r.isLt; have := p.isLt; omega⟩ : Fin 8192) : ℝ) : EReal) := by
  have hr := r.isLt
  have hcols := cols_inv zr m c hz r.val hr p 3 (by omega)
  have hpos := pos_inv zr m c hz r.val hr p 3 (by omega) (by have := mirror_lt r.val hr; omega)
  rw [show (3 : ℕ) + 1 = 4 from rfl, colsBelow_four] at hcols
  have hfin := Cert.OnlineSoftmax.final hcols (Cert.NtXent.target (tileEmb r.val hr p))
  refine (outAt_eq m c _ p).trans ?_
  show ((S m c (4 * r.val + 3)).1 (ix2 p 0) + Ideal.log ((S m c (4 * r.val + 3)).2.1 (ix2 p 0)))
      - (S m c (4 * r.val + 3)).2.2 (ix2 p 0) = _
  rw [hpos]
  exact hfin

end Cert.NtXent.KernelRows

end
-- ==== Proof.LibStackRows.lean ====
/-
  Two matrices joined along the rows, read at an index (program-independent; imports only the library).

  A `[p, q]` matrix on top of a `[p', q]` matrix is the `[p + p', q]` matrix whose row `i` is row `i` of the
  first for `i < p` and row `i - p` of the second otherwise; the column is kept. The joined extent is given as its
  own number `n`: that `n = p + p'` is part of what it means for the two shapes to concatenate into the third.
-/
import Idealize.ShloMosaic.Lib.ValueIdx
import Idealize.ShloMosaic.Lib.Pipeline.Value

noncomputable section

namespace Cert.StackRows

open Idealize.ShloMosaic Idealize.ShloMosaic.ValueIdx

variable {α : Type}

/-- Shapes `[p, q]` and `[p', q]` concatenate along the rows into `[n, q]` only if `n = p + p'`. -/
theorem rows_extent {p p' q n : ℕ}
    (h : Shape.Concatenates [(⟨2, ![p, q]⟩ : Shape), ⟨2, ![p', q]⟩] ⟨2, ![n, q]⟩ 0) : n = p + p' := by
  have e : p + (p' + 0) = n := h.2.2
  omega

/-- A row of the joined matrix at or past the first matrix's rows is, the first extent less, a row of the second. -/
theorem sub_lt_of_rows {p p' q n : ℕ}
    (h : Shape.Concatenates [(⟨2, ![p, q]⟩ : Shape), ⟨2, ![p', q]⟩] ⟨2, ![n, q]⟩ 0) (i : Fin n)
    (hi : ¬ i.val < p) : i.val - p < p' := by
  have := rows_extent h; have := i.isLt; omega

/-- The joined matrix at a row of the first matrix. -/
theorem concatenate_rows_apply_top {p p' q n : ℕ} (a : (⟨2, ![p, q]⟩ : Shape).Idx → α)
    (b : (⟨2, ![p', q]⟩ : Shape).Idx → α)
    (h : Shape.Concatenates [(⟨2, ![p, q]⟩ : Shape), ⟨2, ![p', q]⟩] ⟨2, ![n, q]⟩ 0) (i : Fin n) (k : Fin q)
    (hi : i.val < p) :
    concatenate ⟨2, ![n, q]⟩ 0 [⟨⟨2, ![p, q]⟩, a⟩, ⟨⟨2, ![p', q]⟩, b⟩] h (ix2 i k) = a (ix2 ⟨i.val, hi⟩ k) :=
  concatenate_pair_apply_left (0 : Fin 2) a b h (ix2 i k) rfl (ix2 ⟨i.val, hi⟩ k) (fun c => match c with
    | ⟨0, _⟩ => rfl
    | ⟨1, _⟩ => rfl)

/-- The joined matrix at a row past the first matrix's rows. -/
theorem concatenate_rows_apply_bottom {p p' q n : ℕ} (a : (⟨2, ![p, q]⟩ : Shape).Idx → α)
    (b : (⟨2, ![p', q]⟩ : Shape).Idx → α)
    (h : Shape.Concatenates [(⟨2, ![p, q]⟩ : Shape), ⟨2, ![p', q]⟩] ⟨2, ![n, q]⟩ 0) (i : Fin n) (k : Fin q)
    (hi : ¬ i.val < p) :
    concatenate ⟨2, ![n, q]⟩ 0 [⟨⟨2, ![p, q]⟩, a⟩, ⟨⟨2, ![p', q]⟩, b⟩] h (ix2 i k)
      = b (ix2 ⟨i.val - p, sub_lt_of_rows h i hi⟩ k) :=
  concatenate_pair_apply_right (0 : Fin 2) a b h (ix2 i k) rfl rfl (ix2 ⟨i.val - p, sub_lt_of_rows h i hi⟩ k)
    (fun c hc => match c, hc with
      | ⟨0, _⟩, hc => absurd rfl hc
      | ⟨1, _⟩, _ => rfl)
    (by
      show i.val - p + p = i.val
      omega)

/-- The joined matrix at any index: the first matrix's row below its extent, the second's otherwise. -/
theorem concatenate_rows_apply {p p' q n : ℕ} (a : (⟨2, ![p, q]⟩ : Shape).Idx → α)
    (b : (⟨2, ![p', q]⟩ : Shape).Idx → α)
    (h : Shape.Concatenates [(⟨2, ![p, q]⟩ : Shape), ⟨2, ![p', q]⟩] ⟨2, ![n, q]⟩ 0) (i : Fin n) (k : Fin q) :
    concatenate ⟨2, ![n, q]⟩ 0 [⟨⟨2, ![p, q]⟩, a⟩, ⟨⟨2, ![p', q]⟩, b⟩] h (ix2 i k)
      = if hi : i.val < p then a (ix2 ⟨i.val, hi⟩ k) else b (ix2 ⟨i.val - p, sub_lt_of_rows h i hi⟩ k) := by
  by_cases hi : i.val < p
  · rw [dif_pos hi]; exact concatenate_rows_apply_top a b h i k hi
  · rw [dif_neg hi]; exact concatenate_rows_apply_bottom a b h i k hi

end Cert.StackRows

end
-- ==== Proof.EntryValue.lean ====
/-
  What the kernel region finds in its buffers.

  Before the region two host operations run: the two views are stacked along the rows into one `[8192, 256]` matrix,
  and that matrix is converted to the narrower float format. The argument buffers are untouched, and the converted
  matrix is that term of the arguments. At the ideal values a format conversion is the identity, so, when the two
  arguments are the images of real matrices `a` and `b`, entry `(i, k)` of the matrix the region reads is the image
  of entry `(i, k)` of the real stack of `a` on `b`.
-/
import proofs.«169670_j40578851012794_1_alg».proof.Proof.EntryContents
import proofs.«169670_j40578851012794_1_alg».proof.Proof.LibStackRows
import proofs.«169670_j40578851012794_1_alg».proof.Proof.Spec
import Idealize.ShloMosaic.Lib.ValueIdx
import Idealize.ShloMosaic.Lib.Pipeline.Value

set_option maxRecDepth 16384

noncomputable section

namespace Cert.NtXent.EntryValue

open Cert.KernelIdeal Cert.KernelIdeal.Gen Cert.KernelIdeal.Entry
open Idealize.ShloMosaic Idealize.ShloMosaic.TcCoe Idealize.SL.Sem Idealize.ShloMosaic.ValueIdx
open Idealize.ShloMosaic.Tactic

section Generic
variable {F : FTy → Type} [FloatOps F]
variable (m : (ℓ : Loc nD τ sig) → Buf (Elt F) ℓ) (c : Dev nD)

/-- The first argument is as launched. -/
theorem V_arg0 : V m c main_arg0 = m ((c.tc : Thread nD τ).loc main_arg0) := by
  show StableHlo.after hostOps0 (fun b => m (c, b)) (Proc.devRef .tc main_arg0) = _
  after_results

/-- The second argument is as launched. -/
theorem V_arg1 : V m c main_arg1 = m ((c.tc : Thread nD τ).loc main_arg1) := by
  show StableHlo.after hostOps0 (fun b => m (c, b)) (Proc.devRef .tc main_arg1) = _
  after_results

/-- The matrix the region reads: the arguments stacked along the rows, converted to the narrower format. -/
theorem V_v1 : (V m c main_v1 : S8192x256.Idx → F .bf16) =
    truncf .bf16 (concatenate S8192x256 0
      [⟨S4096x256, m ((c.tc : Thread nD τ).loc main_arg0)⟩, ⟨S4096x256, m ((c.tc : Thread nD τ).loc main_arg1)⟩]
      Facts₀.concatenates_S4096x256_S4096x256_S8192x256_d0) Facts₀.bitsLt_bf16_f32 := by
  show StableHlo.after hostOps0 (fun b => m (c, b)) (Proc.devRef .tc main_v1) = _
  after_results

end Generic

section AtIdeal
variable (m : (ℓ : Loc nD τ sig) → Buf (Elt Ideal) ℓ) (c : Dev nD)

/-- At the ideal values, over real arguments, the matrix the region reads is the real stack, entry by entry. -/
theorem V_v1_apply (a b : Fin 4096 → Fin 256 → ℝ)
    (ha : ∀ i k, m ((c.tc : Thread nD τ).loc main_arg0) (ix2 i k) = ((a i k : ℝ) : EReal))
    (hb : ∀ i k, m ((c.tc : Thread nD τ).loc main_arg1) (ix2 i k) = ((b i k : ℝ) : EReal))
    (i : Fin 8192) (k : Fin 256) :
    V m c main_v1 (ix2 i k) = ((Cert.NtXent.stack a b i k : ℝ) : EReal) := by
  rw [V_v1 m c, truncf_apply, Cert.StackRows.concatenate_rows_apply]
  unfold Cert.NtXent.stack
  by_cases hi : i.val < 4096
  · rw [dif_pos hi, dif_pos hi]; exact ha _ k
  · rw [dif_neg hi, dif_neg hi]; exact hb _ k

end AtIdeal

end Cert.NtXent.EntryValue

end
-- ==== Proof.TailValue.lean ====
/-
  The host operations after the region, at the ideal values: the mean of the rows' terms.

  The region leaves one column of 8192 entries. The host sums it over both axes from the constant 0 and divides the
  sum by the constant 8192. At the ideal values the sum is the exact sum over the column's index set, which is the
  sum over its 8192 rows (the second axis has the one coordinate 0); the sum of images of reals is the image of the
  real sum, and its quotient by the nonzero real 8192 is the image of the real quotient.
-/
import proofs.«169670_j40578851012794_1_alg».proof.KernelIdeal
import proofs.«169670_j40578851012794_1_alg».proof.Proof.Consts
import proofs.«169670_j40578851012794_1_alg».proof.Proof.LibOnlineSoftmax
import Idealize.ShloMosaic.Lib.ValueIdx
import Idealize.ShloMosaic.Lib.IdealHost
import Idealize.ShloMosaic.PureOps.Ideal.Laws

noncomputable section

namespace Cert.NtXent.TailValue

open Cert.KernelIdeal
open Idealize.ShloMosaic Idealize.ShloMosaic.ValueIdx

/-- The mean of a real column, as the host computes it at the ideal values. -/
theorem mean_value (X : FVec Ideal S8192x1 .f32) (f : Fin 8192 → ℝ)
    (hX : ∀ i : Fin 8192, X (ix2 i (0 : Fin 1)) = ((f i : ℝ) : EReal))
    (hred : S8192x1.ReducesTo [0, 1] S_) (hS : 0 < S_.numel) :
    Host.divf (F := Ideal)
        (Host.reduceAdd (F := Ideal) X (constant (F := Ideal) S_ .f32 0x00000000#32) hred hS)
        (constant (F := Ideal) S_ .f32 0x46000000#32)
      = fun _ => (((∑ i, f i) / 8192 : ℝ) : EReal) := by
  funext j
  rw [hostDivf_apply, hostReduceAdd_apply, Ideal.hostReduceAdd_total hred (fun b => b.elim0), constant_apply,
    constant_apply, Cert.NtXent.Consts.ofBits_zero, Cert.NtXent.Consts.ofBits_8192, sum_idx2]
  simp only [Fin.sum_univ_one, hX]
  exact Cert.OnlineSoftmax.mean_coe Finset.univ f (by norm_num)

end Cert.NtXent.TailValue

end
-- ==== Proof.KernelValue.lean ====
/-
  The kernel's result over the extended reals. With every input entry a real, the output array after the region holds, at
  row 2048·r + p, the row's term of the loss (the log-sum-exp of the row's similarities less the similarity with its
  positive): the rows of the blocks written back at the last column tile of each row tile. The host's mean of that array is
  the loss of Spec.lean.
-/
import proofs.«169670_j40578851012794_1_alg».proof.Proof.KernelRun
import proofs.«169670_j40578851012794_1_alg».proof.Proof.OutArray
import proofs.«169670_j40578851012794_1_alg».proof.Proof.KernelRows
import proofs.«169670_j40578851012794_1_alg».proof.Proof.EntryValue
import proofs.«169670_j40578851012794_1_alg».proof.Proof.TailValue

noncomputable section

namespace Cert.NtXent.KernelValue

open Cert.KernelIdeal Cert.KernelIdeal.Gen Cert.KernelIdeal.Entry Cert.KernelIdeal.Body
open Idealize.ShloMosaic Idealize.ShloMosaic.TcCoe Idealize.ShloMosaic.ValueIdx
open Idealize.SL Idealize.SL.Sem

/-- Row `p` of row tile `r` is a row of the stacked matrix. -/
theorem row_lt (r : Fin 4) (p : Fin 2048) : 2048 * r.val + p.val < 8192 := by
  have := r.isLt; have := p.isLt; omega

/-- Every row of the stacked matrix is row `p` of a row tile `r`. -/
theorem row_split (i : Fin 8192) : ∃ (r : Fin 4) (p : Fin 2048), i = (⟨2048 * r.val + p.val, row_lt r p⟩ : Fin 8192) :=
  ⟨⟨i.val / 2048, by have := i.isLt; omega⟩, ⟨i.val % 2048, Nat.mod_lt _ (by norm_num)⟩,
    Fin.ext (by show i.val = 2048 * (i.val / 2048) + i.val % 2048; omega)⟩

/-- The mean of the output array is the loss. -/
theorem out_value (m : (ℓ : Loc nD τ sig) → Buf (Elt Ideal) ℓ) (c : Dev nD) (a b : Fin 4096 → Fin 256 → ℝ)
    (ha : ∀ i k, m ((c.tc : Thread nD τ).loc main_arg0) (ix2 i k) = ((a i k : ℝ) : EReal))
    (hb : ∀ i k, m ((c.tc : Thread nD τ).loc main_arg1) (ix2 i k) = ((b i k : ℝ) : EReal)) :
    Host.divf (F := Ideal) (Host.reduceAdd (F := Ideal) ((dats m 0 c).arrAt 2 cfg0.N) (constant (F := Ideal) S_ .f32 0x00000000#32)
        reducesTo_S8192x1_S_d0_1 h_S_) (constant (F := Ideal) S_ .f32 0x46000000#32)
      = fun _ => ((Cert.NtXent.loss (Cert.NtXent.stack a b) Cert.NtXent.Consts.negFillR : ℝ) : EReal) := by
  refine Cert.NtXent.TailValue.mean_value _ (fun i => Cert.NtXent.rowLoss (Cert.NtXent.stack a b) Cert.NtXent.Consts.negFillR i) ?_ _ _
  intro i
  have hz := Cert.NtXent.EntryValue.V_v1_apply m c a b ha hb
  obtain ⟨r, p, rfl⟩ := row_split i
  rw [Cert.NtXent.OutArray.out_apply m c r p]
  exact Cert.NtXent.KernelRows.out_row _ m c hz r p

/-- The kernel's run with its result at the loss. -/
theorem run (m : (ℓ : Loc nD τ sig) → Buf (Elt Ideal) ℓ) (ρ : Dev nD → PrngReg) (a b : Dev nD → Fin 4096 → Fin 256 → ℝ)
    (ha : ∀ (c : Dev nD) i k, m ((c.tc : Thread nD τ).loc main_arg0) (ix2 i k) = ((a c i k : ℝ) : EReal))
    (hb : ∀ (c : Dev nD) i k, m ((c.tc : Thread nD τ).loc main_arg1) (ix2 i k) = ((b c i k : ℝ) : EReal)) :
    θ_run defs (onTc (τ := τ) (main (F := Ideal))) ⟨m, fun _ => 0, ρ⟩ (fun r => ∀ c : Dev nD,
      r.2.mem ((c.tc : Thread nD τ).loc main_v4) = (fun _ => ((Cert.NtXent.loss (Cert.NtXent.stack (a c) (b c)) Cert.NtXent.Consts.negFillR : ℝ) : EReal))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun _ h c => ⟨(h c).1.trans (out_value m c (a c) (b c) (ha c) (hb c)), (h c).2⟩) (run_named m ρ)

end Cert.NtXent.KernelValue

end
-- ==== Proof.RefRunP.lean ====
/-
  The reference program's run read back. Its @main is 70 host operations in a row, so every weakly fair execution
  terminates with each buffer at the composed operations of the two arguments, the arguments unchanged. The result is named as
  a composition of pieces — the similarity matrix with its diagonal filled (`simV`), each row's partner column (`partner`),
  the row maxima, the matrix shifted by them, the row sums of exponentials and the log-softmax (`rowMaxV`, `shift2`,
  `rowSumV`, `lsm2`, `lsmV`), the gather of each row's partner entry with its in-range mask (`colV`, `wrapSel`, `idx3`,
  `wrapIdx`, `inRange`, `take3`, `takeV`) and minus the mean (`meanNeg`) — each the term of a few consecutive operations.
  The 70 operations are cut into twelve consecutive blocks and folded block by block, one small lemma per block over an
  arbitrary incoming valuation, so that no comparison of terms spans more than a few operations over the 8192 × 8192 arrays.
-/
import proofs.«169670_j40578851012794_1_alg».proof.Proof.Gen.ReferenceIdeal
import Idealize.ShloMosaic.Lib.StableHlo.Run

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- @main's 70 operations, in order (a called function's operations stand in its call's place, spelt `TRef.…`). -/
abbrev ops : List (HloOp τ sig (Elt F)) :=
  [ binary main_arg0 main_arg1 main_v0 ((fun a b => concatenate S8192x256 0 [⟨S4096x256, a⟩, ⟨S4096x256, b⟩] concatenates_S4096x256_S4096x256_S8192x256_d0) : (⟨S4096x256, .f32⟩ : BufTy).Contents (Elt F) → (⟨S4096x256, .f32⟩ : BufTy).Contents (Elt F) → (⟨S8192x256, .f32⟩ : BufTy).Contents (Elt F)),
    unary main_v0 main_v1 ((transpose S256x8192 [1, 0] · transposes_S8192x256_S256x8192_1_0) : (⟨S8192x256, .f32⟩ : BufTy).Contents (Elt F) → (⟨S256x8192, .f32⟩ : BufTy).Contents (Elt F)),
    binary main_v0 main_v1 main_v2 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    nullary main_cst (constant S_ .f32 0x3F000000#32),
    unary main_cst main_v3 (broadcastInDim S8192x8192 ![] bcast_S_S8192x8192 : (⟨S_, .f32⟩ : BufTy).Contents (Elt F) → (⟨S8192x8192, .f32⟩ : BufTy).Contents (Elt F)),
    binary main_v2 main_v3 main_v4 (Host.divf : (⟨S8192x8192, .f32⟩ : BufTy).Contents (Elt F) → (⟨S8192x8192, .f32⟩ : BufTy).Contents (Elt F) → (⟨S8192x8192, .f32⟩ : BufTy).Contents (Elt F)),
    nullary main_v5 (iotaInDim S8192x8192 32 0),
    nullary main_v6 (iotaInDim S8192x8192 32 1),
    nullary main_c (constantI S_ 32 0#32),
    unary main_c main_v7 (broadcastInDim S8192x8192 ![] bcast_S_S8192x8192 : (⟨S_, .i32⟩ : BufTy).Contents (Elt F) → (⟨S8192x8192, .i32⟩ : BufTy).Contents (Elt F)),
    binary main_v5 main_v7 main_v8 (addi : (⟨S8192x8192, .i32⟩ : BufTy).Contents (Elt F) → (⟨S8192x8192, .i32⟩ : BufTy).Contents (Elt F) → (⟨S8192x8192, .i32⟩ : BufTy).Contents (Elt F)),
    binary main_v8 main_v6 main_v9 (cmpi .eq : (⟨S8192x8192, .i32⟩ : BufTy).Contents (Elt F) → (⟨S8192x8192, .i32⟩ : BufTy).Contents (Elt F) → (⟨S8192x8192, .i1⟩ : BufTy).Contents (Elt F)),
    nullary main_cst_0 (constant S_ .f32 0xCE6E6B28#32),
    TRef.unary (TRef.of (T := ⟨S_, .f32⟩) main_cst_0) (TRef.of (T := ⟨S_, .f32⟩) main_call0_v0) id,
    TRef.unary (TRef.of (T := ⟨S_, .f32⟩) main_call0_v0) (TRef.of (T := ⟨S8192x8192, .f32⟩) main_call0_v1) (broadcastInDim S8192x8192 ![] bcast_S_S8192x8192),
    TRef.ternary (TRef.of (T := ⟨S8192x8192, .i1⟩) main_v9) (TRef.of (T := ⟨S8192x8192, .f32⟩) main_call0_v1) (TRef.of (T := ⟨S8192x8192, .f32⟩) main_v4) (TRef.of (T := ⟨S8192x8192, .f32⟩) main_v10) select,
    nullary main_v11 (iotaInDim S8192 32 0),
    nullary main_c_1 (constantI S_ 32 4096#32),
    unary main_c_1 main_v12 (broadcastInDim S8192 ![] bcast_S_S8192 : (⟨S_, .i32⟩ : BufTy).Contents (Elt F) → (⟨S8192, .i32⟩ : BufTy).Contents (Elt F)),
    binary main_v11 main_v12 main_v13 (cmpi .slt : (⟨S8192, .i32⟩ : BufTy).Contents (Elt F) → (⟨S8192, .i32⟩ : BufTy).Contents (Elt F) → (⟨S8192, .i1⟩ : BufTy).Contents (Elt F)),
    nullary main_c_2 (constantI S_ 32 4096#32),
    unary main_c_2 main_v14 (broadcastInDim S8192 ![] bcast_S_S8192 : (⟨S_, .i32⟩ : BufTy).Contents (Elt F) → (⟨S8192, .i32⟩ : BufTy).Contents (Elt F)),
    binary main_v11 main_v14 main_v15 (addi : (⟨S8192, .i32⟩ : BufTy).Contents (Elt F) → (⟨S8192, .i32⟩ : BufTy).Contents (Elt F) → (⟨S8192, .i32⟩ : BufTy).Contents (Elt F)),
    nullary main_c_3 (constantI S_ 32 4096#32),
    unary main_c_3 main_v16 (broadcastInDim S8192 ![] bcast_S_S8192 : (⟨S_, .i32⟩ : BufTy).Contents (Elt F) → (⟨S8192, .i32⟩ : BufTy).Contents (Elt F)),
    binary main_v11 main_v16 main_v17 (subi : (⟨S8192, .i32⟩ : BufTy).Contents (Elt F) → (⟨S8192, .i32⟩ : BufTy).Contents (Elt F) → (⟨S8192, .i32⟩ : BufTy).Contents (Elt F)),
    TRef.ternary (TRef.of (T := ⟨S8192, .i1⟩) main_v13) (TRef.of (T := ⟨S8192, .i32⟩) main_v15) (TRef.of (T := ⟨S8192, .i32⟩) main_v17) (TRef.of (T := ⟨S8192, .i32⟩) main_v18) select,
    TRef.nullary (TRef.of (T := ⟨S_, .f32⟩) main_call2_cst) (constant S_ .f32 0xFF800000#32),
    TRef.binary (TRef.of (T := ⟨S8192x8192, .f32⟩) main_v10) (TRef.of (T := ⟨S_, .f32⟩) main_call2_cst) (TRef.of (T := ⟨S8192, .f32⟩) main_call2_v0) (fun x v => Host.reduce FloatOps.maximumf x v reducesTo_S8192x8192_S8192_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S8192, .f32⟩) main_call2_v1) (broadcastInDim S8192 ![] bcast_S_S8192),
    TRef.binary (TRef.of (T := ⟨S8192, .f32⟩) main_call2_v1) (TRef.of (T := ⟨S8192, .f32⟩) main_call2_v0) (TRef.of (T := ⟨S8192, .f32⟩) main_call2_v2) maximumf,
    TRef.unary (TRef.of (T := ⟨S8192, .f32⟩) main_call2_v2) (TRef.of (T := ⟨S8192x1, .f32⟩) main_call2_v3) (broadcastInDim S8192x1 ![0] bcast_S8192_S8192x1_0),
    TRef.unary (TRef.of (T := ⟨S8192x1, .f32⟩) main_call2_v3) (TRef.of (T := ⟨S8192x8192, .f32⟩) main_call2_v4) (broadcastInDim S8192x8192 ![0, 1] bcast_S8192x1_S8192x8192_0_1),
    TRef.binary (TRef.of (T := ⟨S8192x8192, .f32⟩) main_v10) (TRef.of (T := ⟨S8192x8192, .f32⟩) main_call2_v4) (TRef.of (T := ⟨S8192x8192, .f32⟩) main_call2_v5) subf,
    TRef.unary (TRef.of (T := ⟨S8192x8192, .f32⟩) main_call2_v5) (TRef.of (T := ⟨S8192x8192, .f32⟩) main_call2_v6) Host.exp,
    TRef.nullary (TRef.of (T := ⟨S_, .f32⟩) main_call2_cst_1) (constant S_ .f32 0x00000000#32),
    TRef.binary (TRef.of (T := ⟨S8192x8192, .f32⟩) main_call2_v6) (TRef.of (T := ⟨S_, .f32⟩) main_call2_cst_1) (TRef.of (T := ⟨S8192, .f32⟩) main_call2_v7) (fun x v => Host.reduceAdd x v reducesTo_S8192x8192_S8192_d1 h_S_),
    TRef.unary (TRef.of (T := ⟨S8192, .f32⟩) main_call2_v7) (TRef.of (T := ⟨S8192x1, .f32⟩) main_call2_v8) (broadcastInDim S8192x1 ![0] bcast_S8192_S8192x1_0),
    TRef.unary (TRef.of (T := ⟨S8192x1, .f32⟩) main_call2_v8) (TRef.of (T := ⟨S8192x1, .f32⟩) main_call2_v9) Host.log,
    TRef.unary (TRef.of (T := ⟨S8192x1, .f32⟩) main_call2_v9) (TRef.of (T := ⟨S8192x8192, .f32⟩) main_call2_v10) (broadcastInDim S8192x8192 ![0, 1] bcast_S8192x1_S8192x8192_0_1),
    TRef.binary (TRef.of (T := ⟨S8192x8192, .f32⟩) main_call2_v5) (TRef.of (T := ⟨S8192x8192, .f32⟩) main_call2_v10) (TRef.of (T := ⟨S8192x8192, .f32⟩) main_v19) subf,
    unary main_v18 main_v20 (broadcastInDim S8192x1 ![0] bcast_S8192_S8192x1_0 : (⟨S8192, .i32⟩ : BufTy).Contents (Elt F) → (⟨S8192x1, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S8192x1, .i32⟩) main_call3_v0) (broadcastInDim S8192x1 ![] bcast_S_S8192x1),
    TRef.binary (TRef.of (T := ⟨S8192x1, .i32⟩) main_v20) (TRef.of (T := ⟨S8192x1, .i32⟩) main_call3_v0) (TRef.of (T := ⟨S8192x1, .i1⟩) main_call3_v1) (cmpi .slt),
    TRef.nullary (TRef.of (T := ⟨S_, .i32⟩) main_call3_c_0) (constantI S_ 32 8192#32),
    TRef.unary (TRef.of (T := ⟨S_, .i32⟩) main_call3_c_0) (TRef.of (T := ⟨S8192x1, .i32⟩) main_call3_v2) (broadcastInDim S8192x1 ![] bcast_S_S8192x1),
    TRef.binary (TRef.of (T := ⟨S8192x1, .i32⟩) main_v20) (TRef.of (T := ⟨S8192x1, .i32⟩) main_call3_v2) (TRef.of (T := ⟨S8192x1, .i32⟩) main_call3_v3) addi,
    TRef.ternary (TRef.of (T := ⟨S8192x1, .i1⟩) main_call3_v1) (TRef.of (T := ⟨S8192x1, .i32⟩) main_call3_v3) (TRef.of (T := ⟨S8192x1, .i32⟩) main_v20) (TRef.of (T := ⟨S8192x1, .i32⟩) main_call3_v4) select,
    TRef.reshape (TRef.of (T := ⟨S8192x1, .i32⟩) main_call3_v4) (TRef.of (T := ⟨S8192x1x1, .i32⟩) main_call3_v5) rfl shapeCasts_S8192x1_S8192x1x1,
    TRef.nullary (TRef.of (T := ⟨S1, .i32⟩) main_call3_c_1) (constantI S1 32 8191#32),
    TRef.nullary (TRef.of (T := ⟨S_, .i32⟩) main_call3_c_2) (constantI S_ 32 0#32),
    TRef.unary (TRef.of (T := ⟨S_, .i32⟩) main_call3_c_2) (TRef.of (T := ⟨S8192x1x1, .i32⟩) main_call3_v6) (broadcastInDim S8192x1x1 ![] bcast_S_S8192x1x1),
    TRef.binary (TRef.of (T := ⟨S8192x1x1, .i32⟩) main_call3_v5) (TRef.of (T := ⟨S8192x1x1, .i32⟩) main_call3_v6) (TRef.of (T := ⟨S8192x1x1, .i1⟩) main_call3_v7) (cmpi .sge),
    TRef.unary (TRef.of (T := ⟨S1, .i32⟩) main_call3_c_1) (TRef.of (T := ⟨S1x1x1, .i32⟩) main_call3_v8) (broadcastInDim S1x1x1 ![2] bcast_S1_S1x1x1_2),
    TRef.unary (TRef.of (T := ⟨S1x1x1, .i32⟩) main_call3_v8) (TRef.of (T := ⟨S8192x1x1, .i32⟩) main_call3_v9) (broadcastInDim S8192x1x1 ![0, 1, 2] bcast_S1x1x1_S8192x1x1_0_1_2),
    TRef.binary (TRef.of (T := ⟨S8192x1x1, .i32⟩) main_call3_v5) (TRef.of (T := ⟨S8192x1x1, .i32⟩) main_call3_v9) (TRef.of (T := ⟨S8192x1x1, .i1⟩) main_call3_v10) (cmpi .sle),
    TRef.binary (TRef.of (T := ⟨S8192x1x1, .i1⟩) main_call3_v7) (TRef.of (T := ⟨S8192x1x1, .i1⟩) main_call3_v10) (TRef.of (T := ⟨S8192x1x1, .i1⟩) main_call3_v11) andi,
    TRef.nullary (TRef.of (T := ⟨S_, .i1⟩) main_call3_c_3) (constantI S_ 1 1#1),
    TRef.binary (TRef.of (T := ⟨S8192x1x1, .i1⟩) main_call3_v11) (TRef.of (T := ⟨S_, .i1⟩) main_call3_c_3) (TRef.of (T := ⟨S8192x1, .i1⟩) main_call3_v12) (fun x v => Host.reduce IntOp.andi x v reducesTo_S8192x1x1_S8192x1_d2 h_S_),
    TRef.binary (TRef.of (T := ⟨S8192x8192, .f32⟩) main_v19) (TRef.of (T := ⟨S8192x1x1, .i32⟩) main_call3_v5) (TRef.of (T := ⟨S8192x1, .f32⟩) main_call3_v13) (fun x i => Host.gather gather_S8192x8192_S8192x1x1_S8192x1_n_1_0_0_1_2_11 x i),
    TRef.nullary (TRef.of (T := ⟨S_, .f32⟩) main_call3_cst) (constant S_ .f32 0x7FC00000#32),
    TRef.unary (TRef.of (T := ⟨S_, .f32⟩) main_call3_cst) (TRef.of (T := ⟨S8192x1, .f32⟩) main_call3_v14) (broadcastInDim S8192x1 ![] bcast_S_S8192x1),
    TRef.ternary (TRef.of (T := ⟨S8192x1, .i1⟩) main_call3_v12) (TRef.of (T := ⟨S8192x1, .f32⟩) main_call3_v13) (TRef.of (T := ⟨S8192x1, .f32⟩) main_call3_v14) (TRef.of (T := ⟨S8192x1, .f32⟩) main_v21) select,
    nullary main_cst_4 (constant S_ .f32 0x00000000#32),
    binary main_v21 main_cst_4 main_v22 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F)),
    nullary main_cst_5 (constant S_ .f32 0x46000000#32),
    binary main_v22 main_cst_5 main_v23 (Host.divf : (⟨S_, .f32⟩ : BufTy).Contents (Elt F) → (⟨S_, .f32⟩ : BufTy).Contents (Elt F) → (⟨S_, .f32⟩ : BufTy).Contents (Elt F)),
    unary main_v23 main_v24 (Host.negf : (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., unary_bufs_sub .., binary_bufs_sub .., nullary_bufs_sub .., unary_bufs_sub .., binary_bufs_sub .., nullary_bufs_sub .., nullary_bufs_sub .., nullary_bufs_sub .., unary_bufs_sub .., binary_bufs_sub .., binary_bufs_sub .., nullary_bufs_sub .., unary_bufs_sub .., unary_bufs_sub .., ternary_bufs_sub .., nullary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., binary_bufs_sub .., nullary_bufs_sub .., binary_bufs_sub .., unary_bufs_sub ..⟩

/-! ## The line in twelve consecutive blocks

The same 70 operations, cut where a value with a name of its own (below) is complete. -/

def ops_sim : List (HloOp τ sig (Elt F)) :=
  [ binary main_arg0 main_arg1 main_v0 ((fun a b => concatenate S8192x256 0 [⟨S4096x256, a⟩, ⟨S4096x256, b⟩] concatenates_S4096x256_S4096x256_S8192x256_d0) : (⟨S4096x256, .f32⟩ : BufTy).Contents (Elt F) → (⟨S4096x256, .f32⟩ : BufTy).Contents (Elt F) → (⟨S8192x256, .f32⟩ : BufTy).Contents (Elt F)),
    unary main_v0 main_v1 ((transpose S256x8192 [1, 0] · transposes_S8192x256_S256x8192_1_0) : (⟨S8192x256, .f32⟩ : BufTy).Contents (Elt F) → (⟨S256x8192, .f32⟩ : BufTy).Contents (Elt F)),
    binary main_v0 main_v1 main_v2 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    nullary main_cst (constant S_ .f32 0x3F000000#32),
    unary main_cst main_v3 (broadcastInDim S8192x8192 ![] bcast_S_S8192x8192 : (⟨S_, .f32⟩ : BufTy).Contents (Elt F) → (⟨S8192x8192, .f32⟩ : BufTy).Contents (Elt F)),
    binary main_v2 main_v3 main_v4 (Host.divf : (⟨S8192x8192, .f32⟩ : BufTy).Contents (Elt F) → (⟨S8192x8192, .f32⟩ : BufTy).Contents (Elt F) → (⟨S8192x8192, .f32⟩ : BufTy).Contents (Elt F)),
    nullary main_v5 (iotaInDim S8192x8192 32 0),
    nullary main_v6 (iotaInDim S8192x8192 32 1),
    nullary main_c (constantI S_ 32 0#32),
    unary main_c main_v7 (broadcastInDim S8192x8192 ![] bcast_S_S8192x8192 : (⟨S_, .i32⟩ : BufTy).Contents (Elt F) → (⟨S8192x8192, .i32⟩ : BufTy).Contents (Elt F)),
    binary main_v5 main_v7 main_v8 (addi : (⟨S8192x8192, .i32⟩ : BufTy).Contents (Elt F) → (⟨S8192x8192, .i32⟩ : BufTy).Contents (Elt F) → (⟨S8192x8192, .i32⟩ : BufTy).Contents (Elt F)),
    binary main_v8 main_v6 main_v9 (cmpi .eq : (⟨S8192x8192, .i32⟩ : BufTy).Contents (Elt F) → (⟨S8192x8192, .i32⟩ : BufTy).Contents (Elt F) → (⟨S8192x8192, .i1⟩ : BufTy).Contents (Elt F)),
    nullary main_cst_0 (constant S_ .f32 0xCE6E6B28#32),
    TRef.unary (TRef.of (T := ⟨S_, .f32⟩) main_cst_0) (TRef.of (T := ⟨S_, .f32⟩) main_call0_v0) id,
    TRef.unary (TRef.of (T := ⟨S_, .f32⟩) main_call0_v0) (TRef.of (T := ⟨S8192x8192, .f32⟩) main_call0_v1) (broadcastInDim S8192x8192 ![] bcast_S_S8192x8192),
    TRef.ternary (TRef.of (T := ⟨S8192x8192, .i1⟩) main_v9) (TRef.of (T := ⟨S8192x8192, .f32⟩) main_call0_v1) (TRef.of (T := ⟨S8192x8192, .f32⟩) main_v4) (TRef.of (T := ⟨S8192x8192, .f32⟩) main_v10) select ]

def ops_partner : List (HloOp τ sig (Elt F)) :=
  [ nullary main_v11 (iotaInDim S8192 32 0),
    nullary main_c_1 (constantI S_ 32 4096#32),
    unary main_c_1 main_v12 (broadcastInDim S8192 ![] bcast_S_S8192 : (⟨S_, .i32⟩ : BufTy).Contents (Elt F) → (⟨S8192, .i32⟩ : BufTy).Contents (Elt F)),
    binary main_v11 main_v12 main_v13 (cmpi .slt : (⟨S8192, .i32⟩ : BufTy).Contents (Elt F) → (⟨S8192, .i32⟩ : BufTy).Contents (Elt F) → (⟨S8192, .i1⟩ : BufTy).Contents (Elt F)),
    nullary main_c_2 (constantI S_ 32 4096#32),
    unary main_c_2 main_v14 (broadcastInDim S8192 ![] bcast_S_S8192 : (⟨S_, .i32⟩ : BufTy).Contents (Elt F) → (⟨S8192, .i32⟩ : BufTy).Contents (Elt F)),
    binary main_v11 main_v14 main_v15 (addi : (⟨S8192, .i32⟩ : BufTy).Contents (Elt F) → (⟨S8192, .i32⟩ : BufTy).Contents (Elt F) → (⟨S8192, .i32⟩ : BufTy).Contents (Elt F)),
    nullary main_c_3 (constantI S_ 32 4096#32),
    unary main_c_3 main_v16 (broadcastInDim S8192 ![] bcast_S_S8192 : (⟨S_, .i32⟩ : BufTy).Contents (Elt F) → (⟨S8192, .i32⟩ : BufTy).Contents (Elt F)),
    binary main_v11 main_v16 main_v17 (subi : (⟨S8192, .i32⟩ : BufTy).Contents (Elt F) → (⟨S8192, .i32⟩ : BufTy).Contents (Elt F) → (⟨S8192, .i32⟩ : BufTy).Contents (Elt F)),
    TRef.ternary (TRef.of (T := ⟨S8192, .i1⟩) main_v13) (TRef.of (T := ⟨S8192, .i32⟩) main_v15) (TRef.of (T := ⟨S8192, .i32⟩) main_v17) (TRef.of (T := ⟨S8192, .i32⟩) main_v18) select ]

def ops_max : List (HloOp τ sig (Elt F)) :=
  [ TRef.nullary (TRef.of (T := ⟨S_, .f32⟩) main_call2_cst) (constant S_ .f32 0xFF800000#32),
    TRef.binary (TRef.of (T := ⟨S8192x8192, .f32⟩) main_v10) (TRef.of (T := ⟨S_, .f32⟩) main_call2_cst) (TRef.of (T := ⟨S8192, .f32⟩) main_call2_v0) (fun x v => Host.reduce FloatOps.maximumf x v reducesTo_S8192x8192_S8192_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S8192, .f32⟩) main_call2_v1) (broadcastInDim S8192 ![] bcast_S_S8192),
    TRef.binary (TRef.of (T := ⟨S8192, .f32⟩) main_call2_v1) (TRef.of (T := ⟨S8192, .f32⟩) main_call2_v0) (TRef.of (T := ⟨S8192, .f32⟩) main_call2_v2) maximumf ]

def ops_shift : List (HloOp τ sig (Elt F)) :=
  [ TRef.unary (TRef.of (T := ⟨S8192, .f32⟩) main_call2_v2) (TRef.of (T := ⟨S8192x1, .f32⟩) main_call2_v3) (broadcastInDim S8192x1 ![0] bcast_S8192_S8192x1_0),
    TRef.unary (TRef.of (T := ⟨S8192x1, .f32⟩) main_call2_v3) (TRef.of (T := ⟨S8192x8192, .f32⟩) main_call2_v4) (broadcastInDim S8192x8192 ![0, 1] bcast_S8192x1_S8192x8192_0_1),
    TRef.binary (TRef.of (T := ⟨S8192x8192, .f32⟩) main_v10) (TRef.of (T := ⟨S8192x8192, .f32⟩) main_call2_v4) (TRef.of (T := ⟨S8192x8192, .f32⟩) main_call2_v5) subf ]

def ops_sum : List (HloOp τ sig (Elt F)) :=
  [ TRef.unary (TRef.of (T := ⟨S8192x8192, .f32⟩) main_call2_v5) (TRef.of (T := ⟨S8192x8192, .f32⟩) main_call2_v6) Host.exp,
    TRef.nullary (TRef.of (T := ⟨S_, .f32⟩) main_call2_cst_1) (constant S_ .f32 0x00000000#32),
    TRef.binary (TRef.of (T := ⟨S8192x8192, .f32⟩) main_call2_v6) (TRef.of (T := ⟨S_, .f32⟩) main_call2_cst_1) (TRef.of (T := ⟨S8192, .f32⟩) main_call2_v7) (fun x v => Host.reduceAdd x v reducesTo_S8192x8192_S8192_d1 h_S_) ]

def ops_lsm : List (HloOp τ sig (Elt F)) :=
  [ TRef.unary (TRef.of (T := ⟨S8192, .f32⟩) main_call2_v7) (TRef.of (T := ⟨S8192x1, .f32⟩) main_call2_v8) (broadcastInDim S8192x1 ![0] bcast_S8192_S8192x1_0),
    TRef.unary (TRef.of (T := ⟨S8192x1, .f32⟩) main_call2_v8) (TRef.of (T := ⟨S8192x1, .f32⟩) main_call2_v9) Host.log,
    TRef.unary (TRef.of (T := ⟨S8192x1, .f32⟩) main_call2_v9) (TRef.of (T := ⟨S8192x8192, .f32⟩) main_call2_v10) (broadcastInDim S8192x8192 ![0, 1] bcast_S8192x1_S8192x8192_0_1),
    TRef.binary (TRef.of (T := ⟨S8192x8192, .f32⟩) main_call2_v5) (TRef.of (T := ⟨S8192x8192, .f32⟩) main_call2_v10) (TRef.of (T := ⟨S8192x8192, .f32⟩) main_v19) subf ]

def ops_col : List (HloOp τ sig (Elt F)) :=
  [ unary main_v18 main_v20 (broadcastInDim S8192x1 ![0] bcast_S8192_S8192x1_0 : (⟨S8192, .i32⟩ : BufTy).Contents (Elt F) → (⟨S8192x1, .i32⟩ : BufTy).Contents (Elt F)) ]

def ops_wrap : List (HloOp τ sig (Elt F)) :=
  [ TRef.nullary (TRef.of (T := ⟨S_, .i32⟩) main_call3_c) (constantI S_ 32 0#32),
    TRef.unary (TRef.of (T := ⟨S_, .i32⟩) main_call3_c) (TRef.of (T := ⟨S8192x1, .i32⟩) main_call3_v0) (broadcastInDim S8192x1 ![] bcast_S_S8192x1),
    TRef.binary (TRef.of (T := ⟨S8192x1, .i32⟩) main_v20) (TRef.of (T := ⟨S8192x1, .i32⟩) main_call3_v0) (TRef.of (T := ⟨S8192x1, .i1⟩) main_call3_v1) (cmpi .slt),
    TRef.nullary (TRef.of (T := ⟨S_, .i32⟩) main_call3_c_0) (constantI S_ 32 8192#32),
    TRef.unary (TRef.of (T := ⟨S_, .i32⟩) main_call3_c_0) (TRef.of (T := ⟨S8192x1, .i32⟩) main_call3_v2) (broadcastInDim S8192x1 ![] bcast_S_S8192x1),
    TRef.binary (TRef.of (T := ⟨S8192x1, .i32⟩) main_v20) (TRef.of (T := ⟨S8192x1, .i32⟩) main_call3_v2) (TRef.of (T := ⟨S8192x1, .i32⟩) main_call3_v3) addi,
    TRef.ternary (TRef.of (T := ⟨S8192x1, .i1⟩) main_call3_v1) (TRef.of (T := ⟨S8192x1, .i32⟩) main_call3_v3) (TRef.of (T := ⟨S8192x1, .i32⟩) main_v20) (TRef.of (T := ⟨S8192x1, .i32⟩) main_call3_v4) select ]

def ops_idx : List (HloOp τ sig (Elt F)) :=
  [ TRef.reshape (TRef.of (T := ⟨S8192x1, .i32⟩) main_call3_v4) (TRef.of (T := ⟨S8192x1x1, .i32⟩) main_call3_v5) rfl shapeCasts_S8192x1_S8192x1x1 ]

def ops_mask : List (HloOp τ sig (Elt F)) :=
  [ TRef.nullary (TRef.of (T := ⟨S1, .i32⟩) main_call3_c_1) (constantI S1 32 8191#32),
    TRef.nullary (TRef.of (T := ⟨S_, .i32⟩) main_call3_c_2) (constantI S_ 32 0#32),
    TRef.unary (TRef.of (T := ⟨S_, .i32⟩) main_call3_c_2) (TRef.of (T := ⟨S8192x1x1, .i32⟩) main_call3_v6) (broadcastInDim S8192x1x1 ![] bcast_S_S8192x1x1),
    TRef.binary (TRef.of (T := ⟨S8192x1x1, .i32⟩) main_call3_v5) (TRef.of (T := ⟨S8192x1x1, .i32⟩) main_call3_v6) (TRef.of (T := ⟨S8192x1x1, .i1⟩) main_call3_v7) (cmpi .sge),
    TRef.unary (TRef.of (T := ⟨S1, .i32⟩) main_call3_c_1) (TRef.of (T := ⟨S1x1x1, .i32⟩) main_call3_v8) (broadcastInDim S1x1x1 ![2] bcast_S1_S1x1x1_2),
    TRef.unary (TRef.of (T := ⟨S1x1x1, .i32⟩) main_call3_v8) (TRef.of (T := ⟨S8192x1x1, .i32⟩) main_call3_v9) (broadcastInDim S8192x1x1 ![0, 1, 2] bcast_S1x1x1_S8192x1x1_0_1_2),
    TRef.binary (TRef.of (T := ⟨S8192x1x1, .i32⟩) main_call3_v5) (TRef.of (T := ⟨S8192x1x1, .i32⟩) main_call3_v9) (TRef.of (T := ⟨S8192x1x1, .i1⟩) main_call3_v10) (cmpi .sle),
    TRef.binary (TRef.of (T := ⟨S8192x1x1, .i1⟩) main_call3_v7) (TRef.of (T := ⟨S8192x1x1, .i1⟩) main_call3_v10) (TRef.of (T := ⟨S8192x1x1, .i1⟩) main_call3_v11) andi,
    TRef.nullary (TRef.of (T := ⟨S_, .i1⟩) main_call3_c_3) (constantI S_ 1 1#1),
    TRef.binary (TRef.of (T := ⟨S8192x1x1, .i1⟩) main_call3_v11) (TRef.of (T := ⟨S_, .i1⟩) main_call3_c_3) (TRef.of (T := ⟨S8192x1, .i1⟩) main_call3_v12) (fun x v => Host.reduce IntOp.andi x v reducesTo_S8192x1x1_S8192x1_d2 h_S_) ]

def ops_take : List (HloOp τ sig (Elt F)) :=
  [ TRef.binary (TRef.of (T := ⟨S8192x8192, .f32⟩) main_v19) (TRef.of (T := ⟨S8192x1x1, .i32⟩) main_call3_v5) (TRef.of (T := ⟨S8192x1, .f32⟩) main_call3_v13) (fun x i => Host.gather gather_S8192x8192_S8192x1x1_S8192x1_n_1_0_0_1_2_11 x i),
    TRef.nullary (TRef.of (T := ⟨S_, .f32⟩) main_call3_cst) (constant S_ .f32 0x7FC00000#32),
    TRef.unary (TRef.of (T := ⟨S_, .f32⟩) main_call3_cst) (TRef.of (T := ⟨S8192x1, .f32⟩) main_call3_v14) (broadcastInDim S8192x1 ![] bcast_S_S8192x1),
    TRef.ternary (TRef.of (T := ⟨S8192x1, .i1⟩) main_call3_v12) (TRef.of (T := ⟨S8192x1, .f32⟩) main_call3_v13) (TRef.of (T := ⟨S8192x1, .f32⟩) main_call3_v14) (TRef.of (T := ⟨S8192x1, .f32⟩) main_v21) select ]

def ops_mean : List (HloOp τ sig (Elt F)) :=
  [ nullary main_cst_4 (constant S_ .f32 0x00000000#32),
    binary main_v21 main_cst_4 main_v22 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F)),
    nullary main_cst_5 (constant S_ .f32 0x46000000#32),
    binary main_v22 main_cst_5 main_v23 (Host.divf : (⟨S_, .f32⟩ : BufTy).Contents (Elt F) → (⟨S_, .f32⟩ : BufTy).Contents (Elt F) → (⟨S_, .f32⟩ : BufTy).Contents (Elt F)),
    unary main_v23 main_v24 (Host.negf : (⟨S_, .f32⟩ : BufTy).Contents (Elt F) → (⟨S_, .f32⟩ : BufTy).Contents (Elt F)) ]

/-! ## The reference's value, in named pieces

Each piece is the composed term of a few consecutive operations, as a function of the values it reads. -/

/-- The masked similarity: the Gram matrix of the stacked rows divided by the temperature, the diagonal replaced. -/
def simV (a b : (⟨S4096x256, .f32⟩ : BufTy).Contents (Elt F)) : (⟨S8192x8192, .f32⟩ : BufTy).Contents (Elt F) :=
  select (cmpi .eq (addi (iotaInDim S8192x8192 32 0) (broadcastInDim S8192x8192 ![] bcast_S_S8192x8192 (constantI S_ 32 0#32))) (iotaInDim S8192x8192 32 1))
    (broadcastInDim S8192x8192 ![] bcast_S_S8192x8192 (constant S_ .f32 0xCE6E6B28#32))
    (Host.divf
      (Host.dotGeneral dot_S8192x256_S256x8192_S8192x8192_1_0_0_1_n_n none
        (concatenate S8192x256 0 [⟨S4096x256, a⟩, ⟨S4096x256, b⟩] concatenates_S4096x256_S4096x256_S8192x256_d0)
        (transpose S256x8192 [1, 0] (concatenate S8192x256 0 [⟨S4096x256, a⟩, ⟨S4096x256, b⟩] concatenates_S4096x256_S4096x256_S8192x256_d0) transposes_S8192x256_S256x8192_1_0))
      (broadcastInDim S8192x8192 ![] bcast_S_S8192x8192 (constant S_ .f32 0x3F000000#32)))

/-- Each row's partner column: `i + 4096` below 4096, `i - 4096` from there on. -/
def partner : (⟨S8192, .i32⟩ : BufTy).Contents (Elt F) :=
  select (cmpi .slt (iotaInDim S8192 32 0) (broadcastInDim S8192 ![] bcast_S_S8192 (constantI S_ 32 4096#32)))
    (addi (iotaInDim S8192 32 0) (broadcastInDim S8192 ![] bcast_S_S8192 (constantI S_ 32 4096#32)))
    (subi (iotaInDim S8192 32 0) (broadcastInDim S8192 ![] bcast_S_S8192 (constantI S_ 32 4096#32)))

/-- The row maxima (a fold of the maximum from the least float, once more joined with it). -/
def rowMaxV (x : (⟨S8192x8192, .f32⟩ : BufTy).Contents (Elt F)) : (⟨S8192, .f32⟩ : BufTy).Contents (Elt F) :=
  maximumf (broadcastInDim S8192 ![] bcast_S_S8192 (constant S_ .f32 0xFF800000#32))
    (Host.reduce FloatOps.maximumf x (constant S_ .f32 0xFF800000#32) reducesTo_S8192x8192_S8192_d1 h_S_)

/-- Each entry less its row's entry of `mx`. -/
def shift2 (x : (⟨S8192x8192, .f32⟩ : BufTy).Contents (Elt F)) (mx : (⟨S8192, .f32⟩ : BufTy).Contents (Elt F)) : (⟨S8192x8192, .f32⟩ : BufTy).Contents (Elt F) :=
  subf x (broadcastInDim S8192x8192 ![0, 1] bcast_S8192x1_S8192x8192_0_1 (broadcastInDim S8192x1 ![0] bcast_S8192_S8192x1_0 mx))

/-- The row sums of the exponentials. -/
def rowSumV (y : (⟨S8192x8192, .f32⟩ : BufTy).Contents (Elt F)) : (⟨S8192, .f32⟩ : BufTy).Contents (Elt F) :=
  Host.reduceAdd (Host.exp y) (constant S_ .f32 0x00000000#32) reducesTo_S8192x8192_S8192_d1 h_S_

/-- Each entry less the logarithm of its row's entry of `s`. -/
def lsm2 (y : (⟨S8192x8192, .f32⟩ : BufTy).Contents (Elt F)) (s : (⟨S8192, .f32⟩ : BufTy).Contents (Elt F)) : (⟨S8192x8192, .f32⟩ : BufTy).Contents (Elt F) :=
  subf y (broadcastInDim S8192x8192 ![0, 1] bcast_S8192x1_S8192x8192_0_1 (Host.log (broadcastInDim S8192x1 ![0] bcast_S8192_S8192x1_0 s)))

/-- The logarithm of the softmax along rows. -/
def lsmV (x : (⟨S8192x8192, .f32⟩ : BufTy).Contents (Elt F)) : (⟨S8192x8192, .f32⟩ : BufTy).Contents (Elt F) :=
  lsm2 (shift2 x (rowMaxV x)) (rowSumV (shift2 x (rowMaxV x)))

/-- A vector as a column. -/
def colV (t : (⟨S8192, .i32⟩ : BufTy).Contents (Elt F)) : (⟨S8192x1, .i32⟩ : BufTy).Contents (Elt F) :=
  broadcastInDim S8192x1 ![0] bcast_S8192_S8192x1_0 t

/-- Negative indices wrapped by the row length. -/
def wrapSel (v : (⟨S8192x1, .i32⟩ : BufTy).Contents (Elt F)) : (⟨S8192x1, .i32⟩ : BufTy).Contents (Elt F) :=
  select (cmpi .slt v (broadcastInDim S8192x1 ![] bcast_S_S8192x1 (constantI S_ 32 0#32)))
    (addi v (broadcastInDim S8192x1 ![] bcast_S_S8192x1 (constantI S_ 32 8192#32))) v

/-- A column as a column of one-entry index vectors. -/
def idx3 (v : (⟨S8192x1, .i32⟩ : BufTy).Contents (Elt F)) : (⟨S8192x1x1, .i32⟩ : BufTy).Contents (Elt F) :=
  shapeCast _ v shapeCasts_S8192x1_S8192x1x1

/-- The column indices as the gather reads them. -/
def wrapIdx (t : (⟨S8192, .i32⟩ : BufTy).Contents (Elt F)) : (⟨S8192x1x1, .i32⟩ : BufTy).Contents (Elt F) := idx3 (wrapSel (colV t))

/-- Whether each index lies in `[0, 8191]`. -/
def inRange (i : (⟨S8192x1x1, .i32⟩ : BufTy).Contents (Elt F)) : (⟨S8192x1, .i1⟩ : BufTy).Contents (Elt F) :=
  Host.reduce IntOp.andi
    (andi (cmpi .sge i (broadcastInDim S8192x1x1 ![] bcast_S_S8192x1x1 (constantI S_ 32 0#32)))
      (cmpi .sle i (broadcastInDim S8192x1x1 ![0, 1, 2] bcast_S1x1x1_S8192x1x1_0_1_2 (broadcastInDim S1x1x1 ![2] bcast_S1_S1x1x1_2 (constantI S1 32 8191#32)))))
    (constantI S_ 1 1#1) reducesTo_S8192x1x1_S8192x1_d2 h_S_

/-- The gathered value where the index is in range, a fill value elsewhere. -/
def take3 (ok : (⟨S8192x1, .i1⟩ : BufTy).Contents (Elt F)) (g : (⟨S8192x1, .f32⟩ : BufTy).Contents (Elt F)) : (⟨S8192x1, .f32⟩ : BufTy).Contents (Elt F) :=
  select ok g (broadcastInDim S8192x1 ![] bcast_S_S8192x1 (constant S_ .f32 0x7FC00000#32))

/-- Row `r`'s entry at column `t r`. -/
def takeV (x : (⟨S8192x8192, .f32⟩ : BufTy).Contents (Elt F)) (t : (⟨S8192, .i32⟩ : BufTy).Contents (Elt F)) : (⟨S8192x1, .f32⟩ : BufTy).Contents (Elt F) :=
  take3 (inRange (wrapIdx t)) (Host.gather gather_S8192x8192_S8192x1x1_S8192x1_n_1_0_0_1_2_11 x (wrapIdx t))

/-- Minus the mean over the 8192 rows. -/
def meanNeg (x : (⟨S8192x1, .f32⟩ : BufTy).Contents (Elt F)) : (⟨S_, .f32⟩ : BufTy).Contents (Elt F) :=
  Host.negf (Host.divf (Host.reduceAdd x (constant S_ .f32 0x00000000#32) reducesTo_S8192x1_S_d0_1 h_S_) (constant S_ .f32 0x46000000#32))

/-! ## Each block's result, from any contents

A block's result buffer holds the block's piece of the values the block reads; a buffer the block does not write keeps
its contents. The typed builders move a value along the (reflexive) equation between a buffer's type and its value's:
those transports are removed before the two sides are compared. -/

theorem sim_v10 (W : Valuation τ sig (Elt F)) :
    after ops_sim W (Proc.devRef .tc main_v10) = simV (W (Proc.devRef .tc main_arg0)) (W (Proc.devRef .tc main_arg1)) := by
  unfold ops_sim; after_results
  try dsimp only [TRef.toBuf, TRef.ofBuf]
  repeat rw [cast_eq]
  try rfl

theorem partner_v18 (W : Valuation τ sig (Elt F)) :
    after ops_partner W (Proc.devRef .tc main_v18) = partner (F := F) := by
  unfold ops_partner; after_results
  try dsimp only [TRef.toBuf, TRef.ofBuf]
  repeat rw [cast_eq]
  try rfl

theorem max_v2 (W : Valuation τ sig (Elt F)) :
    after ops_max W (Proc.devRef .tc main_call2_v2) = rowMaxV (W (Proc.devRef .tc main_v10)) := by
  unfold ops_max; after_results
  try dsimp only [TRef.toBuf, TRef.ofBuf]
  repeat rw [cast_eq]
  try rfl

theorem shift_v5 (W : Valuation τ sig (Elt F)) :
    after ops_shift W (Proc.devRef .tc main_call2_v5) = shift2 (W (Proc.devRef .tc main_v10)) (W (Proc.devRef .tc main_call2_v2)) := by
  unfold ops_shift; after_results
  try dsimp only [TRef.toBuf, TRef.ofBuf]
  repeat rw [cast_eq]
  try rfl

theorem sum_v7 (W : Valuation τ sig (Elt F)) :
    after ops_sum W (Proc.devRef .tc main_call2_v7) = rowSumV (W (Proc.devRef .tc main_call2_v5)) := by
  unfold ops_sum; after_results
  try dsimp only [TRef.toBuf, TRef.ofBuf]
  repeat rw [cast_eq]
  try rfl

theorem lsm_v19 (W : Valuation τ sig (Elt F)) :
    after ops_lsm W (Proc.devRef .tc main_v19) = lsm2 (W (Proc.devRef .tc main_call2_v5)) (W (Proc.devRef .tc main_call2_v7)) := by
  unfold ops_lsm; after_results
  try dsimp only [TRef.toBuf, TRef.ofBuf]
  repeat rw [cast_eq]
  try rfl

theorem col_v20 (W : Valuation τ sig (Elt F)) :
    after ops_col W (Proc.devRef .tc main_v20) = colV (W (Proc.devRef .tc main_v18)) := by
  unfold ops_col; after_results
  try dsimp only [TRef.toBuf, TRef.ofBuf]
  repeat rw [cast_eq]
  try rfl

theorem wrap_v4 (W : Valuation τ sig (Elt F)) :
    after ops_wrap W (Proc.devRef .tc main_call3_v4) = wrapSel (W (Proc.devRef .tc main_v20)) := by
  unfold ops_wrap; after_results
  try dsimp only [TRef.toBuf, TRef.ofBuf]
  repeat rw [cast_eq]
  try rfl

theorem idx_v5 (W : Valuation τ sig (Elt F)) :
    after ops_idx W (Proc.devRef .tc main_call3_v5) = idx3 (W (Proc.devRef .tc main_call3_v4)) := by
  unfold ops_idx; after_results
  try dsimp only [TRef.toBuf, TRef.ofBuf]
  repeat rw [cast_eq]
  try rfl

theorem mask_v12 (W : Valuation τ sig (Elt F)) :
    after ops_mask W (Proc.devRef .tc main_call3_v12) = inRange (W (Proc.devRef .tc main_call3_v5)) := by
  unfold ops_mask; after_results
  try dsimp only [TRef.toBuf, TRef.ofBuf]
  repeat rw [cast_eq]
  try rfl

theorem take_v21 (W : Valuation τ sig (Elt F)) :
    after ops_take W (Proc.devRef .tc main_v21) = take3 (W (Proc.devRef .tc main_call3_v12)) (Host.gather gather_S8192x8192_S8192x1x1_S8192x1_n_1_0_0_1_2_11 (W (Proc.devRef .tc main_v19)) (W (Proc.devRef .tc main_call3_v5))) := by
  unfold ops_take; after_results
  try dsimp only [TRef.toBuf, TRef.ofBuf]
  repeat rw [cast_eq]
  try rfl

theorem mean_v24 (W : Valuation τ sig (Elt F)) :
    after ops_mean W (Proc.devRef .tc main_v24) = meanNeg (W (Proc.devRef .tc main_v21)) := by
  unfold ops_mean; after_results
  try dsimp only [TRef.toBuf, TRef.ofBuf]
  repeat rw [cast_eq]
  try rfl

theorem partner_keeps_v10 (W : Valuation τ sig (Elt F)) :
    after ops_partner W (Proc.devRef .tc main_v10) = W (Proc.devRef .tc main_v10) := by
  unfold ops_partner; after_results

theorem max_keeps_v10 (W : Valuation τ sig (Elt F)) :
    after ops_max W (Proc.devRef .tc main_v10) = W (Proc.devRef .tc main_v10) := by
  unfold ops_max; after_results

theorem max_keeps_v18 (W : Valuation τ sig (Elt F)) :
    after ops_max W (Proc.devRef .tc main_v18) = W (Proc.devRef .tc main_v18) := by
  unfold ops_max; after_results

theorem shift_keeps_v18 (W : Valuation τ sig (Elt F)) :
    after ops_shift W (Proc.devRef .tc main_v18) = W (Proc.devRef .tc main_v18) := by
  unfold ops_shift; after_results

theorem sum_keeps_v5 (W : Valuation τ sig (Elt F)) :
    after ops_sum W (Proc.devRef .tc main_call2_v5) = W (Proc.devRef .tc main_call2_v5) := by
  unfold ops_sum; after_results

theorem sum_keeps_v18 (W : Valuation τ sig (Elt F)) :
    after ops_sum W (Proc.devRef .tc main_v18) = W (Proc.devRef .tc main_v18) := by
  unfold ops_sum; after_results

theorem lsm_keeps_v18 (W : Valuation τ sig (Elt F)) :
    after ops_lsm W (Proc.devRef .tc main_v18) = W (Proc.devRef .tc main_v18) := by
  unfold ops_lsm; after_results

theorem col_keeps_v19 (W : Valuation τ sig (Elt F)) :
    after ops_col W (Proc.devRef .tc main_v19) = W (Proc.devRef .tc main_v19) := by
  unfold ops_col; after_results

theorem wrap_keeps_v19 (W : Valuation τ sig (Elt F)) :
    after ops_wrap W (Proc.devRef .tc main_v19) = W (Proc.devRef .tc main_v19) := by
  unfold ops_wrap; after_results

theorem idx_keeps_v19 (W : Valuation τ sig (Elt F)) :
    after ops_idx W (Proc.devRef .tc main_v19) = W (Proc.devRef .tc main_v19) := by
  unfold ops_idx; after_results

theorem mask_keeps_v19 (W : Valuation τ sig (Elt F)) :
    after ops_mask W (Proc.devRef .tc main_v19) = W (Proc.devRef .tc main_v19) := by
  unfold ops_mask; after_results

theorem mask_keeps_v5 (W : Valuation τ sig (Elt F)) :
    after ops_mask W (Proc.devRef .tc main_call3_v5) = W (Proc.devRef .tc main_call3_v5) := by
  unfold ops_mask; after_results

/-! ## The blocks in order are the whole line -/

theorem ops_eq : (ops : List (HloOp τ sig (Elt F)))
    = ops_sim ++ ops_partner ++ ops_max ++ ops_shift ++ ops_sum ++ ops_lsm ++ ops_col ++ ops_wrap ++ ops_idx ++ ops_mask ++ ops_take ++ ops_mean := rfl

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons]; exact ih _

/-- The line's last result, from any contents: the pieces composed. -/
theorem after_ops (V : Valuation τ sig (Elt F)) :
    after ops V (Proc.devRef .tc main_v24)
      = meanNeg (takeV (lsmV (simV (V (Proc.devRef .tc main_arg0)) (V (Proc.devRef .tc main_arg1)))) partner) := by
  rw [ops_eq]
  simp only [after_append]
  rw [mean_v24, take_v21, mask_v12, mask_keeps_v19, mask_keeps_v5, idx_v5, idx_keeps_v19, wrap_v4, wrap_keeps_v19,
    col_v20, col_keeps_v19, lsm_v19, lsm_keeps_v18, sum_v7, sum_keeps_v5, sum_keeps_v18, shift_v5, shift_keeps_v18,
    max_v2, max_keeps_v10, max_keeps_v18, partner_v18, partner_keeps_v10, sim_v10]
  rfl

/-- `main_v24`'s composed term of the arguments: minus the mean over rows of the log-softmax of the masked similarity at
    each row's partner column. -/
def res_main_v24 (m : (ℓ : Loc nD τ sig) → Buf (Elt F) ℓ) (c : Dev nD) : Buf (Elt F) ((c.tc : Thread nD τ).loc main_v24) :=
  meanNeg (takeV (lsmV (simV (m ((c.tc : Thread nD τ).loc main_arg0)) (m ((c.tc : Thread nD τ).loc main_arg1)))) partner)

/-- `res_main_v24` under the name of its position (0) among the values @main returns. -/
abbrev res_out0 (m : (ℓ : Loc nD τ sig) → Buf (Elt F) ℓ) (c : Dev nD) : Buf (Elt F) ((c.tc : Thread nD τ).loc main_v24) := res_main_v24 m c

theorem after_ops_launch (m : (ℓ : Loc nD τ sig) → Buf (Elt F) ℓ) (c : Dev nD) :
    after ops (launchContents m c) (Proc.devRef .tc main_v24) = res_main_v24 m c :=
  after_ops (launchContents m c)

set_option maxRecDepth 8192 in
set_option maxHeartbeats 4000000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24) = res_main_v24 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v24).trans (after_ops_launch m c),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.ValueP

end
-- ==== Proof.LibRowBroadcast.lean ====
/-
  Row vectors broadcast on the host, read at an index (program-independent; imports only the library).

  A vector of `b` entries is carried to a matrix of `a` equal rows in two steps: placed along axis 1 of a one-row matrix
  `[1, b]`, then repeated along axis 0 into `[a, b]`. At `(r, d)` the result holds the vector's entry `d`. A scalar
  broadcast to any shape holds the scalar at every index.
-/
import Idealize.ShloMosaic.Lib.ValueIdx
import Idealize.ShloMosaic.Lib.Pipeline.Value

noncomputable section

namespace Cert.RowBroadcast

open Idealize.ShloMosaic Idealize.ShloMosaic.ValueIdx

variable {α : Type}

/-- A `[b]` vector placed along axis 1 of the one-row matrix `[1, b]` reads, at `(z, d)`, the vector's entry `d`. -/
theorem broadcastInDim_b_1b_apply {b : ℕ} (x : (⟨1, ![b]⟩ : Shape).Idx → α)
    (h : (⟨1, ![b]⟩ : Shape).BroadcastsInDim ⟨2, ![1, b]⟩ ![1]) (z : Fin 1) (d : Fin b) :
    broadcastInDim ⟨2, ![1, b]⟩ ![1] h x (ix2 z d) = x (ix1 d) :=
  broadcastInDim_apply _ h x _ _ (fun c => match c with
    | ⟨0, _⟩ => by
      show d.val = if b = 1 then 0 else d.val
      by_cases hb : b = 1
      · rw [if_pos hb]; have := d.isLt; omega
      · rw [if_neg hb])

/-- A one-row matrix `[1, b]` repeated along axis 0 into `[a, b]` reads, at `(r, d)`, the row's entry `(0, d)`. -/
theorem broadcastInDim_1b_ab_apply {a b : ℕ} (x : (⟨2, ![1, b]⟩ : Shape).Idx → α)
    (h : (⟨2, ![1, b]⟩ : Shape).BroadcastsInDim ⟨2, ![a, b]⟩ ![0, 1]) (r : Fin a) (d : Fin b) :
    broadcastInDim ⟨2, ![a, b]⟩ ![0, 1] h x (ix2 r d) = x (ix2 (0 : Fin 1) d) :=
  broadcastInDim_apply _ h x _ _ (fun c => match c with
    | ⟨0, _⟩ => by
      show 0 = if (1 : Nat) = 1 then 0 else r.val
      rw [if_pos rfl]
    | ⟨1, _⟩ => by
      show d.val = if b = 1 then 0 else d.val
      by_cases hb : b = 1
      · rw [if_pos hb]; have := d.isLt; omega
      · rw [if_neg hb])

/-- The two steps together: a `[b]` vector carried to `[a, b]` reads, at `(r, d)`, the vector's entry `d`. -/
theorem rows_apply {a b : ℕ} (x : (⟨1, ![b]⟩ : Shape).Idx → α)
    (h₁ : (⟨1, ![b]⟩ : Shape).BroadcastsInDim ⟨2, ![1, b]⟩ ![1])
    (h₂ : (⟨2, ![1, b]⟩ : Shape).BroadcastsInDim ⟨2, ![a, b]⟩ ![0, 1]) (r : Fin a) (d : Fin b) :
    broadcastInDim ⟨2, ![a, b]⟩ ![0, 1] h₂ (broadcastInDim ⟨2, ![1, b]⟩ ![1] h₁ x) (ix2 r d) = x (ix1 d) :=
  (broadcastInDim_1b_ab_apply _ h₂ r d).trans (broadcastInDim_b_1b_apply x h₁ 0 d)

/-- A scalar broadcast to any shape holds the scalar at every index. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x _ _ (fun c => c.elim0)

end Cert.RowBroadcast

end
-- ==== Proof.RefSim.lean ====
/-
  The reference's masked similarity, read at an index, is the specification's.

  The stacked rows hold the reals `stack a b`; their Gram matrix is a matrix product with the transpose, so its entry
  `(i, j)` is the inner product of rows `i` and `j`; dividing by the temperature `1/2` doubles it; and the mask that
  compares the row number with the column number picks the fill value exactly on the diagonal.
-/
import proofs.«169670_j40578851012794_1_alg».proof.Proof.RefRunP
import proofs.«169670_j40578851012794_1_alg».proof.Proof.Spec
import proofs.«169670_j40578851012794_1_alg».proof.Proof.Consts
import proofs.«169670_j40578851012794_1_alg».proof.Proof.LibPlainDot
import proofs.«169670_j40578851012794_1_alg».proof.Proof.LibStackRows
import proofs.«169670_j40578851012794_1_alg».proof.Proof.LibRowBroadcast
import proofs.«169670_j40578851012794_1_alg».proof.Proof.LibOnlineSoftmax
import Idealize.ShloMosaic.Lib.ValueIdx
import Idealize.ShloMosaic.Lib.Pipeline.Value
import Idealize.ShloMosaic.Lib.Affine
import Idealize.ShloMosaic.PureOps.Ideal.Laws

noncomputable section

namespace Cert.NtXent.RefValue

open Cert.ReferenceIdeal Cert.ReferenceIdeal.Gen Cert.ReferenceIdeal.ValueP Idealize.ShloMosaic Idealize.ShloMosaic.ValueIdx

/-! ### Integer vectors read at an index -/

theorem cmpi_apply {s : Shape} {w : Nat} (p : CmpIPredicate) (x y : IVec s w) (i : s.Idx) :
    cmpi p x y i = IntOp.cmpi p (x i) (y i) := rfl
theorem addi_apply {s : Shape} {w : Nat} (x y : IVec s w) (i : s.Idx) : addi x y i = x i + y i := rfl
theorem subi_apply {s : Shape} {w : Nat} (x y : IVec s w) (i : s.Idx) : subi x y i = x i - y i := rfl
theorem andi_apply {s : Shape} {w : Nat} (x y : IVec s w) (i : s.Idx) : andi x y i = IntOp.andi (x i) (y i) := rfl
theorem iotaInDim_apply (s : Shape) (w : Nat) (d : Fin s.rank) (i : s.Idx) :
    iotaInDim s w d i = BitVec.ofNat w (i d).val := rfl
theorem constantI_apply (s : Shape) (w : Nat) (b : BitVec w) (i : s.Idx) : constantI s w b i = b := rfl

/-- Two numbers below `2 ^ 32` with the same 32-bit word are equal. -/
theorem ofNat32_inj {x y : ℕ} (hx : x < 8192) (hy : y < 8192) (h : BitVec.ofNat 32 x = BitVec.ofNat 32 y) : x = y := by
  have := congrArg BitVec.toNat h
  simp only [BitVec.toNat_ofNat, Nat.reducePow] at this
  omega

/-- The diagonal mask: row number equal to column number. -/
theorem diag_apply (i j : Fin 8192) :
    cmpi .eq (addi (iotaInDim S8192x8192 32 0) (broadcastInDim S8192x8192 ![] bcast_S_S8192x8192 (constantI S_ 32 0#32)))
      (iotaInDim S8192x8192 32 1) (ix2 i j) = if i = j then 1#1 else 0#1 := by
  rw [cmpi_apply, addi_apply, Cert.RowBroadcast.broadcastInDim_scalar_apply, constantI_apply, iotaInDim_apply, iotaInDim_apply,
    BitVec.add_zero]
  by_cases h : i = j
  · subst h; rw [if_pos rfl]; exact IntOp.cmpi_eq.mpr rfl
  · rw [if_neg h]
    exact eq_zero_of_ne_one fun hc => h (Fin.ext (ofNat32_inj i.isLt j.isLt (IntOp.cmpi_eq.mp hc)))

variable (a b : Fin 4096 → Fin 256 → ℝ)

/-- The stacked rows hold the specification's stacked reals. -/
theorem stacked_apply (A B : (⟨S4096x256, .f32⟩ : BufTy).Contents (Elt Ideal))
    (hA : ∀ i k, A (ix2 i k) = ((a i k : ℝ) : EReal)) (hB : ∀ i k, B (ix2 i k) = ((b i k : ℝ) : EReal))
    (i : Fin 8192) (k : Fin 256) :
    concatenate S8192x256 0 [⟨S4096x256, A⟩, ⟨S4096x256, B⟩] concatenates_S4096x256_S4096x256_S8192x256_d0 (ix2 i k)
      = ((stack a b i k : ℝ) : EReal) := by
  refine (Cert.StackRows.concatenate_rows_apply A B concatenates_S4096x256_S4096x256_S8192x256_d0 i k).trans ?_
  unfold stack
  by_cases h : i.val < 4096
  · rw [dif_pos h, dif_pos h]; exact hA _ _
  · rw [dif_neg h, dif_neg h]; exact hB _ _

/-- The Gram matrix of the stacked rows: entry `(i, j)` is the inner product of rows `i` and `j`. -/
theorem gram_apply (Z : FVec Ideal S8192x256 .f32) (zr : Fin 8192 → Fin 256 → ℝ)
    (hZ : ∀ i k, Z (ix2 i k) = ((zr i k : ℝ) : EReal)) (i j : Fin 8192) :
    Host.dotGeneral (F := Ideal) dot_S8192x256_S256x8192_S8192x8192_1_0_0_1_n_n none Z
        (transpose S256x8192 [1, 0] Z transposes_S8192x256_S256x8192_1_0) (ix2 i j)
      = ((gram zr i j : ℝ) : EReal) := by
  have hd : dot_S8192x256_S256x8192_S8192x8192_1_0_0_1_n_n = DotDims.plain 8192 256 8192 := rfl
  rw [hd]
  refine (Cert.PlainDot.dotGeneral_plain_apply none _ Z _ i j).trans ?_
  unfold gram
  rw [Cert.OnlineSoftmax.coe_sum]
  refine Finset.sum_congr rfl fun k _ => ?_
  rw [transpose_apply [1, 0] Z transposes_S8192x256_S256x8192_1_0 (ix2 k j) (ix2 j k)
    (fun c => match c with | ⟨0, _⟩ => rfl | ⟨1, _⟩ => rfl), hZ, hZ, EReal.coe_mul]

/-- THE MASKED SIMILARITY READ AT `(i, j)`. -/
theorem sim_apply (A B : (⟨S4096x256, .f32⟩ : BufTy).Contents (Elt Ideal))
    (hA : ∀ i k, A (ix2 i k) = ((a i k : ℝ) : EReal)) (hB : ∀ i k, B (ix2 i k) = ((b i k : ℝ) : EReal))
    (nfr : ℝ) (hnf : Ideal.ofBits .f32 0xCE6E6B28#32 = ((nfr : ℝ) : EReal)) (i j : Fin 8192) :
    simV (F := Ideal) A B (ix2 i j) = ((sim (stack a b) nfr i j : ℝ) : EReal) := by
  unfold simV
  rw [select_apply, diag_apply]
  unfold sim
  by_cases h : i = j
  · rw [if_pos h, if_pos h, select_one, Cert.RowBroadcast.broadcastInDim_scalar_apply, constant_apply, hnf]
  · rw [if_neg h, if_neg h, select_zero]
    show Ideal.div (Host.dotGeneral (F := Ideal) _ none _ _ (ix2 i j)) (broadcastInDim S8192x8192 ![] bcast_S_S8192x8192 (constant (F := Ideal) S_ .f32 0x3F000000#32) (ix2 i j)) = _
    rw [gram_apply _ (stack a b) (stacked_apply a b A B hA hB), Cert.RowBroadcast.broadcastInDim_scalar_apply, constant_apply,
      Cert.NtXent.Consts.ofBits_half, Ideal.div_coe (by norm_num), ← EReal.coe_mul]
    congr 1
    norm_num

end Cert.NtXent.RefValue

end
-- ==== Proof.LibHostRowMax.lean ====
/-
  The host's maximum along the rows of a two-axis array, read at a row (program-independent; imports only the library).

  A one-operand reduction with a maximum body over axis 1 of an `[a, b]` array, started from a scalar initial value,
  is at row `i` the fold of `max` over that row's entries `(i, k)` from the initial value, in any order: the
  maximum is commutative and associative on the extended reals, and the indices that drop to `i` are exactly the
  row's. This is the same fold a vector unit's row maximum computes, so the two meet as one term.
-/
import Idealize.ShloMosaic.Lib.ValueIdx
import Idealize.ShloMosaic.PureOps.Ideal.Laws

noncomputable section

namespace Cert.HostRowMax

open Idealize.ShloMosaic Idealize.ShloMosaic.ValueIdx

/-- The index over row `i` with coordinate `k` put back on the reduced axis is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext c; apply Fin.ext
  fin_cases c <;> rfl

/-- At the ideal values the host's reduction with a maximum body along the rows of an `[a, b]` array, from the
    scalar initial value `init`, is at row `i` the fold of `max` over that row's entries from `init`'s value. -/
theorem hostReduce_max_row {a b : ℕ} {φ : FTy} (X : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (i : Fin a) :
    Host.reduce (FloatOps.maximumf (F := Ideal) (φ := φ)) X init h' hu (ix1 i)
      = (Finset.univ : Finset (Fin b)).fold max (init ix0) (fun k => X (ix2 i k)) := by
  refine (Host.reduce_eq_fold_single (FloatOps.maximumf (F := Ideal) (φ := φ)) X init h' h hu (ix1 i)).trans ?_
  have hf : (X ∘ h.lift (ix1 i)) = fun k : Fin b => X (ix2 i k) := funext fun k => congrArg X (lift_row h i k)
  rw [hf, eq_ix0 (Shape.Idx.first hu)]
  rfl

end Cert.HostRowMax

end
-- ==== Proof.LibHostRowSum.lean ====
/-
  The host's sum along the rows of a two-axis array, read at a row (program-independent; imports only the library and
  the row-index lemma of the host's row maximum).

  A one-operand reduction with an add body over axis 1 of an [a, b] array, started from a scalar initial value, is at
  row i the initial value plus the sum of that row's entries (i, k): at the extended reals the host's float sum is
  the exact sum, and the indices that drop to i are exactly the row's.
-/
import Idealize.ShloMosaic.Lib.ValueIdx
import Idealize.ShloMosaic.PureOps.Ideal.Laws
import proofs.«169670_j40578851012794_1_alg».proof.Proof.LibHostRowMax

noncomputable section

namespace Cert.HostRowSum

open Idealize.ShloMosaic Idealize.ShloMosaic.ValueIdx

/-- At the ideal values the host's reduction with an add body along the rows of an [a, b] array, from the scalar
    initial value init, is at row i init's value plus the sum of that row's entries. -/
theorem hostReduceAdd_row {a b : ℕ} {φ : FTy} (X : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (i : Fin a) :
    Host.reduceAdd (F := Ideal) X init h' hu (ix1 i) = init ix0 + ∑ k : Fin b, X (ix2 i k) := by
  unfold Host.reduceAdd
  rw [Ideal.hostReduceAdd_def, Ideal.hostReduceAdd_single h' h, eq_ix0 (Shape.Idx.first hu)]
  exact congrArg (init ix0 + ·) (Finset.sum_congr rfl fun k _ => congrArg X (Cert.HostRowMax.lift_row h i k))

end Cert.HostRowSum

end
-- ==== Proof.LibColumnOps.lean ====
/-
  A vector kept as a column, and a column spread along the rows, as the host spells them (program-independent;
  imports only the library).

  The host writes "keep the reduced axis" as a broadcast of the `[a]` vector into the column `[a, 1]` along axis 0, and
  "divide every row by its own number" as a broadcast of the column `[a, 1]` into `[a, b]` along both axes. Read at an
  index, the first is the vector's entry at the row, and the second the column's entry at the row: the value depends
  on the row alone.
-/
import Idealize.ShloMosaic.Lib.ValueIdx
import Idealize.ShloMosaic.Lib.Pipeline.Value

noncomputable section

namespace Cert.ColumnOps

open Idealize.ShloMosaic Idealize.ShloMosaic.ValueIdx

variable {α : Type}

/-- An `[a]` vector broadcast along axis 0 into the column `[a, 1]` reads, at `(i, z)`, the vector's entry `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (z : Fin 1) :
    broadcastInDim ⟨2, ![a, 1]⟩ ![0] h x (ix2 i z) = x (ix1 i) :=
  broadcastInDim_apply _ h x _ _ (fun c => match c with
    | ⟨0, _⟩ => by
      show i.val = if a = 1 then 0 else i.val
      by_cases ha : a = 1
      · rw [if_pos ha]; have := i.isLt; omega
      · rw [if_neg ha])

/-- A column `[a, 1]` broadcast along both axes into `[a, b]` reads, at `(i, j)`, the column's entry `(i, 0)`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) :=
  broadcastInDim_apply _ h x _ _ (fun c => match c with
    | ⟨0, _⟩ => by
      show i.val = if a = 1 then 0 else i.val
      by_cases ha : a = 1
      · rw [if_pos ha]; have := i.isLt; omega
      · rw [if_neg ha]
    | ⟨1, _⟩ => by
      show 0 = if (1 : Nat) = 1 then 0 else j.val
      rw [if_pos rfl])

end Cert.ColumnOps

end
-- ==== Proof.RefLsm.lean ====
/-
  The reference's log-softmax along rows, read at an index.

  For a matrix of reals `x` (as extended reals): the row maximum is the real maximum of the row (a fold of the maximum
  from -∞, joined once more with -∞); the shifted entries are `x i j - M i`; their exponentials' row sum is a positive
  real, so its logarithm is the real logarithm; and the result at `(i, j)` is `x i j - M i - log (∑ k, exp (x i k - M i))`.
-/
import proofs.«169670_j40578851012794_1_alg».proof.Proof.RefRunP
import proofs.«169670_j40578851012794_1_alg».proof.Proof.Consts
import proofs.«169670_j40578851012794_1_alg».proof.Proof.LibHostRowMax
import proofs.«169670_j40578851012794_1_alg».proof.Proof.LibHostRowSum
import proofs.«169670_j40578851012794_1_alg».proof.Proof.LibColumnOps
import proofs.«169670_j40578851012794_1_alg».proof.Proof.LibRowBroadcast
import proofs.«169670_j40578851012794_1_alg».proof.Proof.LibOnlineSoftmax
import Idealize.ShloMosaic.Lib.ValueIdx
import Idealize.ShloMosaic.Lib.Pipeline.Value
import Idealize.ShloMosaic.PureOps.Ideal.Laws

noncomputable section

namespace Cert.NtXent.RefValue

open Cert.ReferenceIdeal Cert.ReferenceIdeal.Gen Cert.ReferenceIdeal.ValueP Idealize.ShloMosaic Idealize.ShloMosaic.ValueIdx

variable (x : Fin 8192 → Fin 8192 → ℝ)

/-- The row maximum of a matrix of reals is the real maximum of the row. -/
theorem rowMaxV_apply (X : FVec Ideal S8192x8192 .f32) (hX : ∀ i j, X (ix2 i j) = ((x i j : ℝ) : EReal)) (i : Fin 8192) :
    rowMaxV (F := Ideal) X (ix1 i) = ((Finset.univ.sup' Finset.univ_nonempty (x i) : ℝ) : EReal) := by
  unfold rowMaxV
  rw [maximumf_apply, Cert.RowBroadcast.broadcastInDim_scalar_apply, constant_apply, Cert.NtXent.Consts.ofBits_neg_inf,
    Cert.HostRowMax.hostReduce_max_row X _ reducesTo_S8192x8192_S8192_d1 (by decide) h_S_ i, constant_apply,
    Cert.NtXent.Consts.ofBits_neg_inf, max_eq_right bot_le]
  have hrow : (fun k => X (ix2 i k)) = fun k => ((x i k : ℝ) : EReal) := funext fun k => hX i k
  rw [hrow]
  exact Cert.OnlineSoftmax.fold_max_coe Finset.univ Finset.univ_nonempty (x i)

/-- Each entry less its row's entry of `MX`. -/
theorem shift2_apply (X : FVec Ideal S8192x8192 .f32) (MX : FVec Ideal S8192 .f32) (i j : Fin 8192) :
    shift2 (F := Ideal) X MX (ix2 i j) = X (ix2 i j) - MX (ix1 i) := by
  unfold shift2
  rw [subf_apply, Cert.ColumnOps.broadcastInDim_a1_ab_apply, Cert.ColumnOps.broadcastInDim_a_a1_apply]

/-- The row sums of the exponentials, from `0`. -/
theorem rowSumV_apply (Y : FVec Ideal S8192x8192 .f32) (i : Fin 8192) :
    rowSumV (F := Ideal) Y (ix1 i) = 0 + ∑ k : Fin 8192, Ideal.exp (Y (ix2 i k)) := by
  unfold rowSumV
  rw [Cert.HostRowSum.hostReduceAdd_row _ _ reducesTo_S8192x8192_S8192_d1 (by decide) h_S_ i, constant_apply,
    Cert.NtXent.Consts.ofBits_zero]
  rfl

/-- Each entry less the logarithm of its row's entry of `S`. -/
theorem lsm2_apply (Y : FVec Ideal S8192x8192 .f32) (S : FVec Ideal S8192 .f32) (i j : Fin 8192) :
    lsm2 (F := Ideal) Y S (ix2 i j) = Y (ix2 i j) - Ideal.log (S (ix1 i)) := by
  unfold lsm2
  rw [subf_apply, Cert.ColumnOps.broadcastInDim_a1_ab_apply]
  show _ - Ideal.log (broadcastInDim S8192x1 ![0] bcast_S8192_S8192x1_0 S (ix2 i 0)) = _
  rw [Cert.ColumnOps.broadcastInDim_a_a1_apply]

/-- THE LOG-SOFTMAX OF A MATRIX OF REALS READ AT `(i, j)`. -/
theorem lsmV_apply (X : FVec Ideal S8192x8192 .f32) (hX : ∀ i j, X (ix2 i j) = ((x i j : ℝ) : EReal)) (i j : Fin 8192) :
    lsmV (F := Ideal) X (ix2 i j)
      = ((x i j - Finset.univ.sup' Finset.univ_nonempty (x i)
          - Real.log (∑ k : Fin 8192, Real.exp (x i k - Finset.univ.sup' Finset.univ_nonempty (x i))) : ℝ) : EReal) := by
  have hsh : ∀ k : Fin 8192, shift2 (F := Ideal) X (rowMaxV X) (ix2 i k)
      = ((x i k - Finset.univ.sup' Finset.univ_nonempty (x i) : ℝ) : EReal) := fun k => by
    rw [shift2_apply, rowMaxV_apply x X hX i, hX, ← EReal.coe_sub]
  have hs : (∑ k : Fin 8192, Ideal.exp (shift2 (F := Ideal) X (rowMaxV X) (ix2 i k)))
      = ((∑ k : Fin 8192, Real.exp (x i k - Finset.univ.sup' Finset.univ_nonempty (x i)) : ℝ) : EReal) := by
    rw [Cert.OnlineSoftmax.coe_sum]
    exact Finset.sum_congr rfl fun k _ => by rw [hsh k, Ideal.exp_coe]
  unfold lsmV
  rw [lsm2_apply, rowSumV_apply, hs, hsh j, zero_add, Ideal.log_coe,
    if_neg (not_le.mpr (Finset.sum_pos (fun k _ => Real.exp_pos _) Finset.univ_nonempty)), ← EReal.coe_sub]

end Cert.NtXent.RefValue

end
-- ==== Proof.RefTake.lean ====
/-
  The reference's gather along rows, read at a row.

  Row `i`'s partner column is `target i` (`i + 4096` below 4096, `i - 4096` from there on), a number in `[0, 8191]`: as a
  32-bit word it is non-negative, so the wrap of negative indices leaves it, the in-range mask is all ones, and the
  gather — which on the batching axis keeps the row and on the other axis reads the clamped start index — reads
  column `target i` of row `i`.
-/
import proofs.«169670_j40578851012794_1_alg».proof.Proof.RefSim
import proofs.«169670_j40578851012794_1_alg».proof.Proof.LibColumnOps
import Idealize.ShloMosaic.Lib.ReduceAll

noncomputable section

namespace Cert.NtXent.RefValue

open Cert.ReferenceIdeal Cert.ReferenceIdeal.Gen Cert.ReferenceIdeal.ValueP Idealize.ShloMosaic Idealize.ShloMosaic.ValueIdx

/-! ### Small words -/

/-- A number below `2 ^ 31` as a 32-bit word reads back, signed, as itself. -/
theorem toInt_ofNat32 {n : ℕ} (h : n < 2147483648) : (BitVec.ofNat 32 n).toInt = (n : ℤ) := by
  rw [BitVec.toInt_eq_toNat_cond, BitVec.toNat_ofNat]
  simp only [Nat.reducePow]
  have hm : n % 4294967296 = n := Nat.mod_eq_of_lt (by omega)
  rw [hm, if_pos (by omega)]

/-- A comparison word that is not one is zero. -/
theorem cmpi_eq_zero {w : Nat} {p : CmpIPredicate} {x y : BitVec w} (h : ¬ IntOp.cmpi p x y = 1#1) : IntOp.cmpi p x y = 0#1 :=
  eq_zero_of_ne_one h

/-! ### The partner column -/

/-- Row `i`'s partner column, as a word. -/
theorem partner_apply (i : Fin 8192) : partner (F := Ideal) (ix1 i) = BitVec.ofNat 32 (target i).val := by
  unfold partner
  rw [select_apply, cmpi_apply, addi_apply, subi_apply, iotaInDim_apply, Cert.RowBroadcast.broadcastInDim_scalar_apply,
    constantI_apply]
  show Scalar.select (IntOp.cmpi .slt (BitVec.ofNat 32 i.val) 4096#32) (BitVec.ofNat 32 i.val + 4096#32)
    (BitVec.ofNat 32 i.val - 4096#32) = _
  have hi := i.isLt
  unfold target
  by_cases h : i.val < 4096
  · have hc : IntOp.cmpi .slt (BitVec.ofNat 32 i.val) 4096#32 = 1#1 :=
      IntOp.cmpi_slt.mpr (by rw [toInt_ofNat32 (by omega)]; show (i.val : ℤ) < 4096; omega)
    rw [hc, select_one, dif_pos h]
    exact (BitVec.ofNat_add i.val 4096).symm
  · have hc : IntOp.cmpi .slt (BitVec.ofNat 32 i.val) 4096#32 = 0#1 :=
      cmpi_eq_zero fun hc => by
        have := IntOp.cmpi_slt.mp hc
        rw [toInt_ofNat32 (by omega)] at this
        have h4 : (4096#32 : BitVec 32).toInt = 4096 := by decide
        rw [h4] at this
        omega
    rw [hc, select_zero, dif_neg h]
    apply BitVec.eq_of_toNat_eq
    rw [BitVec.toNat_sub, BitVec.toNat_ofNat, BitVec.toNat_ofNat, BitVec.toNat_ofNat]
    simp only [Nat.reducePow, Nat.reduceMod]
    omega

/-! ### The index the gather reads -/

/-- A vector as a column, at a row. -/
theorem colV_apply (t : IVec S8192 32) (i : Fin 8192) (z : Fin 1) : colV (F := Ideal) t (ix2 i z) = t (ix1 i) := by
  unfold colV
  exact Cert.ColumnOps.broadcastInDim_a_a1_apply t bcast_S8192_S8192x1_0 i z

/-- The wrap of negative indices leaves a non-negative one. -/
theorem wrapSel_apply_of_nonneg (v : IVec S8192x1 32) (q : S8192x1.Idx) (h : 0 ≤ (v q).toInt) :
    wrapSel (F := Ideal) v q = v q := by
  unfold wrapSel
  rw [select_apply, cmpi_apply, Cert.RowBroadcast.broadcastInDim_scalar_apply, constantI_apply]
  have hc : IntOp.cmpi .slt (v q) 0#32 = 0#1 := cmpi_eq_zero fun hc => by
    have := IntOp.cmpi_slt.mp hc
    have h0 : (0#32 : BitVec 32).toInt = 0 := by decide
    rw [h0] at this
    omega
  rw [hc, select_zero]

/-- A column as a column of one-entry vectors: the same entries. -/
theorem idx3_apply (v : IVec S8192x1 32) (i : Fin 8192) (y z : Fin 1) : idx3 (F := Ideal) v (ix3 i y z) = v (ix2 i y) := by
  unfold idx3
  exact shapeCast_apply v shapeCasts_S8192x1_S8192x1x1 _ _ (by
    rw [Shape.rowMajor_val_two, Shape.rowMajor_val_three]
    show i.val * 1 + y.val = (i.val * 1 + y.val) * 1 + z.val
    have := z.isLt
    omega)

/-- The index the gather reads at row `i`: the partner column, as a word. -/
theorem wrapIdx_partner_apply (i : Fin 8192) (y z : Fin 1) :
    wrapIdx (F := Ideal) (partner (F := Ideal)) (ix3 i y z) = BitVec.ofNat 32 (target i).val := by
  have ht := (target i).isLt
  have hcol : colV (F := Ideal) (partner (F := Ideal)) (ix2 i y) = BitVec.ofNat 32 (target i).val := by
    rw [colV_apply, partner_apply]
  unfold wrapIdx
  rw [idx3_apply, wrapSel_apply_of_nonneg _ _ (by rw [hcol, toInt_ofNat32 (by omega)]; omega), hcol]

/-! ### The in-range mask -/

/-- A constant integer vector broadcast, at any index. -/
theorem broadcastInDim_constantI {s t : Shape} (dims : Fin s.rank → Fin t.rank) (h : s.BroadcastsInDim t dims) (w : Nat)
    (b : BitVec w) (j : t.Idx) : broadcastInDim t dims h (constantI s w b) j = b := rfl

/-- A left fold of `and` from one over words that are all one is one. -/
theorem foldl_andi_ones {ι : Type} (l : List ι) (p : ι → BitVec 1) (hp : ∀ q, p q = 1#1) :
    l.foldl (fun r q => IntOp.andi r (p q)) 1#1 = 1#1 := by
  induction l with
  | nil => rfl
  | cons q l ih =>
    have h1 : IntOp.andi (1#1 : BitVec 1) 1#1 = 1#1 := by decide
    rw [List.foldl_cons, hp q, h1]
    exact ih

/-- Indices that all lie in `[0, 8191]` pass the in-range mask. -/
theorem inRange_apply (I : IVec S8192x1x1 32) (hI : ∀ q, 0 ≤ (I q).toInt ∧ (I q).toInt ≤ 8191) (j : S8192x1.Idx) :
    inRange (F := Ideal) I j = 1#1 := by
  unfold inRange
  rw [Host.reduce_eq_foldl]
  refine foldl_andi_ones _ _ fun q => ?_
  rw [andi_apply, cmpi_apply, cmpi_apply, broadcastInDim_constantI]
  have h8 : broadcastInDim S8192x1x1 ![0, 1, 2] bcast_S1x1x1_S8192x1x1_0_1_2
      (broadcastInDim S1x1x1 ![2] bcast_S1_S1x1x1_2 (constantI S1 32 8191#32)) q = 8191#32 := rfl
  rw [h8]
  have h0 : (0#32 : BitVec 32).toInt = 0 := by decide
  have h81 : (8191#32 : BitVec 32).toInt = 8191 := by decide
  exact IntOp.andi_eq_one.mpr ⟨IntOp.cmpi_sge.mpr (by rw [h0]; exact (hI q).1), IntOp.cmpi_sle.mpr (by rw [h81]; exact (hI q).2)⟩

/-! ### The gather -/

/-- THE GATHER ALONG ROWS READ AT ROW `i`: the row is kept (the batching axis) and the column is the start index, read
    signed and clamped into `[0, 8191]`. -/
theorem gather_rows_apply {α : Type} (Y : S8192x8192.Idx → α) (I : IVec S8192x1x1 32) (i : Fin 8192) (z : Fin 1) :
    Host.gather gather_S8192x8192_S8192x1x1_S8192x1_n_1_0_0_1_2_11 Y I (ix2 i z)
      = Y (ix2 i ⟨min (I (ix3 i z 0)).toInt.toNat 8191, by omega⟩) := by
  unfold Host.gather
  congr 1
  funext a
  refine Fin.ext ?_
  have hb0 : (0 : Fin 2) ∈ gather_S8192x8192_S8192x1x1_S8192x1_n_1_0_0_1_2_11.operandBatchingDims := List.mem_singleton.mpr rfl
  have hb1 : (1 : Fin 2) ∉ gather_S8192x8192_S8192x1x1_S8192x1_n_1_0_0_1_2_11.operandBatchingDims := by decide
  have hc1 : (1 : Fin 2) ∈ gather_S8192x8192_S8192x1x1_S8192x1_n_1_0_0_1_2_11.collapsedSliceDims := List.mem_singleton.mpr rfl
  match a with
  | ⟨0, _⟩ =>
    show gather_S8192x8192_S8192x1x1_S8192x1_n_1_0_0_1_2_11.start (ix2 i z) I 0
        + gather_S8192x8192_S8192x1x1_S8192x1_n_1_0_0_1_2_11.batchCoord (ix2 i z) 0
        + gather_S8192x8192_S8192x1x1_S8192x1_n_1_0_0_1_2_11.offCoord (ix2 i z) 0 = i.val
    rw [GatherDims.start_batching _ _ _ _ hb0,
      GatherDims.offCoord_eq_zero _ _ _ (fun h => ((GatherDims.mem_sKept _ _).mp h).2 hb0)]
    simp only [Nat.zero_add, Nat.add_zero]
    unfold GatherDims.batchCoord
    rw [dif_pos hb0]
    rfl
  | ⟨1, _⟩ =>
    show gather_S8192x8192_S8192x1x1_S8192x1_n_1_0_0_1_2_11.start (ix2 i z) I 1
        + gather_S8192x8192_S8192x1x1_S8192x1_n_1_0_0_1_2_11.batchCoord (ix2 i z) 1
        + gather_S8192x8192_S8192x1x1_S8192x1_n_1_0_0_1_2_11.offCoord (ix2 i z) 1 = min (I (ix3 i z 0)).toInt.toNat 8191
    rw [GatherDims.batchCoord_eq_zero _ _ _ hb1,
      GatherDims.offCoord_eq_zero _ _ _ (fun h => ((GatherDims.mem_sKept _ _).mp h).1 hc1)]
    simp only [Nat.add_zero]
    unfold GatherDims.start
    rw [dif_pos (show (1 : Fin 2) ∈ gather_S8192x8192_S8192x1x1_S8192x1_n_1_0_0_1_2_11.startIndexMap from List.mem_singleton.mpr rfl)]
    have hsi : gather_S8192x8192_S8192x1x1_S8192x1_n_1_0_0_1_2_11.siIdx (ix2 i z)
        ⟨List.idxOf (1 : Fin 2) gather_S8192x8192_S8192x1x1_S8192x1_n_1_0_0_1_2_11.startIndexMap,
          List.idxOf_lt_length_iff.2 (List.mem_singleton.mpr rfl)⟩ = ix3 i z 0 := by
      funext b; refine Fin.ext ?_
      match b with
      | ⟨0, _⟩ => rfl
      | ⟨1, _⟩ => rfl
      | ⟨2, _⟩ => rfl
    rw [hsi]
    rfl

/-- THE TAKE ALONG ROWS AT THE PARTNER COLUMNS, READ AT ROW `i`: the entry at column `target i`. -/
theorem takeV_partner_apply (Y : FVec Ideal S8192x8192 .f32) (i : Fin 8192) (z : Fin 1) :
    takeV (F := Ideal) Y (partner (F := Ideal)) (ix2 i z) = Y (ix2 i (target i)) := by
  have ht := (target i).isLt
  have hI : ∀ q : S8192x1x1.Idx, 0 ≤ (wrapIdx (F := Ideal) (partner (F := Ideal)) q).toInt
      ∧ (wrapIdx (F := Ideal) (partner (F := Ideal)) q).toInt ≤ 8191 := fun q => by
    obtain ⟨i', y', z', rfl⟩ : ∃ (i' : Fin 8192) (y' z' : Fin 1), q = ix3 i' y' z' :=
      ⟨q 0, q 1, q 2, eq_ix3 (n0 := 8192) (n1 := 1) (n2 := 1) q⟩
    have := (target i').isLt
    rw [wrapIdx_partner_apply, toInt_ofNat32 (by omega)]
    omega
  unfold takeV take3
  rw [select_apply, inRange_apply _ hI, select_one, gather_rows_apply]
  refine congrArg (fun k : Fin 8192 => Y (ix2 i k)) (Fin.ext ?_)
  show min (wrapIdx (F := Ideal) (partner (F := Ideal)) (ix3 i z 0)).toInt.toNat 8191 = (target i).val
  rw [wrapIdx_partner_apply, toInt_ofNat32 (by omega), Int.toNat_natCast]
  omega

end Cert.NtXent.RefValue

end
-- ==== Proof.RefValue.lean ====
/-
  The reference's result is the specification's loss.

  The reference computes minus the mean over the rows of the log-softmax of the masked similarity at each row's partner
  column. Entry by entry every intermediate value is a real: the masked similarity is `sim`, its log-softmax at
  `(i, target i)` is `sim i (target i) - rowMax i - log (∑ j, exp (sim i j - rowMax i))`, which is minus the
  specification's row term, and minus the mean of those is the mean of the row terms.
-/
import proofs.«169670_j40578851012794_1_alg».proof.Proof.RefSim
import proofs.«169670_j40578851012794_1_alg».proof.Proof.RefLsm
import proofs.«169670_j40578851012794_1_alg».proof.Proof.RefTake

noncomputable section

namespace Cert.NtXent.RefValue

open Cert.ReferenceIdeal Cert.ReferenceIdeal.Gen Cert.ReferenceIdeal.ValueP Idealize.ShloMosaic Idealize.ShloMosaic.ValueIdx
  Idealize.SL.Sem

/-- Minus the mean over the 8192 rows of a column of reals. -/
theorem meanNeg_apply (T : FVec Ideal S8192x1 .f32) (r : Fin 8192 → ℝ)
    (hT : ∀ i, T (ix2 i (0 : Fin 1)) = ((r i : ℝ) : EReal)) (j : S_.Idx) :
    meanNeg (F := Ideal) T j = ((-((∑ i, r i) / 8192) : ℝ) : EReal) := by
  unfold meanNeg
  show -(Ideal.div (Host.reduceAdd (F := Ideal) T (constant S_ .f32 0x00000000#32) reducesTo_S8192x1_S_d0_1 h_S_ j)
    (constant (F := Ideal) S_ .f32 0x46000000#32 j)) = _
  unfold Host.reduceAdd
  rw [Ideal.hostReduceAdd_def, Ideal.hostReduceAdd_total reducesTo_S8192x1_S_d0_1 (fun b => b.elim0), constant_apply,
    constant_apply, Cert.NtXent.Consts.ofBits_zero, Cert.NtXent.Consts.ofBits_8192, sum_idx2]
  have hsum : (∑ i : Fin 8192, ∑ z : Fin 1, T (ix2 i z)) = ∑ i : Fin 8192, ((r i : ℝ) : EReal) :=
    Finset.sum_congr rfl fun i _ => by rw [Fin.sum_univ_one]; exact hT i
  rw [hsum, Cert.OnlineSoftmax.mean_coe Finset.univ r (by norm_num : (8192 : ℝ) ≠ 0), EReal.coe_neg]

/-- THE REFERENCE'S RESULT: the specification's loss of the stacked rows, whatever real the fill literal denotes. -/
theorem ref_value (m' : (ℓ : Loc nD τ sig) → Buf (Elt Ideal) ℓ) (c : Dev nD) (a b : Fin 4096 → Fin 256 → ℝ)
    (ha : ∀ i k, m' ((c.tc : Thread nD τ).loc main_arg0) (ix2 i k) = ((a i k : ℝ) : EReal))
    (hb : ∀ i k, m' ((c.tc : Thread nD τ).loc main_arg1) (ix2 i k) = ((b i k : ℝ) : EReal))
    (nfr : ℝ) (hnf : Ideal.ofBits .f32 0xCE6E6B28#32 = ((nfr : ℝ) : EReal)) :
    Cert.ReferenceIdeal.ValueP.res_main_v24 (F := Ideal) m' c
      = fun _ => ((Cert.NtXent.loss (Cert.NtXent.stack a b) nfr : ℝ) : EReal) := by
  funext j
  unfold res_main_v24
  have hX := sim_apply a b _ _ ha hb nfr hnf
  have hL := lsmV_apply (sim (stack a b) nfr) _ hX
  refine (meanNeg_apply _ (fun i => sim (stack a b) nfr i (target i)
      - Finset.univ.sup' Finset.univ_nonempty (sim (stack a b) nfr i)
      - Real.log (∑ k : Fin 8192, Real.exp (sim (stack a b) nfr i k
          - Finset.univ.sup' Finset.univ_nonempty (sim (stack a b) nfr i)))) (fun i => ?_) j).trans ?_
  · rw [takeV_partner_apply, hL]
  · congr 1
    unfold loss rowLoss rowMax
    rw [← neg_div, ← Finset.sum_neg_distrib]
    congr 1
    exact Finset.sum_congr rfl fun i _ => by ring

/-- The same at the real the fill literal does denote, `-10^9`. -/
theorem ref_value_fill (m' : (ℓ : Loc nD τ sig) → Buf (Elt Ideal) ℓ) (c : Dev nD) (a b : Fin 4096 → Fin 256 → ℝ)
    (ha : ∀ i k, m' ((c.tc : Thread nD τ).loc main_arg0) (ix2 i k) = ((a i k : ℝ) : EReal))
    (hb : ∀ i k, m' ((c.tc : Thread nD τ).loc main_arg1) (ix2 i k) = ((b i k : ℝ) : EReal)) :
    Cert.ReferenceIdeal.ValueP.res_main_v24 (F := Ideal) m' c
      = fun _ => ((Cert.NtXent.loss (Cert.NtXent.stack a b) Cert.NtXent.Consts.negFillR : ℝ) : EReal) :=
  ref_value m' c a b ha hb _ Cert.NtXent.Consts.ofBits_negFill

end Cert.NtXent.RefValue

end
-- ==== Proof.Finite.lean ====
/-
  From the precondition to real numbers.

  The precondition says that `all (|x| < +inf)` holds of both argument matrices, on every device: a conjunction of two
  reductions by `and` over all entries, each from the constant 1. A conjunction of two bits is 1 only if both are; a
  reduction by `and` over all entries is 1 only if every entry's bit is; and at the ideal values (floats are extended
  reals, `|x| = max x (-x)`, `+inf = ⊤`) the bit of `|x| < +inf` is 1 only if `x` is neither `⊤` nor `⊥`, that is a
  real number. So every entry of both matrices is the image of a real, and choosing those reals gives two real
  matrices of which the arguments are the images.
-/
import proofs.«169670_j40578851012794_1_alg».proof.Defs
import proofs.«169670_j40578851012794_1_alg».proof.Proof.Gen.Pre_finite_inputs
import proofs.«169670_j40578851012794_1_alg».proof.Proof.Consts
import Idealize.ShloMosaic.Lib.ReduceAll
import Idealize.ShloMosaic.Lib.ValueIdx

noncomputable section

namespace Cert.NtXent.Finite

open Idealize.ShloMosaic Idealize.SL.Sem Idealize.ShloMosaic.ValueIdx

/-- A rank-0 shape has one index. -/
instance : Subsingleton Cert.Pre_finite_inputs.S_.Idx := ⟨fun a b => funext fun d => d.elim0⟩

/-- An extended real whose absolute value `max x (-x)` is below `⊤` is a real number: `⊤` and `⊥` both have
    absolute value `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The comparison `|x| < +inf` at the ideal values, read back: its bit is 1 only at a real number. -/
theorem real_of_cmp (x : EReal)
    (h : Ideal.cmp .olt (max x (-x)) (Ideal.ofBits .f32 0x7F800000#32) = 1#1) : ∃ r : ℝ, x = (r : EReal) := by
  rw [Cert.NtXent.Consts.ofBits_pos_inf] at h
  apply real_of_abs_lt_top
  by_contra hn
  simp [Ideal.cmp, hn] at h

/-- Under the precondition both argument matrices, on every device, are the images of real matrices. -/
theorem finite_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    ∃ a b : Fin 4096 → Fin 256 → ℝ,
      (∀ i k, m ((c.tc : Thread Cert.KernelIdeal.nD Cert.KernelIdeal.τ).loc Cert.KernelIdeal.main_arg0) (ix2 i k)
          = ((a i k : ℝ) : EReal))
      ∧ (∀ i k, m ((c.tc : Thread Cert.KernelIdeal.nD Cert.KernelIdeal.τ).loc Cert.KernelIdeal.main_arg1) (ix2 i k)
          = ((b i k : ℝ) : EReal)) := by
  -- the precondition's one bit, on device `c`
  have e := congrFun (h c) ix0
  dsimp only [Cert.Pre_finite_inputs.fn] at e
  -- both conjuncts are 1
  obtain ⟨e0, e1⟩ := IntOp.andi_eq_one.1 e
  -- each is a reduction by `and` over all entries: every entry's bit is 1, so every entry is a real
  have h0 : ∀ i k, ∃ r : ℝ,
      m ((c.tc : Thread Cert.KernelIdeal.nD Cert.KernelIdeal.τ).loc Cert.KernelIdeal.main_arg0) (ix2 i k) = (r : EReal) :=
    fun i k => real_of_cmp _ (Host.reduce_andi_all _ _ _ _ ix0 e0 (ix2 i k))
  have h1 : ∀ i k, ∃ r : ℝ,
      m ((c.tc : Thread Cert.KernelIdeal.nD Cert.KernelIdeal.τ).loc Cert.KernelIdeal.main_arg1) (ix2 i k) = (r : EReal) :=
    fun i k => real_of_cmp _ (Host.reduce_andi_all _ _ _ _ ix0 e1 (ix2 i k))
  exact ⟨fun i k => (h0 i k).choose, fun i k => (h1 i k).choose,
    fun i k => (h0 i k).choose_spec, fun i k => (h1 i k).choose_spec⟩

end Cert.NtXent.Finite

end
-- ==== Proof.lean ====
/-
  The proof of `Cert.Claim`: the three frames, the idealization's empty ledger, and the equality of the two idealized
  programs' results over the extended reals.

  The kernel streams the similarity matrix of the 8192 stacked rows tile by tile, 2048 × 2048 at a time, and keeps per row
  a running maximum and a running sum of exponentials rescaled to it (the online form of log-sum-exp), the diagonal filled
  with −10⁹; the reference forms the whole matrix and takes the log-softmax. With every input entry a real number, both end
  at the mean over the rows of  log ∑ⱼ exp sᵢⱼ − sᵢ,ₜ₍ᵢ₎  (Spec.lean's `loss`): the kernel by the invariant of the
  online recurrence over the four column tiles of a row tile, the reference by reading its operations at an index; the
  rescaling identity  exp (a − b) · ∑ exp (xⱼ − a) = ∑ exp (xⱼ − b)  is what joins the two, and it is where finiteness of
  the inputs is used. The frames of the two kernel programs come from one launch of the region whose two input windows
  read the same array, each holding half of it.
-/
import proofs.«169670_j40578851012794_1_alg».proof.Defs
import proofs.«169670_j40578851012794_1_alg».proof.Proof.Gen.Kernel
import proofs.«169670_j40578851012794_1_alg».proof.Proof.Gen.KernelIdeal
import proofs.«169670_j40578851012794_1_alg».proof.Proof.Gen.ReferenceIdeal
import proofs.«169670_j40578851012794_1_alg».proof.Proof.Gen.Pre_finite_inputs
import proofs.«169670_j40578851012794_1_alg».proof.Proof.KernelRunBits
import proofs.«169670_j40578851012794_1_alg».proof.Proof.KernelValue
import proofs.«169670_j40578851012794_1_alg».proof.Proof.RefValue
import proofs.«169670_j40578851012794_1_alg».proof.Proof.Finite

noncomputable section

namespace Cert.Proof

open Idealize.ShloMosaic Idealize.SL.Sem

/-- The word-level kernel program runs to the end, faults nowhere and leaves its arguments unchanged. -/
theorem frame_p : Cert.frame_Kernel (hKernel := Cert.Kernel.Gen.facts) (hPre_finite_inputs := Cert.Pre_finite_inputs.Gen.facts) :=
  fun m ρ _ => Cert.Kernel.Body.frame m ρ

/-- So does its idealization. -/
theorem frame_pi : Cert.frame_KernelIdeal (hKernelIdeal := Cert.KernelIdeal.Gen.facts) (hPre_finite_inputs := Cert.Pre_finite_inputs.Gen.facts) :=
  fun m ρ _ => Cert.KernelIdeal.Body.frame m ρ

/-- The reference is host operations only: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both idealized programs end at the loss of the stacked inputs: the precondition gives every input entry as a real
    number, the kernel's run and the reference's run each end at `loss` of those reals. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  choose a b ha hb using fun c => Cert.NtXent.Finite.finite_of_pre m hpre c
  refine ⟨fun c => (fun _ => ((Cert.NtXent.loss (Cert.NtXent.stack (a c) (b c)) Cert.NtXent.Consts.negFillR : ℝ) : EReal)),
    Cert.NtXent.KernelValue.run m ρ a b ha hb, ?_⟩
  refine (θ_run Cert.ReferenceIdeal.defs _ _).mono (fun _ h c => ⟨(h c).1.trans ?_, (h c).2⟩)
    (Cert.ReferenceIdeal.ValueP.run (F := Ideal) m' ρ')
  exact Cert.NtXent.RefValue.ref_value_fill m' c (a c) (b c)
    (fun i k => by rw [(hagree c).1]; exact ha c i k) (fun i k => by rw [(hagree c).2]; exact hb c i k)

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
